-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v153)) (v1 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_v157) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg8 : FVec F S3x64 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  main_v38

def fn_part1 {F : FTy → Type} [FloatOps F] (main_arg5 : FVec F S3x64x64 .f32) (main_arg6 : FVec F S3x64 .f32) (main_arg7 : FVec F S3x64x64 .f32) (main_arg8 : FVec F S3x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x64 .f32 := Host.absf main_arg5
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64x64 .f32 := Host.absf main_arg7
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000 .f32) (main_arg3 : FVec F S128x64 .f32) (main_arg4 : FVec F S64 .f32) (main_arg5 : FVec F S3x64x64 .f32) (main_arg6 : FVec F S3x64 .f32) (main_arg7 : FVec F S3x64x64 .f32) (main_arg8 : FVec F S3x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S1x800000 : Shape := ⟨2, ![1, 800000]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x50000x64 : Shape := ⟨3, ![1, 50000, 64]⟩
abbrev S3x50000x64 : Shape := ⟨3, ![3, 50000, 64]⟩

abbrev nBuf : Space → Nat
  | .hbm => 185
  | .vmem => 60
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x64, .f32⟩
  | 4 => ⟨S64, .f32⟩
  | 5 => ⟨S3x64x64, .f32⟩
  | 6 => ⟨S3x64, .f32⟩
  | 7 => ⟨S3x64x64, .f32⟩
  | 8 => ⟨S3x64, .f32⟩
  | 9 => ⟨S1x800000, .i32⟩
  | 10 => ⟨S800000, .i32⟩
  | 11 => ⟨S1x800000, .i32⟩
  | 12 => ⟨S800000, .i32⟩
  | 13 => ⟨S1x64, .f32⟩
  | 14 => ⟨S50000x64, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S800000x1, .f32⟩
  | 25 => ⟨S800000x64, .f32⟩
  | 26 => ⟨S800000x64, .f32⟩
  | 27 => ⟨S_, .f32⟩
  | 28 => ⟨S50000x64, .f32⟩
  | 29 => ⟨S800000x1, .i32⟩
  | 30 => ⟨S50000x64, .f32⟩
  | 31 => ⟨S1x64x64, .f32⟩
  | 32 => ⟨S64x64, .f32⟩
  | 33 => ⟨S1x64, .f32⟩
  | 34 => ⟨S64, .f32⟩
  | 35 => ⟨S1x64x64, .f32⟩
  | 36 => ⟨S64x64, .f32⟩
  | 37 => ⟨S1x64, .f32⟩
  | 38 => ⟨S64, .f32⟩
  | 39 => ⟨S1x64, .f32⟩
  | 40 => ⟨S1x64, .f32⟩
  | 41 => ⟨S50000x64, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x64, .f32⟩
  | 51 => ⟨S800000x1, .f32⟩
  | 52 => ⟨S800000x64, .f32⟩
  | 53 => ⟨S800000x64, .f32⟩
  | 54 => ⟨S_, .f32⟩
  | 55 => ⟨S50000x64, .f32⟩
  | 56 => ⟨S800000x1, .i32⟩
  | 57 => ⟨S50000x64, .f32⟩
  | 58 => ⟨S1x64x64, .f32⟩
  | 59 => ⟨S64x64, .f32⟩
  | 60 => ⟨S1x64, .f32⟩
  | 61 => ⟨S64, .f32⟩
  | 62 => ⟨S1x64x64, .f32⟩
  | 63 => ⟨S64x64, .f32⟩
  | 64 => ⟨S1x64, .f32⟩
  | 65 => ⟨S64, .f32⟩
  | 66 => ⟨S1x64, .f32⟩
  | 67 => ⟨S1x64, .f32⟩
  | 68 => ⟨S50000x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .f32⟩
  | 78 => ⟨S800000x1, .f32⟩
  | 79 => ⟨S800000x64, .f32⟩
  | 80 => ⟨S800000x64, .f32⟩
  | 81 => ⟨S_, .f32⟩
  | 82 => ⟨S50000x64, .f32⟩
  | 83 => ⟨S800000x1, .i32⟩
  | 84 => ⟨S50000x64, .f32⟩
  | 85 => ⟨S1x64x64, .f32⟩
  | 86 => ⟨S64x64, .f32⟩
  | 87 => ⟨S1x64, .f32⟩
  | 88 => ⟨S64, .f32⟩
  | 89 => ⟨S1x64x64, .f32⟩
  | 90 => ⟨S64x64, .f32⟩
  | 91 => ⟨S1x64, .f32⟩
  | 92 => ⟨S64, .f32⟩
  | 93 => ⟨S1x64, .f32⟩
  | 94 => ⟨S1x64, .f32⟩
  | 95 => ⟨S50000x64, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x64, .f32⟩
  | 105 => ⟨S800000x1, .f32⟩
  | 106 => ⟨S800000x64, .f32⟩
  | 107 => ⟨S800000x64, .f32⟩
  | 108 => ⟨S_, .f32⟩
  | 109 => ⟨S50000x64, .f32⟩
  | 110 => ⟨S800000x1, .i32⟩
  | 111 => ⟨S50000x64, .f32⟩
  | 112 => ⟨S1x64x64, .f32⟩
  | 113 => ⟨S64x64, .f32⟩
  | 114 => ⟨S1x64, .f32⟩
  | 115 => ⟨S64, .f32⟩
  | 116 => ⟨S1x64x64, .f32⟩
  | 117 => ⟨S64x64, .f32⟩
  | 118 => ⟨S1x64, .f32⟩
  | 119 => ⟨S64, .f32⟩
  | 120 => ⟨S1x64, .f32⟩
  | 121 => ⟨S1x64, .f32⟩
  | 122 => ⟨S50000x64, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_1 (i : Nat) : BufTy := match i % 128 with
  | 0 => ⟨S800000, .i32⟩
  | 1 => ⟨S800000, .i32⟩
  | 2 => ⟨S800000x1, .i32⟩
  | 3 => ⟨S800000x64, .f32⟩
  | 4 => ⟨S800000x1, .f32⟩
  | 5 => ⟨S800000x64, .f32⟩
  | 6 => ⟨S800000x64, .f32⟩
  | 7 => ⟨S_, .f32⟩
  | 8 => ⟨S50000x64, .f32⟩
  | 9 => ⟨S800000x1, .i32⟩
  | 10 => ⟨S50000x64, .f32⟩
  | 11 => ⟨S1x64x64, .f32⟩
  | 12 => ⟨S64x64, .f32⟩
  | 13 => ⟨S1x64, .f32⟩
  | 14 => ⟨S64, .f32⟩
  | 15 => ⟨S1x64x64, .f32⟩
  | 16 => ⟨S64x64, .f32⟩
  | 17 => ⟨S1x64, .f32⟩
  | 18 => ⟨S64, .f32⟩
  | 19 => ⟨S1x64, .f32⟩
  | 20 => ⟨S1x64, .f32⟩
  | 21 => ⟨S50000x64, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S800000x1, .f32⟩
  | 32 => ⟨S800000x64, .f32⟩
  | 33 => ⟨S800000x64, .f32⟩
  | 34 => ⟨S_, .f32⟩
  | 35 => ⟨S50000x64, .f32⟩
  | 36 => ⟨S800000x1, .i32⟩
  | 37 => ⟨S50000x64, .f32⟩
  | 38 => ⟨S1x64x64, .f32⟩
  | 39 => ⟨S64x64, .f32⟩
  | 40 => ⟨S1x64, .f32⟩
  | 41 => ⟨S64, .f32⟩
  | 42 => ⟨S1x64x64, .f32⟩
  | 43 => ⟨S64x64, .f32⟩
  | 44 => ⟨S1x64, .f32⟩
  | 45 => ⟨S64, .f32⟩
  | 46 => ⟨S1x64, .f32⟩
  | 47 => ⟨S1x64, .f32⟩
  | 48 => ⟨S50000x64, .f32⟩
  | 49 => ⟨S1x50000x64, .f32⟩
  | 50 => ⟨S1x50000x64, .f32⟩
  | 51 => ⟨S1x50000x64, .f32⟩
  | 52 => ⟨S3x50000x64, .f32⟩
  | 53 => ⟨S1x50000x64, .f32⟩
  | 54 => ⟨S1x50000x64, .f32⟩
  | 55 => ⟨S1x50000x64, .f32⟩
  | 56 => ⟨S3x50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S64x64, .f32⟩
  | .local _ .vmem, ⟨37, _⟩ => ⟨S1x64, .f32⟩
  | .local _ .vmem, ⟨38, _⟩ => ⟨S64x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S1x64, .f32⟩
  | .local _ .vmem, ⟨46, _⟩ => ⟨S64x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S64x64, .f32⟩
  | .local _ .vmem, ⟨55, _⟩ => ⟨S1x64, .f32⟩
  | .local _ .vmem, ⟨56, _⟩ => ⟨S64x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_1 : Ref sig .tc := ⟨.hbm, 42, rfl⟩
abbrev main_v30 : Ref sig .tc := ⟨.hbm, 43, rfl⟩
abbrev main_v31 : Ref sig .tc := ⟨.hbm, 44, rfl⟩
abbrev main_c_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_4 : Ref sig .tc := ⟨.hbm, 69, rfl⟩
abbrev main_v54 : Ref sig .tc := ⟨.hbm, 70, rfl⟩
abbrev main_v55 : Ref sig .tc := ⟨.hbm, 71, rfl⟩
abbrev main_c_5 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_6 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_c_7 : Ref sig .tc := ⟨.hbm, 96, rfl⟩
abbrev main_v78 : Ref sig .tc := ⟨.hbm, 97, rfl⟩
abbrev main_v79 : Ref sig .tc := ⟨.hbm, 98, rfl⟩
abbrev main_c_8 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_9 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_c_10 : Ref sig .tc := ⟨.hbm, 123, rfl⟩
abbrev main_v102 : Ref sig .tc := ⟨.hbm, 124, rfl⟩
abbrev main_v103 : Ref sig .tc := ⟨.hbm, 125, rfl⟩
abbrev main_c_11 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_12 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_c_13 : Ref sig .tc := ⟨.hbm, 150, rfl⟩
abbrev main_v126 : Ref sig .tc := ⟨.hbm, 151, rfl⟩
abbrev main_v127 : Ref sig .tc := ⟨.hbm, 152, rfl⟩
abbrev main_c_14 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_cst_15 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc5_stg6_0 : Ref sig .tc := ⟨.vmem, 50, rfl⟩
abbrev cc5_stg6_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg5_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem5_1 : DmaSem sig := 49
abbrev cc5_sem6_0 : DmaSem sig := 50
abbrev cc5_sem6_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem5_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S50000x64_S1x50000x64_1_2 : S50000x64.BroadcastsInDim S1x50000x64 (![1, 2] : Fin 2 → Fin S1x50000x64.rank)
  concatenates_S1x50000x64_S1x50000x64_S1x50000x64_S3x50000x64_d0 : Shape.Concatenates [S1x50000x64, S1x50000x64, S1x50000x64] S3x50000x64 0
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S50000x64.size a
  hwx4_5 : ∀ i : grid4.Coords, EltTy.bits .f32 = 32 ∨ (Rect.block (s := S50000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S50000x64.size a
  hwx5_6 : ∀ i : grid5.Coords, EltTy.bits .f32 = 32 ∨ (Rect.block (s := S50000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S50000x64.size a
  hwx6_5 : ∀ i : grid6.Coords, EltTy.bits .f32 = 32 ∨ (Rect.block (s := S50000x64) S5000x64.size (cc6_transform_5 i) (hinb6_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S5000x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v29) S5000x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v77) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v90) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v99) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v96) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v100) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v101) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v114) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v116) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v123) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v120) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v124) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v77) S5000x64.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v125) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v138) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v140) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v147) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v144) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v148) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v149) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S1x800000 : Shape := ⟨2, ![1, 800000]⟩
abbrev S800000x1 : Shape := ⟨2, ![800000, 1]⟩
abbrev S50000x64 : Shape := ⟨2, ![50000, 64]⟩
abbrev S1x64 : Shape := ⟨2, ![1, 64]⟩
abbrev S_ : Shape := ⟨0, ![]⟩
abbrev S800000x64 : Shape := ⟨2, ![800000, 64]⟩
abbrev S1x64x64 : Shape := ⟨3, ![1, 64, 64]⟩
abbrev S64x64 : Shape := ⟨2, ![64, 64]⟩
abbrev S1x50000x64 : Shape := ⟨3, ![1, 50000, 64]⟩
abbrev S3x50000x64 : Shape := ⟨3, ![3, 50000, 64]⟩

abbrev nBuf : Space → Nat
  | .hbm => 233
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x64, .f32⟩
  | 4 => ⟨S64, .f32⟩
  | 5 => ⟨S3x64x64, .f32⟩
  | 6 => ⟨S3x64, .f32⟩
  | 7 => ⟨S3x64x64, .f32⟩
  | 8 => ⟨S3x64, .f32⟩
  | 9 => ⟨S1x800000, .i32⟩
  | 10 => ⟨S800000, .i32⟩
  | 11 => ⟨S1x800000, .i32⟩
  | 12 => ⟨S800000, .i32⟩
  | 13 => ⟨S800000x1, .f32⟩
  | 14 => ⟨S50000x64, .f32⟩
  | 15 => ⟨S1x64, .f32⟩
  | 16 => ⟨S50000x64, .f32⟩
  | 17 => ⟨S50000x64, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x64, .f32⟩
  | 27 => ⟨S800000x64, .f32⟩
  | 28 => ⟨S800000x64, .f32⟩
  | 29 => ⟨S_, .f32⟩
  | 30 => ⟨S50000x64, .f32⟩
  | 31 => ⟨S800000x1, .i32⟩
  | 32 => ⟨S50000x64, .f32⟩
  | 33 => ⟨S1x64x64, .f32⟩
  | 34 => ⟨S64x64, .f32⟩
  | 35 => ⟨S50000x64, .f32⟩
  | 36 => ⟨S1x64, .f32⟩
  | 37 => ⟨S64, .f32⟩
  | 38 => ⟨S1x64, .f32⟩
  | 39 => ⟨S50000x64, .f32⟩
  | 40 => ⟨S50000x64, .f32⟩
  | 41 => ⟨S_, .f32⟩
  | 42 => ⟨S50000x64, .f32⟩
  | 43 => ⟨S50000x64, .f32⟩
  | 44 => ⟨S1x64x64, .f32⟩
  | 45 => ⟨S64x64, .f32⟩
  | 46 => ⟨S50000x64, .f32⟩
  | 47 => ⟨S1x64, .f32⟩
  | 48 => ⟨S64, .f32⟩
  | 49 => ⟨S1x64, .f32⟩
  | 50 => ⟨S50000x64, .f32⟩
  | 51 => ⟨S50000x64, .f32⟩
  | 52 => ⟨S50000x64, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x64, .f32⟩
  | 62 => ⟨S800000x64, .f32⟩
  | 63 => ⟨S800000x64, .f32⟩
  | 64 => ⟨S_, .f32⟩
  | 65 => ⟨S50000x64, .f32⟩
  | 66 => ⟨S800000x1, .i32⟩
  | 67 => ⟨S50000x64, .f32⟩
  | 68 => ⟨S1x64x64, .f32⟩
  | 69 => ⟨S64x64, .f32⟩
  | 70 => ⟨S50000x64, .f32⟩
  | 71 => ⟨S1x64, .f32⟩
  | 72 => ⟨S64, .f32⟩
  | 73 => ⟨S1x64, .f32⟩
  | 74 => ⟨S50000x64, .f32⟩
  | 75 => ⟨S50000x64, .f32⟩
  | 76 => ⟨S_, .f32⟩
  | 77 => ⟨S50000x64, .f32⟩
  | 78 => ⟨S50000x64, .f32⟩
  | 79 => ⟨S1x64x64, .f32⟩
  | 80 => ⟨S64x64, .f32⟩
  | 81 => ⟨S50000x64, .f32⟩
  | 82 => ⟨S1x64, .f32⟩
  | 83 => ⟨S64, .f32⟩
  | 84 => ⟨S1x64, .f32⟩
  | 85 => ⟨S50000x64, .f32⟩
  | 86 => ⟨S50000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S800000x64, .f32⟩
  | 97 => ⟨S800000x64, .f32⟩
  | 98 => ⟨S_, .f32⟩
  | 99 => ⟨S50000x64, .f32⟩
  | 100 => ⟨S800000x1, .i32⟩
  | 101 => ⟨S50000x64, .f32⟩
  | 102 => ⟨S1x64x64, .f32⟩
  | 103 => ⟨S64x64, .f32⟩
  | 104 => ⟨S50000x64, .f32⟩
  | 105 => ⟨S1x64, .f32⟩
  | 106 => ⟨S64, .f32⟩
  | 107 => ⟨S1x64, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S1x64x64, .f32⟩
  | 114 => ⟨S64x64, .f32⟩
  | 115 => ⟨S50000x64, .f32⟩
  | 116 => ⟨S1x64, .f32⟩
  | 117 => ⟨S64, .f32⟩
  | 118 => ⟨S1x64, .f32⟩
  | 119 => ⟨S50000x64, .f32⟩
  | 120 => ⟨S50000x64, .f32⟩
  | 121 => ⟨S50000x64, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000x64, .f32⟩
  | 3 => ⟨S800000x64, .f32⟩
  | 4 => ⟨S800000x64, .f32⟩
  | 5 => ⟨S_, .f32⟩
  | 6 => ⟨S50000x64, .f32⟩
  | 7 => ⟨S800000x1, .i32⟩
  | 8 => ⟨S50000x64, .f32⟩
  | 9 => ⟨S1x64x64, .f32⟩
  | 10 => ⟨S64x64, .f32⟩
  | 11 => ⟨S50000x64, .f32⟩
  | 12 => ⟨S1x64, .f32⟩
  | 13 => ⟨S64, .f32⟩
  | 14 => ⟨S1x64, .f32⟩
  | 15 => ⟨S50000x64, .f32⟩
  | 16 => ⟨S50000x64, .f32⟩
  | 17 => ⟨S_, .f32⟩
  | 18 => ⟨S50000x64, .f32⟩
  | 19 => ⟨S50000x64, .f32⟩
  | 20 => ⟨S1x64x64, .f32⟩
  | 21 => ⟨S64x64, .f32⟩
  | 22 => ⟨S50000x64, .f32⟩
  | 23 => ⟨S1x64, .f32⟩
  | 24 => ⟨S64, .f32⟩
  | 25 => ⟨S1x64, .f32⟩
  | 26 => ⟨S50000x64, .f32⟩
  | 27 => ⟨S50000x64, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x64, .f32⟩
  | 37 => ⟨S800000x64, .f32⟩
  | 38 => ⟨S800000x64, .f32⟩
  | 39 => ⟨S_, .f32⟩
  | 40 => ⟨S50000x64, .f32⟩
  | 41 => ⟨S800000x1, .i32⟩
  | 42 => ⟨S50000x64, .f32⟩
  | 43 => ⟨S1x64x64, .f32⟩
  | 44 => ⟨S64x64, .f32⟩
  | 45 => ⟨S50000x64, .f32⟩
  | 46 => ⟨S1x64, .f32⟩
  | 47 => ⟨S64, .f32⟩
  | 48 => ⟨S1x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S1x64x64, .f32⟩
  | 55 => ⟨S64x64, .f32⟩
  | 56 => ⟨S50000x64, .f32⟩
  | 57 => ⟨S1x64, .f32⟩
  | 58 => ⟨S64, .f32⟩
  | 59 => ⟨S1x64, .f32⟩
  | 60 => ⟨S50000x64, .f32⟩
  | 61 => ⟨S50000x64, .f32⟩
  | 62 => ⟨S50000x64, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x64, .f32⟩
  | 72 => ⟨S800000x64, .f32⟩
  | 73 => ⟨S800000x64, .f32⟩
  | 74 => ⟨S_, .f32⟩
  | 75 => ⟨S50000x64, .f32⟩
  | 76 => ⟨S800000x1, .i32⟩
  | 77 => ⟨S50000x64, .f32⟩
  | 78 => ⟨S1x64x64, .f32⟩
  | 79 => ⟨S64x64, .f32⟩
  | 80 => ⟨S50000x64, .f32⟩
  | 81 => ⟨S1x64, .f32⟩
  | 82 => ⟨S64, .f32⟩
  | 83 => ⟨S1x64, .f32⟩
  | 84 => ⟨S50000x64, .f32⟩
  | 85 => ⟨S50000x64, .f32⟩
  | 86 => ⟨S_, .f32⟩
  | 87 => ⟨S50000x64, .f32⟩
  | 88 => ⟨S50000x64, .f32⟩
  | 89 => ⟨S1x64x64, .f32⟩
  | 90 => ⟨S64x64, .f32⟩
  | 91 => ⟨S50000x64, .f32⟩
  | 92 => ⟨S1x64, .f32⟩
  | 93 => ⟨S64, .f32⟩
  | 94 => ⟨S1x64, .f32⟩
  | 95 => ⟨S50000x64, .f32⟩
  | 96 => ⟨S50000x64, .f32⟩
  | 97 => ⟨S1x50000x64, .f32⟩
  | 98 => ⟨S1x50000x64, .f32⟩
  | 99 => ⟨S1x50000x64, .f32⟩
  | 100 => ⟨S3x50000x64, .f32⟩
  | 101 => ⟨S1x50000x64, .f32⟩
  | 102 => ⟨S1x50000x64, .f32⟩
  | 103 => ⟨S1x50000x64, .f32⟩
  | 104 => ⟨S3x50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_1 : Ref sig .tc := ⟨.hbm, 53, rfl⟩
abbrev main_v39 : Ref sig .tc := ⟨.hbm, 54, rfl⟩
abbrev main_v40 : Ref sig .tc := ⟨.hbm, 55, rfl⟩
abbrev main_c_2 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_3 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_call1_cst : Ref sig .tc := ⟨.hbm, 76, rfl⟩
abbrev main_call1_v0 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c_4 : Ref sig .tc := ⟨.hbm, 87, rfl⟩
abbrev main_v68 : Ref sig .tc := ⟨.hbm, 88, rfl⟩
abbrev main_v69 : Ref sig .tc := ⟨.hbm, 89, rfl⟩
abbrev main_c_5 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_6 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_call2_cst : Ref sig .tc := ⟨.hbm, 110, rfl⟩
abbrev main_call2_v0 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_c_7 : Ref sig .tc := ⟨.hbm, 122, rfl⟩
abbrev main_v98 : Ref sig .tc := ⟨.hbm, 123, rfl⟩
abbrev main_v99 : Ref sig .tc := ⟨.hbm, 124, rfl⟩
abbrev main_c_8 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_9 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_call3_cst : Ref sig .tc := ⟨.hbm, 145, rfl⟩
abbrev main_call3_v0 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_c_10 : Ref sig .tc := ⟨.hbm, 156, rfl⟩
abbrev main_v127 : Ref sig .tc := ⟨.hbm, 157, rfl⟩
abbrev main_v128 : Ref sig .tc := ⟨.hbm, 158, rfl⟩
abbrev main_c_11 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_cst_12 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_call4_cst : Ref sig .tc := ⟨.hbm, 179, rfl⟩
abbrev main_call4_v0 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_c_13 : Ref sig .tc := ⟨.hbm, 191, rfl⟩
abbrev main_v157 : Ref sig .tc := ⟨.hbm, 192, rfl⟩
abbrev main_v158 : Ref sig .tc := ⟨.hbm, 193, rfl⟩
abbrev main_c_14 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_cst_15 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_call5_cst : Ref sig .tc := ⟨.hbm, 214, rfl⟩
abbrev main_call5_v0 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S50000x64_S1x50000x64_1_2 : S50000x64.BroadcastsInDim S1x50000x64 (![1, 2] : Fin 2 → Fin S1x50000x64.rank)
  concatenates_S1x50000x64_S1x50000x64_S1x50000x64_S3x50000x64_d0 : Shape.Concatenates [S1x50000x64, S1x50000x64, S1x50000x64] S3x50000x64 0
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.K.Reg0.lean ====
import proofs.«155469_j90744069030458_1_alg».proof.Proof.Gen.Kernel.Launch
import proofs.«155469_j90744069030458_1_alg».proof.Proof.Gen.Kernel.Skeleton
import proofs.«155469_j90744069030458_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The body's half of region 0: pallas_call 0, whose body `cc0__lin_kernel` loads each of its 3 input blocks whole,
  computes one block [5000, 64] from them and stores it whole. Stated at any contents `V` of the core's buffers on
  entry to the region: each window's block at a grid point, what the body leaves in the output window's buffer as
  a function of the input blocks, the body's triple, the pipeline's proof data and its body obligation.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (unfetched, the block
    index has not moved), for any proof data whose array is `V`'s and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (unfetched, the block
    index has not moved), for any proof data whose array is `V`'s and whose body leaves the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (unfetched, the block
    index has not moved), for any proof data whose array is `V`'s and whose body leaves the block in place. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S5000x64 := Rect.unit (s := S5000x64) ![0, 0] S5000x64.size inb_S5000x64_S5000x64_0_0

/-! ## What the body leaves in the output window's buffer -/

/-- Window 3's staging buffer after the body, from the input windows' blocks: its one store, of the whole buffer. -/
def out0_3 (x0 : Vec F S5000x128 .f32) (x1 : Vec F S128x64 .f32) (x2 : Vec F S1x64 .f32) : Vec F S5000x64 .f32 :=
  View.canon [⟨r0_3, k0_pay1 (View.ld x0 r0_0) (View.ld x1 r0_1) (View.ld x2 r0_2)⟩]

/-- The store covers the buffer. -/
theorem cover0_3 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

/-! ## The body's triple -/

set_option maxHeartbeats 1000000 in
/-- The body on whole staging buffers, the inputs' reading `x0 …` and the output's holding anything, runs to the
    continuation with the inputs' as they were and the output's at `out0_3` of the inputs. -/
theorem sound_kernel0 (c : Dev nD) (E : Set ℕ) (i : grid0.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__lin_kernel i arg1 harg1 arg2 harg2 arg3 harg3 arg4 harg4) K := by
  simp only [cc0__lin_kernel_eq_skeleton]; unfold cc0__lin_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the input blocks; the invariant that leaves the
    scoped rest and the generator register untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«155469_j90744069030458_1_alg».proof.Proof.Gen.Kernel.Launch
import proofs.«155469_j90744069030458_1_alg».proof.Proof.Gen.Kernel.Skeleton
import proofs.«155469_j90744069030458_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The body's half of region 1: pallas_call 1, whose body `cc1__mlp_resid_kernel` loads each of its 6 input blocks whole,
  computes one block [5000, 64] from them and stores it whole. Stated at any contents `V` of the core's buffers on
  entry to the region: each window's block at a grid point, what the body leaves in the output window's buffer as
  a function of the input blocks, the body's triple, the pipeline's proof data and its body obligation.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (unfetched, the block
    index has not moved), for any proof data whose array is `V`'s and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (unfetched, the block
    index has not moved), for any proof data whose array is `V`'s and whose body leaves the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (unfetched, the block
    index has not moved), for any proof data whose array is `V`'s and whose body leaves the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (unfetched, the block
    index has not moved), for any proof data whose array is `V`'s and whose body leaves the block in place. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not (unfetched, the block
    index has not moved), for any proof data whose array is `V`'s and whose body leaves the block in place. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not (unfetched, the block
    index has not moved), for any proof data whose array is `V`'s and whose body leaves the block in place. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_0 : Rect S5000x64 := Rect.unit (s := S5000x64) ![0, 0] S5000x64.size inb_S5000x64_S5000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0

/-! ## What the body leaves in the output window's buffer -/

/-- Window 6's staging buffer after the body, from the input windows' blocks: its one store, of the whole buffer. -/
def out1_6 (x0 : Vec F S5000x64 .f32) (x1 : Vec F S64x64 .f32) (x2 : Vec F S1x64 .f32) (x3 : Vec F S64x64 .f32) (x4 : Vec F S1x64 .f32) (x5 : Vec F S5000x64 .f32) : Vec F S5000x64 .f32 :=
  View.canon [⟨r1_0, k1_pay1 (View.ld x0 r1_0) (View.ld x1 r1_1) (View.ld x2 r1_2) (View.ld x3 r1_1) (View.ld x4 r1_2) (View.ld x5 r1_0)⟩]

/-- The store covers the buffer. -/
theorem cover1_6 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 1000000 in
/-- The body on whole staging buffers, the inputs' reading `x0 …` and the output's holding anything, runs to the
    continuation with the inputs' as they were and the output's at `out1_6` of the inputs. -/
theorem sound_kernel1 (c : Dev nD) (E : Set ℕ) (i : grid1.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S5000x64 .f32) (harg7 : arg7.IsWhole)
    (x0 : Vec F S5000x64 .f32) (x1 : Vec F S64x64 .f32) (x2 : Vec F S1x64 .f32) (x3 : Vec F S64x64 .f32) (x4 : Vec F S1x64 .f32) (x5 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__mlp_resid_kernel i arg1 harg1 arg2 harg2 arg3 harg3 arg4 harg4 arg5 harg5 arg6 harg6 arg7 harg7) K := by
  simp only [cc1__mlp_resid_kernel_eq_skeleton]; unfold cc1__mlp_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them; after the body at point `t` each
    input's buffer at its block and the output's at `out1_6` of the input blocks; the invariant that leaves the
    scoped rest and the generator register untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«155469_j90744069030458_1_alg».proof.Proof.Gen.Kernel.Launch
import proofs.«155469_j90744069030458_1_alg».proof.Proof.Gen.Kernel.Skeleton
import proofs.«155469_j90744069030458_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The body's half of region 2: pallas_call 2, whose body `cc2__mlp_plain_kernel` loads each of its 5 input blocks whole,
  computes one block [5000, 64] from them and stores it whole. Stated at any contents `V` of the core's buffers on
  entry to the region: each window's block at a grid point, what the body leaves in the output window's buffer as
  a function of the input blocks, the body's triple, the pipeline's proof data and its body obligation.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (unfetched, the block
    index has not moved), for any proof data whose array is `V`'s and whose body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (unfetched, the block
    index has not moved), for any proof data whose array is `V`'s and whose body leaves the block in place. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (unfetched, the block
    index has not moved), for any proof data whose array is `V`'s and whose body leaves the block in place. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (unfetched, the block
    index has not moved), for any proof data whose array is `V`'s and whose body leaves the block in place. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not (unfetched, the block
    index has not moved), for any proof data whose array is `V`'s and whose body leaves the block in place. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole buffer -/

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

/-! ## What the body leaves in the output window's buffer -/

/-- Window 5's staging buffer after the body, from the input windows' blocks: its one store, of the whole buffer. -/
def out2_5 (x0 : Vec F S5000x64 .f32) (x1 : Vec F S64x64 .f32) (x2 : Vec F S1x64 .f32) (x3 : Vec F S64x64 .f32) (x4 : Vec F S1x64 .f32) : Vec F S5000x64 .f32 :=
  View.canon [⟨r2_0, k2_pay1 (View.ld x0 r2_0) (View.ld x1 r2_1) (View.ld x2 r2_2) (View.ld x3 r2_1) (View.ld x4 r2_2)⟩]

/-- The store covers the buffer. -/
theorem cover2_5 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 1000000 in
/-- The body on whole staging buffers, the inputs' reading `x0 …` and the output's holding anything, runs to the
    continuation with the inputs' as they were and the output's at `out2_5` of the inputs. -/
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S64x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__mlp_plain_kernel i arg1 harg1 arg2 harg2 arg3 harg3 arg4 harg4 arg5 harg5 arg6 harg6) K := by
  simp only [cc2__mlp_plain_kernel_eq_skeleton]; unfold cc2__mlp_plain_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body at point `t` each
    input's buffer at its block and the output's at `out2_5` of the input blocks; the invariant that leaves the
    scoped rest and the generator register untouched; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«155469_j90744069030458_1_alg».proof.Proof.Gen.Kernel.Launch
import proofs.«155469_j90744069030458_1_alg».proof.Proof.Gen.Kernel.Skeleton
import proofs.«155469_j90744069030458_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The body's half of region 3: pallas_call 3, whose body `cc3__mlp_resid_kernel` loads each of its 6 input blocks whole,
  computes one block [5000, 64] from them and stores it whole. Stated at any contents `V` of the core's buffers on
  entry to the region: each window's block at a grid point, what the body leaves in the output window's buffer as
  a function of the input blocks, the body's triple, the pipeline's proof data and its body obligation.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not (unfetched, the block
    index has not moved), for any proof data whose array is `V`'s and whose body leaves the block in place. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not (unfetched, the block
    index has not moved), for any proof data whose array is `V`'s and whose body leaves the block in place. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not (unfetched, the block
    index has not moved), for any proof data whose array is `V`'s and whose body leaves the block in place. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not (unfetched, the block
    index has not moved), for any proof data whose array is `V`'s and whose body leaves the block in place. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not (unfetched, the block
    index has not moved), for any proof data whose array is `V`'s and whose body leaves the block in place. -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, fetched there or not (unfetched, the block
    index has not moved), for any proof data whose array is `V`'s and whose body leaves the block in place. -/
theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole buffer -/

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0

/-! ## What the body leaves in the output window's buffer -/

/-- Window 6's staging buffer after the body, from the input windows' blocks: its one store, of the whole buffer. -/
def out3_6 (x0 : Vec F S5000x64 .f32) (x1 : Vec F S64x64 .f32) (x2 : Vec F S1x64 .f32) (x3 : Vec F S64x64 .f32) (x4 : Vec F S1x64 .f32) (x5 : Vec F S5000x64 .f32) : Vec F S5000x64 .f32 :=
  View.canon [⟨r3_0, k3_pay1 (View.ld x0 r3_0) (View.ld x1 r3_1) (View.ld x2 r3_2) (View.ld x3 r3_1) (View.ld x4 r3_2) (View.ld x5 r3_0)⟩]

/-- The store covers the buffer. -/
theorem cover3_6 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body's triple -/

set_option maxHeartbeats 1000000 in
/-- The body on whole staging buffers, the inputs' reading `x0 …` and the output's holding anything, runs to the
    continuation with the inputs' as they were and the output's at `out3_6` of the inputs. -/
theorem sound_kernel3 (c : Dev nD) (E : Set ℕ) (i : grid3.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S5000x64 .f32) (harg7 : arg7.IsWhole)
    (x0 : Vec F S5000x64 .f32) (x1 : Vec F S64x64 .f32) (x2 : Vec F S1x64 .f32) (x3 : Vec F S64x64 .f32) (x4 : Vec F S1x64 .f32) (x5 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__mlp_resid_kernel i arg1 harg1 arg2 harg2 arg3 harg3 arg4 harg4 arg5 harg5 arg6 harg6 arg7 harg7) K := by
  simp only [cc3__mlp_resid_kernel_eq_skeleton]; unfold cc3__mlp_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: the arrays as the region finds them; after the body at point `t` each
    input's buffer at its block and the output's at `out3_6` of the input blocks; the invariant that leaves the
    scoped rest and the generator register untouched; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- Each input's staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
import proofs.«155469_j90744069030458_1_alg».proof.Proof.Gen.Kernel.Launch
import proofs.«155469_j90744069030458_1_alg».proof.Proof.Gen.Kernel.Skeleton
import proofs.«155469_j90744069030458_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The body's half of region 4: pallas_call 4, whose body `cc4__mlp_plain_kernel` loads each of its 5 input blocks whole,
  computes one block [5000, 64] from them and stores it whole. Stated at any contents `V` of the core's buffers on
  entry to the region: each window's block at a grid point, what the body leaves in the output window's buffer as
  a function of the input blocks, the body's triple, the pipeline's proof data and its body obligation.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not (unfetched, the block
    index has not moved), for any proof data whose array is `V`'s and whose body leaves the block in place. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not (unfetched, the block
    index has not moved), for any proof data whose array is `V`'s and whose body leaves the block in place. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not (unfetched, the block
    index has not moved), for any proof data whose array is `V`'s and whose body leaves the block in place. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not (unfetched, the block
    index has not moved), for any proof data whose array is `V`'s and whose body leaves the block in place. -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not (unfetched, the block
    index has not moved), for any proof data whose array is `V`'s and whose body leaves the block in place. -/
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store take a whole buffer -/

abbrev r4_0 : Rect S5000x64 := Rect.unit (s := S5000x64) ![0, 0] S5000x64.size inb_S5000x64_S5000x64_0_0
abbrev r4_1 : Rect S64x64 := Rect.unit (s := S64x64) ![0, 0] S64x64.size inb_S64x64_S64x64_0_0
abbrev r4_2 : Rect S1x64 := Rect.unit (s := S1x64) ![0, 0] S1x64.size inb_S1x64_S1x64_0_0

/-! ## What the body leaves in the output window's buffer -/

/-- Window 5's staging buffer after the body, from the input windows' blocks: its one store, of the whole buffer. -/
def out4_5 (x0 : Vec F S5000x64 .f32) (x1 : Vec F S64x64 .f32) (x2 : Vec F S1x64 .f32) (x3 : Vec F S64x64 .f32) (x4 : Vec F S1x64 .f32) : Vec F S5000x64 .f32 :=
  View.canon [⟨r4_0, k4_pay1 (View.ld x0 r4_0) (View.ld x1 r4_1) (View.ld x2 r4_2) (View.ld x3 r4_1) (View.ld x4 r4_2)⟩]

/-- The store covers the buffer. -/
theorem cover4_5 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

/-! ## The body's triple -/

set_option maxHeartbeats 1000000 in
/-- The body on whole staging buffers, the inputs' reading `x0 …` and the output's holding anything, runs to the
    continuation with the inputs' as they were and the output's at `out4_5` of the inputs. -/
theorem sound_kernel4 (c : Dev nD) (E : Set ℕ) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S64x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__mlp_plain_kernel i arg1 harg1 arg2 harg2 arg3 harg3 arg4 harg4 arg5 harg5 arg6 harg6) K := by
  simp only [cc4__mlp_plain_kernel_eq_skeleton]; unfold cc4__mlp_plain_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core `c`: the arrays as the region finds them; after the body at point `t` each
    input's buffer at its block and the output's at `out4_5` of the input blocks; the invariant that leaves the
    scoped rest and the generator register untouched; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
import proofs.«155469_j90744069030458_1_alg».proof.Proof.Gen.Kernel.Launch
import proofs.«155469_j90744069030458_1_alg».proof.Proof.Gen.Kernel.Skeleton
import proofs.«155469_j90744069030458_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The body's half of region 5: pallas_call 5, whose body `cc5__mlp_resid_kernel` loads each of its 6 input blocks whole,
  computes one block [5000, 64] from them and stores it whole. Stated at any contents `V` of the core's buffers on
  entry to the region: each window's block at a grid point, what the body leaves in the output window's buffer as
  a function of the input blocks, the body's triple, the pipeline's proof data and its body obligation.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not (unfetched, the block
    index has not moved), for any proof data whose array is `V`'s and whose body leaves the block in place. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not (unfetched, the block
    index has not moved), for any proof data whose array is `V`'s and whose body leaves the block in place. -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not (unfetched, the block
    index has not moved), for any proof data whose array is `V`'s and whose body leaves the block in place. -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not (unfetched, the block
    index has not moved), for any proof data whose array is `V`'s and whose body leaves the block in place. -/
theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not (unfetched, the block
    index has not moved), for any proof data whose array is `V`'s and whose body leaves the block in place. -/
theorem before5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds its block at every point, fetched there or not (unfetched, the block
    index has not moved), for any proof data whose array is `V`'s and whose body leaves the block in place. -/
theorem before5_5_of {c : Dev nD} (dat : Dat τ (Elt F) Unit ℕ (Pipeline.UD sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take a whole buffer -/

abbrev r5_0 : Rect S5000x64 := Rect.unit (s := S5000x64) ![0, 0] S5000x64.size inb_S5000x64_S5000x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0

/-! ## What the body leaves in the output window's buffer -/

/-- Window 6's staging buffer after the body, from the input windows' blocks: its one store, of the whole buffer. -/
def out5_6 (x0 : Vec F S5000x64 .f32) (x1 : Vec F S64x64 .f32) (x2 : Vec F S1x64 .f32) (x3 : Vec F S64x64 .f32) (x4 : Vec F S1x64 .f32) (x5 : Vec F S5000x64 .f32) : Vec F S5000x64 .f32 :=
  View.canon [⟨r5_0, k5_pay1 (View.ld x0 r5_0) (View.ld x1 r5_1) (View.ld x2 r5_2) (View.ld x3 r5_1) (View.ld x4 r5_2) (View.ld x5 r5_0)⟩]

/-- The store covers the buffer. -/
theorem cover5_6 (p0 : Vec F S5000x64 .f32) (y : S5000x64.Idx) :
    ∃ pc ∈ ([⟨r5_0, p0⟩] : List (View.Piece (Elt F) S5000x64 .f32)), y ∈ pc.1.set :=
  View.cover_of_tiled [⟨r5_0, p0⟩] S5000x64.size (by rfl) y

/-! ## The body's triple -/

set_option maxHeartbeats 1000000 in
/-- The body on whole staging buffers, the inputs' reading `x0 …` and the output's holding anything, runs to the
    continuation with the inputs' as they were and the output's at `out5_6` of the inputs. -/
theorem sound_kernel5 (c : Dev nD) (E : Set ℕ) (i : grid5.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S5000x64 .f32) (harg7 : arg7.IsWhole)
    (x0 : Vec F S5000x64 .f32) (x1 : Vec F S64x64 .f32) (x2 : Vec F S1x64 .f32) (x3 : Vec F S64x64 .f32) (x4 : Vec F S1x64 .f32) (x5 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__mlp_resid_kernel i arg1 harg1 arg2 harg2 arg3 harg3 arg4 harg4 arg5 harg5 arg6 harg6 arg7 harg7) K := by
  simp only [cc5__mlp_resid_kernel_eq_skeleton]; unfold cc5__mlp_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of pipeline 5 on core `c`: the arrays as the region finds them; after the body at point `t` each
    input's buffer at its block and the output's at `out5_6` of the input blocks; the invariant that leaves the
    scoped rest and the generator register untouched; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' buffers hold their blocks, so the body's triple applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
import proofs.«155469_j90744069030458_1_alg».proof.Proof.Gen.Kernel.Launch
import proofs.«155469_j90744069030458_1_alg».proof.Proof.Gen.Kernel.Skeleton
import proofs.«155469_j90744069030458_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The body's half of region 6: pallas_call 6, whose body `cc6__mlp_plain_kernel` loads each of its 5 input blocks whole,
  computes one block [5000, 64] from them and stores it whole. Stated at any contents `V` of the core's buffers on
  entry to the region: each window's block at a grid point, what the body leaves in the output window's buffer as
  a function of the input blocks, the body's triple, the pipeline's proof data and its body obligation.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not (unfetched, the block
    index has not moved), for any proof data whose array is `V`'s and whose body leaves the block in place. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or not (unfetched, the block
    index has not moved), for any proof data whose array is `V`'s and whose body leaves the block in place. -/
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, fetched there or not (unfetched, the block
    index has not moved), for any proof data whose array is `V`'s and whose body leaves the block in place. -/
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, fetched there or not (unfetched, the block
    index has not moved), for any proof data whose array is `V`'s and whose body leaves the block in place. -/
theorem before6_3_of {c : Dev nD} (dat : Dat τ (Elt F) Unit ℕ (Pipeline.UD sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block at every point, fetched there or not (unfetched, the block
    index has not moved), for any proof data whose array is `V`'s and whose body leaves the block in place. -/
theorem before6_4_of {c : Dev nD} (dat : Dat τ (Elt F) Unit ℕ (Pipeline.UD sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store take a whole buffer -/

abbrev r6_0 : Rect S5000x64 := Rect.unit (s := S5000x64) ![0, 0] S5000x64.size inb_S5000x64_S5000x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0

/-! ## What the body leaves in the output window's buffer -/

/-- Window 5's staging buffer after the body, from the input windows' blocks: its one store, of the whole buffer. -/
def out6_5 (x0 : Vec F S5000x64 .f32) (x1 : Vec F S64x64 .f32) (x2 : Vec F S1x64 .f32) (x3 : Vec F S64x64 .f32) (x4 : Vec F S1x64 .f32) : Vec F S5000x64 .f32 :=
  View.canon [⟨r6_0, k6_pay1 (View.ld x0 r6_0) (View.ld x1 r6_1) (View.ld x2 r6_2) (View.ld x3 r6_1) (View.ld x4 r6_2)⟩]

/-- The store covers the buffer. -/
theorem cover6_5 (p0 : Vec F S5000x64 .f32) (y : S5000x64.Idx) :
    ∃ pc ∈ ([⟨r6_0, p0⟩] : List (View.Piece (Elt F) S5000x64 .f32)), y ∈ pc.1.set :=
  View.cover_of_tiled [⟨r6_0, p0⟩] S5000x64.size (by rfl) y

/-! ## The body's triple -/

set_option maxHeartbeats 1000000 in
/-- The body on whole staging buffers, the inputs' reading `x0 …` and the output's holding anything, runs to the
    continuation with the inputs' as they were and the output's at `out6_5` of the inputs. -/
theorem sound_kernel6 (c : Dev nD) (E : Set ℕ) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S64x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__mlp_plain_kernel i arg1 harg1 arg2 harg2 arg3 harg3 arg4 harg4 arg5 harg5 arg6 harg6) K := by
  simp only [cc6__mlp_plain_kernel_eq_skeleton]; unfold cc6__mlp_plain_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them; after the body at point `t` each
    input's buffer at its block and the output's at `out6_5` of the input blocks; the invariant that leaves the
    scoped rest and the generator register untouched; nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' buffers hold their blocks, so the body's triple applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Chain.lean ====
import proofs.«155469_j90744069030458_1_alg».proof.Proof.K.Reg0
import proofs.«155469_j90744069030458_1_alg».proof.Proof.K.Reg1
import proofs.«155469_j90744069030458_1_alg».proof.Proof.K.Reg2
import proofs.«155469_j90744069030458_1_alg».proof.Proof.K.Reg3
import proofs.«155469_j90744069030458_1_alg».proof.Proof.K.Reg4
import proofs.«155469_j90744069030458_1_alg».proof.Proof.K.Reg5
import proofs.«155469_j90744069030458_1_alg».proof.Proof.K.Reg6
import proofs.«155469_j90744069030458_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! # The buffers' contents along @main

@main is fifteen items: a stretch of host operations, then a kernel region, seven times over, and a closing stretch.
The valuation `WJ` gives every buffer of a core after item J−1 (so `W0` is the launch memory and `W15` what @main
returns with). A host stretch takes a valuation to the one its operations compute from it; a kernel region changes
only the arrays its windows name, and leaves each of those at what the pipeline's write-backs have folded into it by
the last grid point. -/

variable (m : (ℓ : Loc nD τ sig) → Buf (Elt F) ℓ) (ρ : Dev nD → PrngReg)

/-- Core `c`'s buffers at launch. -/
abbrev W0 (m : (ℓ : Loc nD τ sig) → Buf (Elt F) ℓ) (ρ : Dev nD → PrngReg) : Dev nD → Valuation τ sig (Elt F) := fun c b => m (c, b)

/-- After the host stretch `hostOps0` (what region 0 is entered from). -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- A buffer that no operation of `hostOps0` writes keeps its contents across the stretch. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- At region 0's exit: each of its windows' arrays at what the pipeline leaves there (an input as entered, the
    output with every grid point's block written back), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- Region 0's exit contents in the two forms the region's exit step asks for: its arrays hold what the pipeline
    leaves, every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1` (what region 1 is entered from). -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- A buffer that no operation of `hostOps1` writes keeps its contents across the stretch. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- At region 1's exit: each of its windows' arrays at what the pipeline leaves there (an input as entered, the
    output with every grid point's block written back), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
/-- Region 1's exit contents in the two forms the region's exit step asks for: its arrays hold what the pipeline
    leaves, every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2` (what region 2 is entered from). -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- A buffer that no operation of `hostOps2` writes keeps its contents across the stretch. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- At region 2's exit: each of its windows' arrays at what the pipeline leaves there (an input as entered, the
    output with every grid point's block written back), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
/-- Region 2's exit contents in the two forms the region's exit step asks for: its arrays hold what the pipeline
    leaves, every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3` (what region 3 is entered from). -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- A buffer that no operation of `hostOps3` writes keeps its contents across the stretch. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-- At region 3's exit: each of its windows' arrays at what the pipeline leaves there (an input as entered, the
    output with every grid point's block written back), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the TensorCore's references. -/
abbrev V8 : (c : Dev nD) → (b : Ref sig .tc) → Buf (Elt F) ((c : Thread nD τ).loc b) := fun c b => W8 m ρ c b
/-- Region 3's exit contents in the two forms the region's exit step asks for: its arrays hold what the pipeline
    leaves, every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4` (what region 4 is entered from). -/
abbrev W9 : Dev nD → Valuation τ sig (Elt F) := fun c => StableHlo.after hostOps4 (W8 m ρ c)
/-- The same, read at the TensorCore's references. -/
abbrev V9 : (c : Dev nD) → (b : Ref sig .tc) → Buf (Elt F) ((c : Thread nD τ).loc b) := fun c b => W9 m ρ c b
/-- A buffer that no operation of `hostOps4` writes keeps its contents across the stretch. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

/-- At region 4's exit: each of its windows' arrays at what the pipeline leaves there (an input as entered, the
    output with every grid point's block written back), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same, read at the TensorCore's references. -/
abbrev V10 : (c : Dev nD) → (b : Ref sig .tc) → Buf (Elt F) ((c : Thread nD τ).loc b) := fun c b => W10 m ρ c b
/-- Region 4's exit contents in the two forms the region's exit step asks for: its arrays hold what the pipeline
    leaves, every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch `hostOps5` (what region 5 is entered from). -/
abbrev W11 : Dev nD → Valuation τ sig (Elt F) := fun c => StableHlo.after hostOps5 (W10 m ρ c)
/-- The same, read at the TensorCore's references. -/
abbrev V11 : (c : Dev nD) → (b : Ref sig .tc) → Buf (Elt F) ((c : Thread nD τ).loc b) := fun c b => W11 m ρ c b
/-- A buffer that no operation of `hostOps5` writes keeps its contents across the stretch. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

/-- At region 5's exit: each of its windows' arrays at what the pipeline leaves there (an input as entered, the
    output with every grid point's block written back), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same, read at the TensorCore's references. -/
abbrev V12 : (c : Dev nD) → (b : Ref sig .tc) → Buf (Elt F) ((c : Thread nD τ).loc b) := fun c b => W12 m ρ c b
/-- Region 5's exit contents in the two forms the region's exit step asks for: its arrays hold what the pipeline
    leaves, every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch `hostOps6` (what region 6 is entered from). -/
abbrev W13 : Dev nD → Valuation τ sig (Elt F) := fun c => StableHlo.after hostOps6 (W12 m ρ c)
/-- The same, read at the TensorCore's references. -/
abbrev V13 : (c : Dev nD) → (b : Ref sig .tc) → Buf (Elt F) ((c : Thread nD τ).loc b) := fun c b => W13 m ρ c b
/-- A buffer that no operation of `hostOps6` writes keeps its contents across the stretch. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h

/-- At region 6's exit: each of its windows' arrays at what the pipeline leaves there (an input as entered, the
    output with every grid point's block written back), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same, read at the TensorCore's references. -/
abbrev V14 : (c : Dev nD) → (b : Ref sig .tc) → Buf (Elt F) ((c : Thread nD τ).loc b) := fun c b => W14 m ρ c b
/-- Region 6's exit contents in the two forms the region's exit step asks for: its arrays hold what the pipeline
    leaves, every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After the host stretch `hostOps7` (what @main returns with). -/
abbrev W15 : Dev nD → Valuation τ sig (Elt F) := fun c => StableHlo.after hostOps7 (W14 m ρ c)
/-- The same, read at the TensorCore's references. -/
abbrev V15 : (c : Dev nD) → (b : Ref sig .tc) → Buf (Elt F) ((c : Thread nD τ).loc b) := fun c b => W15 m ρ c b
/-- A buffer that no operation of `hostOps7` writes keeps its contents across the stretch. -/
theorem W15_of (c : Dev nD) (r : Ref sig .tc) (h : r ∉ hostOps7_W) :
    W15 m ρ c (Proc.devRef .tc r) = W14 m ρ c (Proc.devRef .tc r) :=
  StableHlo.after_of_writes_sub hostOps7 _ hostOps7_writes h

/-! ## The arguments end as launched

No host operation writes an argument, and the only region with an argument among its windows is region 0, which reads
`main_arg0` and `main_arg3` through input windows (an input's array is left as entered); so the valuation at an
argument walks back item by item to the launch memory. -/

theorem W15_main_arg0 (c : Dev nD) : W15 m ρ c (Proc.devRef .tc main_arg0) = m ((c : Thread nD τ).loc main_arg0) :=
  calc W15 m ρ c (Proc.devRef .tc main_arg0)
    _ = W14 m ρ c (Proc.devRef .tc main_arg0) := W15_of m ρ c main_arg0 (by decide)
    _ = W13 m ρ c (Proc.devRef .tc main_arg0) := W14_of_ne m ρ c main_arg0 (by decide)
    _ = W12 m ρ c (Proc.devRef .tc main_arg0) := W13_of m ρ c main_arg0 (by decide)
    _ = W11 m ρ c (Proc.devRef .tc main_arg0) := W12_of_ne m ρ c main_arg0 (by decide)
    _ = W10 m ρ c (Proc.devRef .tc main_arg0) := W11_of m ρ c main_arg0 (by decide)
    _ = W9 m ρ c (Proc.devRef .tc main_arg0) := W10_of_ne m ρ c main_arg0 (by decide)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W15_main_arg1 (c : Dev nD) : W15 m ρ c (Proc.devRef .tc main_arg1) = m ((c : Thread nD τ).loc main_arg1) :=
  calc W15 m ρ c (Proc.devRef .tc main_arg1)
    _ = W14 m ρ c (Proc.devRef .tc main_arg1) := W15_of m ρ c main_arg1 (by decide)
    _ = W13 m ρ c (Proc.devRef .tc main_arg1) := W14_of_ne m ρ c main_arg1 (by decide)
    _ = W12 m ρ c (Proc.devRef .tc main_arg1) := W13_of m ρ c main_arg1 (by decide)
    _ = W11 m ρ c (Proc.devRef .tc main_arg1) := W12_of_ne m ρ c main_arg1 (by decide)
    _ = W10 m ρ c (Proc.devRef .tc main_arg1) := W11_of m ρ c main_arg1 (by decide)
    _ = W9 m ρ c (Proc.devRef .tc main_arg1) := W10_of_ne m ρ c main_arg1 (by decide)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W15_main_arg2 (c : Dev nD) : W15 m ρ c (Proc.devRef .tc main_arg2) = m ((c : Thread nD τ).loc main_arg2) :=
  calc W15 m ρ c (Proc.devRef .tc main_arg2)
    _ = W14 m ρ c (Proc.devRef .tc main_arg2) := W15_of m ρ c main_arg2 (by decide)
    _ = W13 m ρ c (Proc.devRef .tc main_arg2) := W14_of_ne m ρ c main_arg2 (by decide)
    _ = W12 m ρ c (Proc.devRef .tc main_arg2) := W13_of m ρ c main_arg2 (by decide)
    _ = W11 m ρ c (Proc.devRef .tc main_arg2) := W12_of_ne m ρ c main_arg2 (by decide)
    _ = W10 m ρ c (Proc.devRef .tc main_arg2) := W11_of m ρ c main_arg2 (by decide)
    _ = W9 m ρ c (Proc.devRef .tc main_arg2) := W10_of_ne m ρ c main_arg2 (by decide)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W15_main_arg3 (c : Dev nD) : W15 m ρ c (Proc.devRef .tc main_arg3) = m ((c : Thread nD τ).loc main_arg3) :=
  calc W15 m ρ c (Proc.devRef .tc main_arg3)
    _ = W14 m ρ c (Proc.devRef .tc main_arg3) := W15_of m ρ c main_arg3 (by decide)
    _ = W13 m ρ c (Proc.devRef .tc main_arg3) := W14_of_ne m ρ c main_arg3 (by decide)
    _ = W12 m ρ c (Proc.devRef .tc main_arg3) := W13_of m ρ c main_arg3 (by decide)
    _ = W11 m ρ c (Proc.devRef .tc main_arg3) := W12_of_ne m ρ c main_arg3 (by decide)
    _ = W10 m ρ c (Proc.devRef .tc main_arg3) := W11_of m ρ c main_arg3 (by decide)
    _ = W9 m ρ c (Proc.devRef .tc main_arg3) := W10_of_ne m ρ c main_arg3 (by decide)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := W1_of m ρ c main_arg3 (by decide)
    _ = m ((c : Thread nD τ).loc main_arg3) := rfl

theorem W15_main_arg4 (c : Dev nD) : W15 m ρ c (Proc.devRef .tc main_arg4) = m ((c : Thread nD τ).loc main_arg4) :=
  calc W15 m ρ c (Proc.devRef .tc main_arg4)
    _ = W14 m ρ c (Proc.devRef .tc main_arg4) := W15_of m ρ c main_arg4 (by decide)
    _ = W13 m ρ c (Proc.devRef .tc main_arg4) := W14_of_ne m ρ c main_arg4 (by decide)
    _ = W12 m ρ c (Proc.devRef .tc main_arg4) := W13_of m ρ c main_arg4 (by decide)
    _ = W11 m ρ c (Proc.devRef .tc main_arg4) := W12_of_ne m ρ c main_arg4 (by decide)
    _ = W10 m ρ c (Proc.devRef .tc main_arg4) := W11_of m ρ c main_arg4 (by decide)
    _ = W9 m ρ c (Proc.devRef .tc main_arg4) := W10_of_ne m ρ c main_arg4 (by decide)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W15_main_arg5 (c : Dev nD) : W15 m ρ c (Proc.devRef .tc main_arg5) = m ((c : Thread nD τ).loc main_arg5) :=
  calc W15 m ρ c (Proc.devRef .tc main_arg5)
    _ = W14 m ρ c (Proc.devRef .tc main_arg5) := W15_of m ρ c main_arg5 (by decide)
    _ = W13 m ρ c (Proc.devRef .tc main_arg5) := W14_of_ne m ρ c main_arg5 (by decide)
    _ = W12 m ρ c (Proc.devRef .tc main_arg5) := W13_of m ρ c main_arg5 (by decide)
    _ = W11 m ρ c (Proc.devRef .tc main_arg5) := W12_of_ne m ρ c main_arg5 (by decide)
    _ = W10 m ρ c (Proc.devRef .tc main_arg5) := W11_of m ρ c main_arg5 (by decide)
    _ = W9 m ρ c (Proc.devRef .tc main_arg5) := W10_of_ne m ρ c main_arg5 (by decide)
    _ = W8 m ρ c (Proc.devRef .tc main_arg5) := W9_of m ρ c main_arg5 (by decide)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W15_main_arg6 (c : Dev nD) : W15 m ρ c (Proc.devRef .tc main_arg6) = m ((c : Thread nD τ).loc main_arg6) :=
  calc W15 m ρ c (Proc.devRef .tc main_arg6)
    _ = W14 m ρ c (Proc.devRef .tc main_arg6) := W15_of m ρ c main_arg6 (by decide)
    _ = W13 m ρ c (Proc.devRef .tc main_arg6) := W14_of_ne m ρ c main_arg6 (by decide)
    _ = W12 m ρ c (Proc.devRef .tc main_arg6) := W13_of m ρ c main_arg6 (by decide)
    _ = W11 m ρ c (Proc.devRef .tc main_arg6) := W12_of_ne m ρ c main_arg6 (by decide)
    _ = W10 m ρ c (Proc.devRef .tc main_arg6) := W11_of m ρ c main_arg6 (by decide)
    _ = W9 m ρ c (Proc.devRef .tc main_arg6) := W10_of_ne m ρ c main_arg6 (by decide)
    _ = W8 m ρ c (Proc.devRef .tc main_arg6) := W9_of m ρ c main_arg6 (by decide)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W15_main_arg7 (c : Dev nD) : W15 m ρ c (Proc.devRef .tc main_arg7) = m ((c : Thread nD τ).loc main_arg7) :=
  calc W15 m ρ c (Proc.devRef .tc main_arg7)
    _ = W14 m ρ c (Proc.devRef .tc main_arg7) := W15_of m ρ c main_arg7 (by decide)
    _ = W13 m ρ c (Proc.devRef .tc main_arg7) := W14_of_ne m ρ c main_arg7 (by decide)
    _ = W12 m ρ c (Proc.devRef .tc main_arg7) := W13_of m ρ c main_arg7 (by decide)
    _ = W11 m ρ c (Proc.devRef .tc main_arg7) := W12_of_ne m ρ c main_arg7 (by decide)
    _ = W10 m ρ c (Proc.devRef .tc main_arg7) := W11_of m ρ c main_arg7 (by decide)
    _ = W9 m ρ c (Proc.devRef .tc main_arg7) := W10_of_ne m ρ c main_arg7 (by decide)
    _ = W8 m ρ c (Proc.devRef .tc main_arg7) := W9_of m ρ c main_arg7 (by decide)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W15_main_arg8 (c : Dev nD) : W15 m ρ c (Proc.devRef .tc main_arg8) = m ((c : Thread nD τ).loc main_arg8) :=
  calc W15 m ρ c (Proc.devRef .tc main_arg8)
    _ = W14 m ρ c (Proc.devRef .tc main_arg8) := W15_of m ρ c main_arg8 (by decide)
    _ = W13 m ρ c (Proc.devRef .tc main_arg8) := W14_of_ne m ρ c main_arg8 (by decide)
    _ = W12 m ρ c (Proc.devRef .tc main_arg8) := W13_of m ρ c main_arg8 (by decide)
    _ = W11 m ρ c (Proc.devRef .tc main_arg8) := W12_of_ne m ρ c main_arg8 (by decide)
    _ = W10 m ρ c (Proc.devRef .tc main_arg8) := W11_of m ρ c main_arg8 (by decide)
    _ = W9 m ρ c (Proc.devRef .tc main_arg8) := W10_of_ne m ρ c main_arg8 (by decide)
    _ = W8 m ρ c (Proc.devRef .tc main_arg8) := W9_of m ρ c main_arg8 (by decide)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

end Cert.Kernel.Hand

end
-- ==== Proof.K.Run.lean ====
import proofs.«155469_j90744069030458_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! # @main as a run of segments

Every item of @main is a segment over one thread state: core `c` holds every unscoped buffer whole at the boundary's
valuation `WJ c`, and beside them its generator register (at some state) and the record that it owes no other core
anything. A host stretch moves the buffers from `WJ` to the valuation its operations compute; a kernel region takes its
windows' arrays out of the buffers, runs the pipeline over them, and puts them back at what the pipeline leaves. -/

variable (m : (ℓ : Loc nD τ sig) → Buf (Elt F) ℓ) (ρ : Dev nD → PrngReg)

local notation "𝕄" => MT nD τ sig Unit (Elt F) ℕ (Pipeline.UD sig nD τ) ℕ

/-- No pipeline here prefetches a table, so every table's admissible contents are the trivial ones. -/
abbrev adm : (p : Fin 7) → (pcfgs (F := F) p).Adm := fun p => (cfgs p).toPCfg_adm
/-- Every pipeline's proof data, each at the contents its region is entered from (a literal match on the region's
    number, so that a numeral reduces to that region's own data). -/
def pdats : (p : Fin 7) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything, so no level is assigned. -/
abbrev L : GSem nD τ sig → Finset Unit := fun _ => ∅
abbrev lv : GSem nD τ sig → Unit → ℕ := fun _ _ => 0
/-- What rides beside the buffers through every segment: the core's generator register at some state, and its record
    of owing nothing. -/
abbrev R (c : Dev nD) : sProp 𝕄 := iprop((∃ r, prngReg c r) ∗ ∃ W, owes (c : Thread nD τ) (0 : CellTallies nD τ sig Unit) W)
/-- A host stretch as a segment: from every unscoped buffer at `W` to every unscoped buffer at what the stretch's
    operations compute from `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of owing nothing: every unscoped buffer at `W15`, the generator register
    at some state. -/
abbrev Tₙ (c : Dev nD) : sProp 𝕄 := iprop(StableHlo.held (c : Thread nD τ) (Pipeline.ucRefs τ sig) (W15 m ρ c) ∗ ∃ r, prngReg c r)

/-! ## The regions as segments -/

set_option backward.isDefEq.respectTransparency.types false in
/-- Region 0 over the thread state: entered from every unscoped buffer at `W1`, left at `W2`. At entry its windows'
    arrays are split out of the unscoped buffers and at exit put back at the contents the pipeline leaves; the generator
    register goes into the pipeline's invariant and comes back out; nothing is owed, and the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. At entry its windows'
    arrays are split out of the unscoped buffers and at exit put back at the contents the pipeline leaves; the generator
    register goes into the pipeline's invariant and comes back out; nothing is owed, and the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. At entry its windows'
    arrays are split out of the unscoped buffers and at exit put back at the contents the pipeline leaves; the generator
    register goes into the pipeline's invariant and comes back out; nothing is owed, and the kernel has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. At entry its windows'
    arrays are split out of the unscoped buffers and at exit put back at the contents the pipeline leaves; the generator
    register goes into the pipeline's invariant and comes back out; nothing is owed, and the kernel has no semaphore of
    its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. At entry its windows'
    arrays are split out of the unscoped buffers and at exit put back at the contents the pipeline leaves; the generator
    register goes into the pipeline's invariant and comes back out; nothing is owed, and the kernel has no semaphore of
    its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. At entry its windows'
    arrays are split out of the unscoped buffers and at exit put back at the contents the pipeline leaves; the generator
    register goes into the pipeline's invariant and comes back out; nothing is owed, and the kernel has no semaphore of
    its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := Pipeline.UD sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. At entry its windows'
    arrays are split out of the unscoped buffers and at exit put back at the contents the pipeline leaves; the generator
    register goes into the pipeline's invariant and comes back out; nothing is owed, and the kernel has no semaphore of
    its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := Pipeline.UD sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's fifteen segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)) ]

set_option backward.isDefEq.respectTransparency.types false in
/-- From any memory `m` with every counter at zero, every weakly fair execution of @main terminates, and in every final
    memory each core holds the two results at what the last valuation `W15` gives them and every argument as launched. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v153) = W15 m ρ c (Proc.devRef .tc main_v153)
      ∧ r.2.mem ((c.tc : Thread nD τ).loc main_v157) = W15 m ρ c (Proc.devRef .tc main_v157)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj embL defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W15 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v153 (by decide)),
       h c _ (mem_uc main_v157 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c)⟩)

end Cert.Kernel.Hand

end
-- ==== Proof.KI.Reg0.lean ====
import proofs.«155469_j90744069030458_1_alg».proof.Proof.Gen.KernelIdeal.Launch
import proofs.«155469_j90744069030458_1_alg».proof.Proof.Gen.KernelIdeal.Skeleton
import proofs.«155469_j90744069030458_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The body's half of region 0: pallas_call 0, whose body `cc0__lin_kernel` loads each of its 3 input blocks whole,
  computes one block [5000, 64] from them and stores it whole. Stated at any contents `V` of the core's buffers on
  entry to the region: each window's block at a grid point, what the body leaves in the output window's buffer as
  a function of the input blocks, the body's triple, the pipeline's proof data and its body obligation.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (unfetched, the block
    index has not moved), for any proof data whose array is `V`'s and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (unfetched, the block
    index has not moved), for any proof data whose array is `V`'s and whose body leaves the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (unfetched, the block
    index has not moved), for any proof data whose array is `V`'s and whose body leaves the block in place. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S5000x64 := Rect.unit (s := S5000x64) ![0, 0] S5000x64.size inb_S5000x64_S5000x64_0_0

/-! ## What the body leaves in the output window's buffer -/

/-- Window 3's staging buffer after the body, from the input windows' blocks: its one store, of the whole buffer. -/
def out0_3 (x0 : Vec F S5000x128 .f32) (x1 : Vec F S128x64 .f32) (x2 : Vec F S1x64 .f32) : Vec F S5000x64 .f32 :=
  View.canon [⟨r0_3, k0_pay1 (View.ld x0 r0_0) (View.ld x1 r0_1) (View.ld x2 r0_2)⟩]

/-- The store covers the buffer. -/
theorem cover0_3 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

/-! ## The body's triple -/

set_option maxHeartbeats 1000000 in
/-- The body on whole staging buffers, the inputs' reading `x0 …` and the output's holding anything, runs to the
    continuation with the inputs' as they were and the output's at `out0_3` of the inputs. -/
theorem sound_kernel0 (c : Dev nD) (E : Set ℕ) (i : grid0.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__lin_kernel i arg1 harg1 arg2 harg2 arg3 harg3 arg4 harg4) K := by
  simp only [cc0__lin_kernel_eq_skeleton]; unfold cc0__lin_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer at its block and the output's at `out0_3` of the input blocks; the invariant that leaves the
    scoped rest and the generator register untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«155469_j90744069030458_1_alg».proof.Proof.Gen.KernelIdeal.Launch
import proofs.«155469_j90744069030458_1_alg».proof.Proof.Gen.KernelIdeal.Skeleton
import proofs.«155469_j90744069030458_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The body's half of region 1: pallas_call 1, whose body `cc1__mlp_resid_kernel` loads each of its 6 input blocks whole,
  computes one block [5000, 64] from them and stores it whole. Stated at any contents `V` of the core's buffers on
  entry to the region: each window's block at a grid point, what the body leaves in the output window's buffer as
  a function of the input blocks, the body's triple, the pipeline's proof data and its body obligation.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (unfetched, the block
    index has not moved), for any proof data whose array is `V`'s and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (unfetched, the block
    index has not moved), for any proof data whose array is `V`'s and whose body leaves the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (unfetched, the block
    index has not moved), for any proof data whose array is `V`'s and whose body leaves the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (unfetched, the block
    index has not moved), for any proof data whose array is `V`'s and whose body leaves the block in place. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not (unfetched, the block
    index has not moved), for any proof data whose array is `V`'s and whose body leaves the block in place. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not (unfetched, the block
    index has not moved), for any proof data whose array is `V`'s and whose body leaves the block in place. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_0 : Rect S5000x64 := Rect.unit (s := S5000x64) ![0, 0] S5000x64.size inb_S5000x64_S5000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0

/-! ## What the body leaves in the output window's buffer -/

/-- Window 6's staging buffer after the body, from the input windows' blocks: its one store, of the whole buffer. -/
def out1_6 (x0 : Vec F S5000x64 .f32) (x1 : Vec F S64x64 .f32) (x2 : Vec F S1x64 .f32) (x3 : Vec F S64x64 .f32) (x4 : Vec F S1x64 .f32) (x5 : Vec F S5000x64 .f32) : Vec F S5000x64 .f32 :=
  View.canon [⟨r1_0, k1_pay1 (View.ld x0 r1_0) (View.ld x1 r1_1) (View.ld x2 r1_2) (View.ld x3 r1_1) (View.ld x4 r1_2) (View.ld x5 r1_0)⟩]

/-- The store covers the buffer. -/
theorem cover1_6 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 1000000 in
/-- The body on whole staging buffers, the inputs' reading `x0 …` and the output's holding anything, runs to the
    continuation with the inputs' as they were and the output's at `out1_6` of the inputs. -/
theorem sound_kernel1 (c : Dev nD) (E : Set ℕ) (i : grid1.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S5000x64 .f32) (harg7 : arg7.IsWhole)
    (x0 : Vec F S5000x64 .f32) (x1 : Vec F S64x64 .f32) (x2 : Vec F S1x64 .f32) (x3 : Vec F S64x64 .f32) (x4 : Vec F S1x64 .f32) (x5 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__mlp_resid_kernel i arg1 harg1 arg2 harg2 arg3 harg3 arg4 harg4 arg5 harg5 arg6 harg6 arg7 harg7) K := by
  simp only [cc1__mlp_resid_kernel_eq_skeleton]; unfold cc1__mlp_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them; after the body at point `t` each
    input's buffer at its block and the output's at `out1_6` of the input blocks; the invariant that leaves the
    scoped rest and the generator register untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«155469_j90744069030458_1_alg».proof.Proof.Gen.KernelIdeal.Launch
import proofs.«155469_j90744069030458_1_alg».proof.Proof.Gen.KernelIdeal.Skeleton
import proofs.«155469_j90744069030458_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The body's half of region 2: pallas_call 2, whose body `cc2__mlp_plain_kernel` loads each of its 5 input blocks whole,
  computes one block [5000, 64] from them and stores it whole. Stated at any contents `V` of the core's buffers on
  entry to the region: each window's block at a grid point, what the body leaves in the output window's buffer as
  a function of the input blocks, the body's triple, the pipeline's proof data and its body obligation.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (unfetched, the block
    index has not moved), for any proof data whose array is `V`'s and whose body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (unfetched, the block
    index has not moved), for any proof data whose array is `V`'s and whose body leaves the block in place. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (unfetched, the block
    index has not moved), for any proof data whose array is `V`'s and whose body leaves the block in place. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (unfetched, the block
    index has not moved), for any proof data whose array is `V`'s and whose body leaves the block in place. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not (unfetched, the block
    index has not moved), for any proof data whose array is `V`'s and whose body leaves the block in place. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole buffer -/

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

/-! ## What the body leaves in the output window's buffer -/

/-- Window 5's staging buffer after the body, from the input windows' blocks: its one store, of the whole buffer. -/
def out2_5 (x0 : Vec F S5000x64 .f32) (x1 : Vec F S64x64 .f32) (x2 : Vec F S1x64 .f32) (x3 : Vec F S64x64 .f32) (x4 : Vec F S1x64 .f32) : Vec F S5000x64 .f32 :=
  View.canon [⟨r2_0, k2_pay1 (View.ld x0 r2_0) (View.ld x1 r2_1) (View.ld x2 r2_2) (View.ld x3 r2_1) (View.ld x4 r2_2)⟩]

/-- The store covers the buffer. -/
theorem cover2_5 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 1000000 in
/-- The body on whole staging buffers, the inputs' reading `x0 …` and the output's holding anything, runs to the
    continuation with the inputs' as they were and the output's at `out2_5` of the inputs. -/
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S64x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__mlp_plain_kernel i arg1 harg1 arg2 harg2 arg3 harg3 arg4 harg4 arg5 harg5 arg6 harg6) K := by
  simp only [cc2__mlp_plain_kernel_eq_skeleton]; unfold cc2__mlp_plain_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body at point `t` each
    input's buffer at its block and the output's at `out2_5` of the input blocks; the invariant that leaves the
    scoped rest and the generator register untouched; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«155469_j90744069030458_1_alg».proof.Proof.Gen.KernelIdeal.Launch
import proofs.«155469_j90744069030458_1_alg».proof.Proof.Gen.KernelIdeal.Skeleton
import proofs.«155469_j90744069030458_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The body's half of region 3: pallas_call 3, whose body `cc3__mlp_resid_kernel` loads each of its 6 input blocks whole,
  computes one block [5000, 64] from them and stores it whole. Stated at any contents `V` of the core's buffers on
  entry to the region: each window's block at a grid point, what the body leaves in the output window's buffer as
  a function of the input blocks, the body's triple, the pipeline's proof data and its body obligation.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not (unfetched, the block
    index has not moved), for any proof data whose array is `V`'s and whose body leaves the block in place. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not (unfetched, the block
    index has not moved), for any proof data whose array is `V`'s and whose body leaves the block in place. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not (unfetched, the block
    index has not moved), for any proof data whose array is `V`'s and whose body leaves the block in place. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not (unfetched, the block
    index has not moved), for any proof data whose array is `V`'s and whose body leaves the block in place. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not (unfetched, the block
    index has not moved), for any proof data whose array is `V`'s and whose body leaves the block in place. -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, fetched there or not (unfetched, the block
    index has not moved), for any proof data whose array is `V`'s and whose body leaves the block in place. -/
theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole buffer -/

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0

/-! ## What the body leaves in the output window's buffer -/

/-- Window 6's staging buffer after the body, from the input windows' blocks: its one store, of the whole buffer. -/
def out3_6 (x0 : Vec F S5000x64 .f32) (x1 : Vec F S64x64 .f32) (x2 : Vec F S1x64 .f32) (x3 : Vec F S64x64 .f32) (x4 : Vec F S1x64 .f32) (x5 : Vec F S5000x64 .f32) : Vec F S5000x64 .f32 :=
  View.canon [⟨r3_0, k3_pay1 (View.ld x0 r3_0) (View.ld x1 r3_1) (View.ld x2 r3_2) (View.ld x3 r3_1) (View.ld x4 r3_2) (View.ld x5 r3_0)⟩]

/-- The store covers the buffer. -/
theorem cover3_6 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body's triple -/

set_option maxHeartbeats 1000000 in
/-- The body on whole staging buffers, the inputs' reading `x0 …` and the output's holding anything, runs to the
    continuation with the inputs' as they were and the output's at `out3_6` of the inputs. -/
theorem sound_kernel3 (c : Dev nD) (E : Set ℕ) (i : grid3.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S5000x64 .f32) (harg7 : arg7.IsWhole)
    (x0 : Vec F S5000x64 .f32) (x1 : Vec F S64x64 .f32) (x2 : Vec F S1x64 .f32) (x3 : Vec F S64x64 .f32) (x4 : Vec F S1x64 .f32) (x5 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__mlp_resid_kernel i arg1 harg1 arg2 harg2 arg3 harg3 arg4 harg4 arg5 harg5 arg6 harg6 arg7 harg7) K := by
  simp only [cc3__mlp_resid_kernel_eq_skeleton]; unfold cc3__mlp_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The pipeline's proof data -/

/-- The proof data of pipeline 3 on core `c`: the arrays as the region finds them; after the body at point `t` each
    input's buffer at its block and the output's at `out3_6` of the input blocks; the invariant that leaves the
    scoped rest and the generator register untouched; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

/-- Each input's staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«155469_j90744069030458_1_alg».proof.Proof.Gen.KernelIdeal.Launch
import proofs.«155469_j90744069030458_1_alg».proof.Proof.Gen.KernelIdeal.Skeleton
import proofs.«155469_j90744069030458_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The body's half of region 4: pallas_call 4, whose body `cc4__mlp_plain_kernel` loads each of its 5 input blocks whole,
  computes one block [5000, 64] from them and stores it whole. Stated at any contents `V` of the core's buffers on
  entry to the region: each window's block at a grid point, what the body leaves in the output window's buffer as
  a function of the input blocks, the body's triple, the pipeline's proof data and its body obligation.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not (unfetched, the block
    index has not moved), for any proof data whose array is `V`'s and whose body leaves the block in place. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not (unfetched, the block
    index has not moved), for any proof data whose array is `V`'s and whose body leaves the block in place. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not (unfetched, the block
    index has not moved), for any proof data whose array is `V`'s and whose body leaves the block in place. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not (unfetched, the block
    index has not moved), for any proof data whose array is `V`'s and whose body leaves the block in place. -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not (unfetched, the block
    index has not moved), for any proof data whose array is `V`'s and whose body leaves the block in place. -/
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store take a whole buffer -/

abbrev r4_0 : Rect S5000x64 := Rect.unit (s := S5000x64) ![0, 0] S5000x64.size inb_S5000x64_S5000x64_0_0
abbrev r4_1 : Rect S64x64 := Rect.unit (s := S64x64) ![0, 0] S64x64.size inb_S64x64_S64x64_0_0
abbrev r4_2 : Rect S1x64 := Rect.unit (s := S1x64) ![0, 0] S1x64.size inb_S1x64_S1x64_0_0

/-! ## What the body leaves in the output window's buffer -/

/-- Window 5's staging buffer after the body, from the input windows' blocks: its one store, of the whole buffer. -/
def out4_5 (x0 : Vec F S5000x64 .f32) (x1 : Vec F S64x64 .f32) (x2 : Vec F S1x64 .f32) (x3 : Vec F S64x64 .f32) (x4 : Vec F S1x64 .f32) : Vec F S5000x64 .f32 :=
  View.canon [⟨r4_0, k4_pay1 (View.ld x0 r4_0) (View.ld x1 r4_1) (View.ld x2 r4_2) (View.ld x3 r4_1) (View.ld x4 r4_2)⟩]

/-- The store covers the buffer. -/
theorem cover4_5 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

/-! ## The body's triple -/

set_option maxHeartbeats 1000000 in
/-- The body on whole staging buffers, the inputs' reading `x0 …` and the output's holding anything, runs to the
    continuation with the inputs' as they were and the output's at `out4_5` of the inputs. -/
theorem sound_kernel4 (c : Dev nD) (E : Set ℕ) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S64x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__mlp_plain_kernel i arg1 harg1 arg2 harg2 arg3 harg3 arg4 harg4 arg5 harg5 arg6 harg6) K := by
  simp only [cc4__mlp_plain_kernel_eq_skeleton]; unfold cc4__mlp_plain_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core `c`: the arrays as the region finds them; after the body at point `t` each
    input's buffer at its block and the output's at `out4_5` of the input blocks; the invariant that leaves the
    scoped rest and the generator register untouched; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«155469_j90744069030458_1_alg».proof.Proof.Gen.KernelIdeal.Launch
import proofs.«155469_j90744069030458_1_alg».proof.Proof.Gen.KernelIdeal.Skeleton
import proofs.«155469_j90744069030458_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The body's half of region 5: pallas_call 5, whose body `cc5__mlp_resid_kernel` loads each of its 6 input blocks whole,
  computes one block [5000, 64] from them and stores it whole. Stated at any contents `V` of the core's buffers on
  entry to the region: each window's block at a grid point, what the body leaves in the output window's buffer as
  a function of the input blocks, the body's triple, the pipeline's proof data and its body obligation.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not (unfetched, the block
    index has not moved), for any proof data whose array is `V`'s and whose body leaves the block in place. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not (unfetched, the block
    index has not moved), for any proof data whose array is `V`'s and whose body leaves the block in place. -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not (unfetched, the block
    index has not moved), for any proof data whose array is `V`'s and whose body leaves the block in place. -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not (unfetched, the block
    index has not moved), for any proof data whose array is `V`'s and whose body leaves the block in place. -/
theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not (unfetched, the block
    index has not moved), for any proof data whose array is `V`'s and whose body leaves the block in place. -/
theorem before5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds its block at every point, fetched there or not (unfetched, the block
    index has not moved), for any proof data whose array is `V`'s and whose body leaves the block in place. -/
theorem before5_5_of {c : Dev nD} (dat : Dat τ (Elt F) Unit ℕ (Pipeline.UD sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take a whole buffer -/

abbrev r5_0 : Rect S5000x64 := Rect.unit (s := S5000x64) ![0, 0] S5000x64.size inb_S5000x64_S5000x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0

/-! ## What the body leaves in the output window's buffer -/

/-- Window 6's staging buffer after the body, from the input windows' blocks: its one store, of the whole buffer. -/
def out5_6 (x0 : Vec F S5000x64 .f32) (x1 : Vec F S64x64 .f32) (x2 : Vec F S1x64 .f32) (x3 : Vec F S64x64 .f32) (x4 : Vec F S1x64 .f32) (x5 : Vec F S5000x64 .f32) : Vec F S5000x64 .f32 :=
  View.canon [⟨r5_0, k5_pay1 (View.ld x0 r5_0) (View.ld x1 r5_1) (View.ld x2 r5_2) (View.ld x3 r5_1) (View.ld x4 r5_2) (View.ld x5 r5_0)⟩]

/-- The store covers the buffer. -/
theorem cover5_6 (p0 : Vec F S5000x64 .f32) (y : S5000x64.Idx) :
    ∃ pc ∈ ([⟨r5_0, p0⟩] : List (View.Piece (Elt F) S5000x64 .f32)), y ∈ pc.1.set :=
  View.cover_of_tiled [⟨r5_0, p0⟩] S5000x64.size (by rfl) y

/-! ## The body's triple -/

set_option maxHeartbeats 1000000 in
/-- The body on whole staging buffers, the inputs' reading `x0 …` and the output's holding anything, runs to the
    continuation with the inputs' as they were and the output's at `out5_6` of the inputs. -/
theorem sound_kernel5 (c : Dev nD) (E : Set ℕ) (i : grid5.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S5000x64 .f32) (harg7 : arg7.IsWhole)
    (x0 : Vec F S5000x64 .f32) (x1 : Vec F S64x64 .f32) (x2 : Vec F S1x64 .f32) (x3 : Vec F S64x64 .f32) (x4 : Vec F S1x64 .f32) (x5 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out5_6 x0 x1 x2 x3 x4 x5)) -∗ K ⟨⟩))
      ⊢ wp frame (wpE (defs₀ (F := F)) Variants.none c none) E (cc5__mlp_resid_kernel i arg1 harg1 arg2 harg2 arg3 harg3 arg4 harg4 arg5 harg5 arg6 harg6 arg7 harg7) K := by
  simp only [cc5__mlp_resid_kernel_eq_skeleton]; unfold cc5__mlp_resid_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The proof data of pipeline 5 on core `c`: the arrays as the region finds them; after the body at point `t` each
    input's buffer at its block and the output's at `out5_6` of the input blocks; the invariant that leaves the
    scoped rest and the generator register untouched; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

/-- Each input's staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' buffers hold their blocks, so the body's triple applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
import proofs.«155469_j90744069030458_1_alg».proof.Proof.Gen.KernelIdeal.Launch
import proofs.«155469_j90744069030458_1_alg».proof.Proof.Gen.KernelIdeal.Skeleton
import proofs.«155469_j90744069030458_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The body's half of region 6: pallas_call 6, whose body `cc6__mlp_plain_kernel` loads each of its 5 input blocks whole,
  computes one block [5000, 64] from them and stores it whole. Stated at any contents `V` of the core's buffers on
  entry to the region: each window's block at a grid point, what the body leaves in the output window's buffer as
  a function of the input blocks, the body's triple, the pipeline's proof data and its body obligation.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not (unfetched, the block
    index has not moved), for any proof data whose array is `V`'s and whose body leaves the block in place. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or not (unfetched, the block
    index has not moved), for any proof data whose array is `V`'s and whose body leaves the block in place. -/
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, fetched there or not (unfetched, the block
    index has not moved), for any proof data whose array is `V`'s and whose body leaves the block in place. -/
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, fetched there or not (unfetched, the block
    index has not moved), for any proof data whose array is `V`'s and whose body leaves the block in place. -/
theorem before6_3_of {c : Dev nD} (dat : Dat τ (Elt F) Unit ℕ (Pipeline.UD sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block at every point, fetched there or not (unfetched, the block
    index has not moved), for any proof data whose array is `V`'s and whose body leaves the block in place. -/
theorem before6_4_of {c : Dev nD} (dat : Dat τ (Elt F) Unit ℕ (Pipeline.UD sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store take a whole buffer -/

abbrev r6_0 : Rect S5000x64 := Rect.unit (s := S5000x64) ![0, 0] S5000x64.size inb_S5000x64_S5000x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0

/-! ## What the body leaves in the output window's buffer -/

/-- Window 5's staging buffer after the body, from the input windows' blocks: its one store, of the whole buffer. -/
def out6_5 (x0 : Vec F S5000x64 .f32) (x1 : Vec F S64x64 .f32) (x2 : Vec F S1x64 .f32) (x3 : Vec F S64x64 .f32) (x4 : Vec F S1x64 .f32) : Vec F S5000x64 .f32 :=
  View.canon [⟨r6_0, k6_pay1 (View.ld x0 r6_0) (View.ld x1 r6_1) (View.ld x2 r6_2) (View.ld x3 r6_1) (View.ld x4 r6_2)⟩]

/-- The store covers the buffer. -/
theorem cover6_5 (p0 : Vec F S5000x64 .f32) (y : S5000x64.Idx) :
    ∃ pc ∈ ([⟨r6_0, p0⟩] : List (View.Piece (Elt F) S5000x64 .f32)), y ∈ pc.1.set :=
  View.cover_of_tiled [⟨r6_0, p0⟩] S5000x64.size (by rfl) y

/-! ## The body's triple -/

set_option maxHeartbeats 1000000 in
/-- The body on whole staging buffers, the inputs' reading `x0 …` and the output's holding anything, runs to the
    continuation with the inputs' as they were and the output's at `out6_5` of the inputs. -/
theorem sound_kernel6 (c : Dev nD) (E : Set ℕ) (i : grid6.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S64x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__mlp_plain_kernel i arg1 harg1 arg2 harg2 arg3 harg3 arg4 harg4 arg5 harg5 arg6 harg6) K := by
  simp only [cc6__mlp_plain_kernel_eq_skeleton]; unfold cc6__mlp_plain_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them; after the body at point `t` each
    input's buffer at its block and the output's at `out6_5` of the input blocks; the invariant that leaves the
    scoped rest and the generator register untouched; nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' buffers hold their blocks, so the body's triple applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Chain.lean ====
import proofs.«155469_j90744069030458_1_alg».proof.Proof.KI.Reg0
import proofs.«155469_j90744069030458_1_alg».proof.Proof.KI.Reg1
import proofs.«155469_j90744069030458_1_alg».proof.Proof.KI.Reg2
import proofs.«155469_j90744069030458_1_alg».proof.Proof.KI.Reg3
import proofs.«155469_j90744069030458_1_alg».proof.Proof.KI.Reg4
import proofs.«155469_j90744069030458_1_alg».proof.Proof.KI.Reg5
import proofs.«155469_j90744069030458_1_alg».proof.Proof.KI.Reg6
import proofs.«155469_j90744069030458_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! # The buffers' contents along @main

@main is fifteen items: a stretch of host operations, then a kernel region, seven times over, and a closing stretch.
The valuation `WJ` gives every buffer of a core after item J−1 (so `W0` is the launch memory and `W15` what @main
returns with). A host stretch takes a valuation to the one its operations compute from it; a kernel region changes
only the arrays its windows name, and leaves each of those at what the pipeline's write-backs have folded into it by
the last grid point. -/

variable (m : (ℓ : Loc nD τ sig) → Buf (Elt F) ℓ) (ρ : Dev nD → PrngReg)

/-- Core `c`'s buffers at launch. -/
abbrev W0 (m : (ℓ : Loc nD τ sig) → Buf (Elt F) ℓ) (ρ : Dev nD → PrngReg) : Dev nD → Valuation τ sig (Elt F) := fun c b => m (c, b)

/-- After the host stretch `hostOps0` (what region 0 is entered from). -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- A buffer that no operation of `hostOps0` writes keeps its contents across the stretch. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- At region 0's exit: each of its windows' arrays at what the pipeline leaves there (an input as entered, the
    output with every grid point's block written back), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- Region 0's exit contents in the two forms the region's exit step asks for: its arrays hold what the pipeline
    leaves, every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1` (what region 1 is entered from). -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- A buffer that no operation of `hostOps1` writes keeps its contents across the stretch. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- At region 1's exit: each of its windows' arrays at what the pipeline leaves there (an input as entered, the
    output with every grid point's block written back), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
/-- Region 1's exit contents in the two forms the region's exit step asks for: its arrays hold what the pipeline
    leaves, every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2` (what region 2 is entered from). -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- A buffer that no operation of `hostOps2` writes keeps its contents across the stretch. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- At region 2's exit: each of its windows' arrays at what the pipeline leaves there (an input as entered, the
    output with every grid point's block written back), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
/-- Region 2's exit contents in the two forms the region's exit step asks for: its arrays hold what the pipeline
    leaves, every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3` (what region 3 is entered from). -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- A buffer that no operation of `hostOps3` writes keeps its contents across the stretch. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-- At region 3's exit: each of its windows' arrays at what the pipeline leaves there (an input as entered, the
    output with every grid point's block written back), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the TensorCore's references. -/
abbrev V8 : (c : Dev nD) → (b : Ref sig .tc) → Buf (Elt F) ((c : Thread nD τ).loc b) := fun c b => W8 m ρ c b
/-- Region 3's exit contents in the two forms the region's exit step asks for: its arrays hold what the pipeline
    leaves, every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4` (what region 4 is entered from). -/
abbrev W9 : Dev nD → Valuation τ sig (Elt F) := fun c => StableHlo.after hostOps4 (W8 m ρ c)
/-- The same, read at the TensorCore's references. -/
abbrev V9 : (c : Dev nD) → (b : Ref sig .tc) → Buf (Elt F) ((c : Thread nD τ).loc b) := fun c b => W9 m ρ c b
/-- A buffer that no operation of `hostOps4` writes keeps its contents across the stretch. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

/-- At region 4's exit: each of its windows' arrays at what the pipeline leaves there (an input as entered, the
    output with every grid point's block written back), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same, read at the TensorCore's references. -/
abbrev V10 : (c : Dev nD) → (b : Ref sig .tc) → Buf (Elt F) ((c : Thread nD τ).loc b) := fun c b => W10 m ρ c b
/-- Region 4's exit contents in the two forms the region's exit step asks for: its arrays hold what the pipeline
    leaves, every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch `hostOps5` (what region 5 is entered from). -/
abbrev W11 : Dev nD → Valuation τ sig (Elt F) := fun c => StableHlo.after hostOps5 (W10 m ρ c)
/-- The same, read at the TensorCore's references. -/
abbrev V11 : (c : Dev nD) → (b : Ref sig .tc) → Buf (Elt F) ((c : Thread nD τ).loc b) := fun c b => W11 m ρ c b
/-- A buffer that no operation of `hostOps5` writes keeps its contents across the stretch. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

/-- At region 5's exit: each of its windows' arrays at what the pipeline leaves there (an input as entered, the
    output with every grid point's block written back), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same, read at the TensorCore's references. -/
abbrev V12 : (c : Dev nD) → (b : Ref sig .tc) → Buf (Elt F) ((c : Thread nD τ).loc b) := fun c b => W12 m ρ c b
/-- Region 5's exit contents in the two forms the region's exit step asks for: its arrays hold what the pipeline
    leaves, every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch `hostOps6` (what region 6 is entered from). -/
abbrev W13 : Dev nD → Valuation τ sig (Elt F) := fun c => StableHlo.after hostOps6 (W12 m ρ c)
/-- The same, read at the TensorCore's references. -/
abbrev V13 : (c : Dev nD) → (b : Ref sig .tc) → Buf (Elt F) ((c : Thread nD τ).loc b) := fun c b => W13 m ρ c b
/-- A buffer that no operation of `hostOps6` writes keeps its contents across the stretch. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h

/-- At region 6's exit: each of its windows' arrays at what the pipeline leaves there (an input as entered, the
    output with every grid point's block written back), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same, read at the TensorCore's references. -/
abbrev V14 : (c : Dev nD) → (b : Ref sig .tc) → Buf (Elt F) ((c : Thread nD τ).loc b) := fun c b => W14 m ρ c b
/-- Region 6's exit contents in the two forms the region's exit step asks for: its arrays hold what the pipeline
    leaves, every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After the host stretch `hostOps7` (what @main returns with). -/
abbrev W15 : Dev nD → Valuation τ sig (Elt F) := fun c => StableHlo.after hostOps7 (W14 m ρ c)
/-- The same, read at the TensorCore's references. -/
abbrev V15 : (c : Dev nD) → (b : Ref sig .tc) → Buf (Elt F) ((c : Thread nD τ).loc b) := fun c b => W15 m ρ c b
/-- A buffer that no operation of `hostOps7` writes keeps its contents across the stretch. -/
theorem W15_of (c : Dev nD) (r : Ref sig .tc) (h : r ∉ hostOps7_W) :
    W15 m ρ c (Proc.devRef .tc r) = W14 m ρ c (Proc.devRef .tc r) :=
  StableHlo.after_of_writes_sub hostOps7 _ hostOps7_writes h

/-! ## The arguments end as launched

No host operation writes an argument, and the only region with an argument among its windows is region 0, which reads
`main_arg0` and `main_arg3` through input windows (an input's array is left as entered); so the valuation at an
argument walks back item by item to the launch memory. -/

theorem W15_main_arg0 (c : Dev nD) : W15 m ρ c (Proc.devRef .tc main_arg0) = m ((c : Thread nD τ).loc main_arg0) :=
  calc W15 m ρ c (Proc.devRef .tc main_arg0)
    _ = W14 m ρ c (Proc.devRef .tc main_arg0) := W15_of m ρ c main_arg0 (by decide)
    _ = W13 m ρ c (Proc.devRef .tc main_arg0) := W14_of_ne m ρ c main_arg0 (by decide)
    _ = W12 m ρ c (Proc.devRef .tc main_arg0) := W13_of m ρ c main_arg0 (by decide)
    _ = W11 m ρ c (Proc.devRef .tc main_arg0) := W12_of_ne m ρ c main_arg0 (by decide)
    _ = W10 m ρ c (Proc.devRef .tc main_arg0) := W11_of m ρ c main_arg0 (by decide)
    _ = W9 m ρ c (Proc.devRef .tc main_arg0) := W10_of_ne m ρ c main_arg0 (by decide)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W15_main_arg1 (c : Dev nD) : W15 m ρ c (Proc.devRef .tc main_arg1) = m ((c : Thread nD τ).loc main_arg1) :=
  calc W15 m ρ c (Proc.devRef .tc main_arg1)
    _ = W14 m ρ c (Proc.devRef .tc main_arg1) := W15_of m ρ c main_arg1 (by decide)
    _ = W13 m ρ c (Proc.devRef .tc main_arg1) := W14_of_ne m ρ c main_arg1 (by decide)
    _ = W12 m ρ c (Proc.devRef .tc main_arg1) := W13_of m ρ c main_arg1 (by decide)
    _ = W11 m ρ c (Proc.devRef .tc main_arg1) := W12_of_ne m ρ c main_arg1 (by decide)
    _ = W10 m ρ c (Proc.devRef .tc main_arg1) := W11_of m ρ c main_arg1 (by decide)
    _ = W9 m ρ c (Proc.devRef .tc main_arg1) := W10_of_ne m ρ c main_arg1 (by decide)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W15_main_arg2 (c : Dev nD) : W15 m ρ c (Proc.devRef .tc main_arg2) = m ((c : Thread nD τ).loc main_arg2) :=
  calc W15 m ρ c (Proc.devRef .tc main_arg2)
    _ = W14 m ρ c (Proc.devRef .tc main_arg2) := W15_of m ρ c main_arg2 (by decide)
    _ = W13 m ρ c (Proc.devRef .tc main_arg2) := W14_of_ne m ρ c main_arg2 (by decide)
    _ = W12 m ρ c (Proc.devRef .tc main_arg2) := W13_of m ρ c main_arg2 (by decide)
    _ = W11 m ρ c (Proc.devRef .tc main_arg2) := W12_of_ne m ρ c main_arg2 (by decide)
    _ = W10 m ρ c (Proc.devRef .tc main_arg2) := W11_of m ρ c main_arg2 (by decide)
    _ = W9 m ρ c (Proc.devRef .tc main_arg2) := W10_of_ne m ρ c main_arg2 (by decide)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W15_main_arg3 (c : Dev nD) : W15 m ρ c (Proc.devRef .tc main_arg3) = m ((c : Thread nD τ).loc main_arg3) :=
  calc W15 m ρ c (Proc.devRef .tc main_arg3)
    _ = W14 m ρ c (Proc.devRef .tc main_arg3) := W15_of m ρ c main_arg3 (by decide)
    _ = W13 m ρ c (Proc.devRef .tc main_arg3) := W14_of_ne m ρ c main_arg3 (by decide)
    _ = W12 m ρ c (Proc.devRef .tc main_arg3) := W13_of m ρ c main_arg3 (by decide)
    _ = W11 m ρ c (Proc.devRef .tc main_arg3) := W12_of_ne m ρ c main_arg3 (by decide)
    _ = W10 m ρ c (Proc.devRef .tc main_arg3) := W11_of m ρ c main_arg3 (by decide)
    _ = W9 m ρ c (Proc.devRef .tc main_arg3) := W10_of_ne m ρ c main_arg3 (by decide)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := W1_of m ρ c main_arg3 (by decide)
    _ = m ((c : Thread nD τ).loc main_arg3) := rfl

theorem W15_main_arg4 (c : Dev nD) : W15 m ρ c (Proc.devRef .tc main_arg4) = m ((c : Thread nD τ).loc main_arg4) :=
  calc W15 m ρ c (Proc.devRef .tc main_arg4)
    _ = W14 m ρ c (Proc.devRef .tc main_arg4) := W15_of m ρ c main_arg4 (by decide)
    _ = W13 m ρ c (Proc.devRef .tc main_arg4) := W14_of_ne m ρ c main_arg4 (by decide)
    _ = W12 m ρ c (Proc.devRef .tc main_arg4) := W13_of m ρ c main_arg4 (by decide)
    _ = W11 m ρ c (Proc.devRef .tc main_arg4) := W12_of_ne m ρ c main_arg4 (by decide)
    _ = W10 m ρ c (Proc.devRef .tc main_arg4) := W11_of m ρ c main_arg4 (by decide)
    _ = W9 m ρ c (Proc.devRef .tc main_arg4) := W10_of_ne m ρ c main_arg4 (by decide)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W15_main_arg5 (c : Dev nD) : W15 m ρ c (Proc.devRef .tc main_arg5) = m ((c : Thread nD τ).loc main_arg5) :=
  calc W15 m ρ c (Proc.devRef .tc main_arg5)
    _ = W14 m ρ c (Proc.devRef .tc main_arg5) := W15_of m ρ c main_arg5 (by decide)
    _ = W13 m ρ c (Proc.devRef .tc main_arg5) := W14_of_ne m ρ c main_arg5 (by decide)
    _ = W12 m ρ c (Proc.devRef .tc main_arg5) := W13_of m ρ c main_arg5 (by decide)
    _ = W11 m ρ c (Proc.devRef .tc main_arg5) := W12_of_ne m ρ c main_arg5 (by decide)
    _ = W10 m ρ c (Proc.devRef .tc main_arg5) := W11_of m ρ c main_arg5 (by decide)
    _ = W9 m ρ c (Proc.devRef .tc main_arg5) := W10_of_ne m ρ c main_arg5 (by decide)
    _ = W8 m ρ c (Proc.devRef .tc main_arg5) := W9_of m ρ c main_arg5 (by decide)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W15_main_arg6 (c : Dev nD) : W15 m ρ c (Proc.devRef .tc main_arg6) = m ((c : Thread nD τ).loc main_arg6) :=
  calc W15 m ρ c (Proc.devRef .tc main_arg6)
    _ = W14 m ρ c (Proc.devRef .tc main_arg6) := W15_of m ρ c main_arg6 (by decide)
    _ = W13 m ρ c (Proc.devRef .tc main_arg6) := W14_of_ne m ρ c main_arg6 (by decide)
    _ = W12 m ρ c (Proc.devRef .tc main_arg6) := W13_of m ρ c main_arg6 (by decide)
    _ = W11 m ρ c (Proc.devRef .tc main_arg6) := W12_of_ne m ρ c main_arg6 (by decide)
    _ = W10 m ρ c (Proc.devRef .tc main_arg6) := W11_of m ρ c main_arg6 (by decide)
    _ = W9 m ρ c (Proc.devRef .tc main_arg6) := W10_of_ne m ρ c main_arg6 (by decide)
    _ = W8 m ρ c (Proc.devRef .tc main_arg6) := W9_of m ρ c main_arg6 (by decide)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W15_main_arg7 (c : Dev nD) : W15 m ρ c (Proc.devRef .tc main_arg7) = m ((c : Thread nD τ).loc main_arg7) :=
  calc W15 m ρ c (Proc.devRef .tc main_arg7)
    _ = W14 m ρ c (Proc.devRef .tc main_arg7) := W15_of m ρ c main_arg7 (by decide)
    _ = W13 m ρ c (Proc.devRef .tc main_arg7) := W14_of_ne m ρ c main_arg7 (by decide)
    _ = W12 m ρ c (Proc.devRef .tc main_arg7) := W13_of m ρ c main_arg7 (by decide)
    _ = W11 m ρ c (Proc.devRef .tc main_arg7) := W12_of_ne m ρ c main_arg7 (by decide)
    _ = W10 m ρ c (Proc.devRef .tc main_arg7) := W11_of m ρ c main_arg7 (by decide)
    _ = W9 m ρ c (Proc.devRef .tc main_arg7) := W10_of_ne m ρ c main_arg7 (by decide)
    _ = W8 m ρ c (Proc.devRef .tc main_arg7) := W9_of m ρ c main_arg7 (by decide)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W15_main_arg8 (c : Dev nD) : W15 m ρ c (Proc.devRef .tc main_arg8) = m ((c : Thread nD τ).loc main_arg8) :=
  calc W15 m ρ c (Proc.devRef .tc main_arg8)
    _ = W14 m ρ c (Proc.devRef .tc main_arg8) := W15_of m ρ c main_arg8 (by decide)
    _ = W13 m ρ c (Proc.devRef .tc main_arg8) := W14_of_ne m ρ c main_arg8 (by decide)
    _ = W12 m ρ c (Proc.devRef .tc main_arg8) := W13_of m ρ c main_arg8 (by decide)
    _ = W11 m ρ c (Proc.devRef .tc main_arg8) := W12_of_ne m ρ c main_arg8 (by decide)
    _ = W10 m ρ c (Proc.devRef .tc main_arg8) := W11_of m ρ c main_arg8 (by decide)
    _ = W9 m ρ c (Proc.devRef .tc main_arg8) := W10_of_ne m ρ c main_arg8 (by decide)
    _ = W8 m ρ c (Proc.devRef .tc main_arg8) := W9_of m ρ c main_arg8 (by decide)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

end Cert.KernelIdeal.Hand

end
-- ==== Proof.KI.Run.lean ====
import proofs.«155469_j90744069030458_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! # @main as a run of segments

Every item of @main is a segment over one thread state: core `c` holds every unscoped buffer whole at the boundary's
valuation `WJ c`, and beside them its generator register (at some state) and the record that it owes no other core
anything. A host stretch moves the buffers from `WJ` to the valuation its operations compute; a kernel region takes its
windows' arrays out of the buffers, runs the pipeline over them, and puts them back at what the pipeline leaves. -/

variable (m : (ℓ : Loc nD τ sig) → Buf (Elt F) ℓ) (ρ : Dev nD → PrngReg)

local notation "𝕄" => MT nD τ sig Unit (Elt F) ℕ (Pipeline.UD sig nD τ) ℕ

/-- No pipeline here prefetches a table, so every table's admissible contents are the trivial ones. -/
abbrev adm : (p : Fin 7) → (pcfgs (F := F) p).Adm := fun p => (cfgs p).toPCfg_adm
/-- Every pipeline's proof data, each at the contents its region is entered from (a literal match on the region's
    number, so that a numeral reduces to that region's own data). -/
def pdats : (p : Fin 7) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything, so no level is assigned. -/
abbrev L : GSem nD τ sig → Finset Unit := fun _ => ∅
abbrev lv : GSem nD τ sig → Unit → ℕ := fun _ _ => 0
/-- What rides beside the buffers through every segment: the core's generator register at some state, and its record
    of owing nothing. -/
abbrev R (c : Dev nD) : sProp 𝕄 := iprop((∃ r, prngReg c r) ∗ ∃ W, owes (c : Thread nD τ) (0 : CellTallies nD τ sig Unit) W)
/-- A host stretch as a segment: from every unscoped buffer at `W` to every unscoped buffer at what the stretch's
    operations compute from `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of owing nothing: every unscoped buffer at `W15`, the generator register
    at some state. -/
abbrev Tₙ (c : Dev nD) : sProp 𝕄 := iprop(StableHlo.held (c : Thread nD τ) (Pipeline.ucRefs τ sig) (W15 m ρ c) ∗ ∃ r, prngReg c r)

/-! ## The regions as segments -/

set_option backward.isDefEq.respectTransparency.types false in
/-- Region 0 over the thread state: entered from every unscoped buffer at `W1`, left at `W2`. At entry its windows'
    arrays are split out of the unscoped buffers and at exit put back at the contents the pipeline leaves; the generator
    register goes into the pipeline's invariant and comes back out; nothing is owed, and the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. At entry its windows'
    arrays are split out of the unscoped buffers and at exit put back at the contents the pipeline leaves; the generator
    register goes into the pipeline's invariant and comes back out; nothing is owed, and the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. At entry its windows'
    arrays are split out of the unscoped buffers and at exit put back at the contents the pipeline leaves; the generator
    register goes into the pipeline's invariant and comes back out; nothing is owed, and the kernel has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. At entry its windows'
    arrays are split out of the unscoped buffers and at exit put back at the contents the pipeline leaves; the generator
    register goes into the pipeline's invariant and comes back out; nothing is owed, and the kernel has no semaphore of
    its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. At entry its windows'
    arrays are split out of the unscoped buffers and at exit put back at the contents the pipeline leaves; the generator
    register goes into the pipeline's invariant and comes back out; nothing is owed, and the kernel has no semaphore of
    its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. At entry its windows'
    arrays are split out of the unscoped buffers and at exit put back at the contents the pipeline leaves; the generator
    register goes into the pipeline's invariant and comes back out; nothing is owed, and the kernel has no semaphore of
    its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := Pipeline.UD sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. At entry its windows'
    arrays are split out of the unscoped buffers and at exit put back at the contents the pipeline leaves; the generator
    register goes into the pipeline's invariant and comes back out; nothing is owed, and the kernel has no semaphore of
    its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := Pipeline.UD sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's fifteen segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)) ]

set_option backward.isDefEq.respectTransparency.types false in
/-- From any memory `m` with every counter at zero, every weakly fair execution of @main terminates, and in every final
    memory each core holds the two results at what the last valuation `W15` gives them and every argument as launched. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v153) = W15 m ρ c (Proc.devRef .tc main_v153)
      ∧ r.2.mem ((c.tc : Thread nD τ).loc main_v157) = W15 m ρ c (Proc.devRef .tc main_v157)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj embL defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W15 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v153 (by decide)),
       h c _ (mem_uc main_v157 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c)⟩)

end Cert.KernelIdeal.Hand

end
-- ==== Proof.Spec.lean ====
import proofs.«155469_j90744069030458_1_alg».proof.Proof.Gen.ReferenceIdeal

/-!
  The function both programs compute, written once over whole arrays.

  A graph of 50000 nodes and 800000 weighted edges; node features pass through a linear layer x·W + b, and
  then three rounds of message passing. One aggregation (agg h) sends along every edge the source node's row of
  h times the edge's weight and adds it into the target node's row; round i applies to an aggregate the
  two-layer perceptron relu(m·W1ᵢ + b1ᵢ)·W2ᵢ + b2ᵢ. Round i first adds the perceptron of (agg h) to h (the
  new h), then records the perceptron of the aggregate of the new h. The results are the three recorded
  arrays and the three successive h, each stacked along a new leading axis.

  Every function here is spelt with the reference program's own dimension records, so that the reference's
  operations are these functions literally.
-/

noncomputable section

namespace Cert.Spec

open Idealize.ShloMosaic Cert.ReferenceIdeal Cert.ReferenceIdeal.Gen

/-- The contents of a buffer of shape S and element type e. -/
abbrev Arr (F : FTy → Type) (S : Shape) (e : EltTy) : Type := (⟨S, e⟩ : BufTy).Contents (Elt F)

variable {F : FTy → Type} [FloatOps F]

/-- Row 0 of the edge table: each edge's source node. -/
def src (e : Arr F S2x800000 .i32) : Arr F S800000 .i32 :=
  shapeCast _ (extractStridedSlice S1x800000 ![0, 0] e slices_S2x800000_S1x800000_0_0) shapeCasts_S1x800000_S800000

/-- Row 1 of the edge table: each edge's target node. -/
def dst (e : Arr F S2x800000 .i32) : Arr F S800000 .i32 :=
  shapeCast _ (extractStridedSlice S1x800000 ![1, 0] e slices_S2x800000_S1x800000_1_0) shapeCasts_S1x800000_S800000

/-- A negative node number counts from the end: s + 50000 where s < 0, else s. -/
def wrap (s : Arr F S800000 .i32) : Arr F S800000 .i32 :=
  select (cmpi .slt s (broadcastInDim S800000 ![] bcast_S_S800000 (constantI S_ 32 0#32)))
    (addi s (broadcastInDim S800000 ![] bcast_S_S800000 (constantI S_ 32 50000#32))) s

/-- One aggregation: along every edge, the source node's row of h times the edge's weight, added into the target
    node's row of a zero array. s, d are the edges' source and target nodes, a their weights. -/
def agg (h : Arr F S50000x64 .f32) (s d : Arr F S800000 .i32) (a : Arr F S800000 .f32) : Arr F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 d)
    (mulf (Host.gather gather_S50000x64_S800000x1_S800000x64_1_0_n_n_0_1_164 h
        (broadcastInDim S800000x1 ![0] bcast_S800000_S800000x1_0 (wrap s)))
      (broadcastInDim S800000x64 ![0, 1] bcast_S800000x1_S800000x64_0_1
        (broadcastInDim S800000x1 ![0] bcast_S800000_S800000x1_0 a)))

/-- A bias laid as one row [1, 64]. -/
def row (b : Arr F S64 .f32) : Arr F S1x64 .f32 := broadcastInDim S1x64 ![1] bcast_S64_S1x64_1 b

/-- A one-row table repeated over the 50000 nodes. -/
def rows (r : Arr F S1x64 .f32) : Arr F S50000x64 .f32 := broadcastInDim S50000x64 ![0, 1] bcast_S1x64_S50000x64_0_1 r

/-- The input layer x·W + r, the bias given as a row. -/
def lin (x : Arr F S50000x128 .f32) (W : Arr F S128x64 .f32) (r : Arr F S1x64 .f32) : Arr F S50000x64 .f32 :=
  addf (Host.dotGeneral dot_S50000x128_S128x64_S50000x64_1_0_0_1_n_n none x W) (rows r)

/-- The two-layer perceptron relu(m·w1 + r1)·w2 + r2, the biases given as rows. -/
def mlp (m : Arr F S50000x64 .f32) (w1 : Arr F S64x64 .f32) (r1 : Arr F S1x64 .f32) (w2 : Arr F S64x64 .f32)
    (r2 : Arr F S1x64 .f32) : Arr F S50000x64 .f32 :=
  addf (Host.dotGeneral dot_S50000x64_S64x64_S50000x64_1_0_0_1_n_n none
      (maximumf (addf (Host.dotGeneral dot_S50000x64_S64x64_S50000x64_1_0_0_1_n_n none m w1) (rows r1))
        (broadcastInDim S50000x64 ![] bcast_S_S50000x64 (constant S_ .f32 0x00000000#32))) w2) (rows r2)

/-- Round 0's, 1's, 2's weight matrix out of a stack of three. -/
def w0 (W : Arr F S3x64x64 .f32) : Arr F S64x64 .f32 :=
  shapeCast _ (extractStridedSlice S1x64x64 ![0, 0, 0] W slices_S3x64x64_S1x64x64_0_0_0) shapeCasts_S1x64x64_S64x64
def w1 (W : Arr F S3x64x64 .f32) : Arr F S64x64 .f32 :=
  shapeCast _ (extractStridedSlice S1x64x64 ![1, 0, 0] W slices_S3x64x64_S1x64x64_1_0_0) shapeCasts_S1x64x64_S64x64
def w2 (W : Arr F S3x64x64 .f32) : Arr F S64x64 .f32 :=
  shapeCast _ (extractStridedSlice S1x64x64 ![2, 0, 0] W slices_S3x64x64_S1x64x64_2_0_0) shapeCasts_S1x64x64_S64x64

/-- Round 0's, 1's, 2's bias out of a stack of three. -/
def b0 (b : Arr F S3x64 .f32) : Arr F S64 .f32 :=
  shapeCast _ (extractStridedSlice S1x64 ![0, 0] b slices_S3x64_S1x64_0_0) shapeCasts_S1x64_S64
def b1 (b : Arr F S3x64 .f32) : Arr F S64 .f32 :=
  shapeCast _ (extractStridedSlice S1x64 ![1, 0] b slices_S3x64_S1x64_1_0) shapeCasts_S1x64_S64
def b2 (b : Arr F S3x64 .f32) : Arr F S64 .f32 :=
  shapeCast _ (extractStridedSlice S1x64 ![2, 0] b slices_S3x64_S1x64_2_0) shapeCasts_S1x64_S64

/-- An array [50000, 64] under a new leading axis of extent 1. -/
def lift (h : Arr F S50000x64 .f32) : Arr F S1x50000x64 .f32 :=
  broadcastInDim S1x50000x64 ![1, 2] bcast_S50000x64_S1x50000x64_1_2 h

/-- Three arrays stacked along a new leading axis. -/
def stack3 (p q r : Arr F S50000x64 .f32) : Arr F S3x50000x64 .f32 :=
  concatenate S3x50000x64 0 [⟨S1x50000x64, lift p⟩, ⟨S1x50000x64, lift q⟩, ⟨S1x50000x64, lift r⟩]
    concatenates_S1x50000x64_S1x50000x64_S1x50000x64_S3x50000x64_d0

section Whole

variable (x : Arr F S50000x128 .f32) (e : Arr F S2x800000 .i32) (a : Arr F S800000 .f32) (W : Arr F S128x64 .f32)
  (b : Arr F S64 .f32) (W1 : Arr F S3x64x64 .f32) (B1 : Arr F S3x64 .f32) (W2 : Arr F S3x64x64 .f32) (B2 : Arr F S3x64 .f32)

/-- Round 0's, 1's, 2's perceptron of the aggregate of h. -/
def conv0 (h : Arr F S50000x64 .f32) : Arr F S50000x64 .f32 :=
  mlp (agg h (src e) (dst e) a) (w0 W1) (row (b0 B1)) (w0 W2) (row (b0 B2))
def conv1 (h : Arr F S50000x64 .f32) : Arr F S50000x64 .f32 :=
  mlp (agg h (src e) (dst e) a) (w1 W1) (row (b1 B1)) (w1 W2) (row (b1 B2))
def conv2 (h : Arr F S50000x64 .f32) : Arr F S50000x64 .f32 :=
  mlp (agg h (src e) (dst e) a) (w2 W1) (row (b2 B1)) (w2 W2) (row (b2 B2))

/-- The hidden array after the input layer and after each round. -/
def h0 : Arr F S50000x64 .f32 := lin x W (row b)
def h1 : Arr F S50000x64 .f32 := addf (h0 x W b) (conv0 e a W1 B1 W2 B2 (h0 x W b))
def h2 : Arr F S50000x64 .f32 := addf (h1 x e a W b W1 B1 W2 B2) (conv1 e a W1 B1 W2 B2 (h1 x e a W b W1 B1 W2 B2))
def h3 : Arr F S50000x64 .f32 := addf (h2 x e a W b W1 B1 W2 B2) (conv2 e a W1 B1 W2 B2 (h2 x e a W b W1 B1 W2 B2))

/-- The first result: each round's perceptron of the aggregate of that round's new hidden array. -/
def out0 : Arr F S3x50000x64 .f32 :=
  stack3 (conv0 e a W1 B1 W2 B2 (h1 x e a W b W1 B1 W2 B2)) (conv1 e a W1 B1 W2 B2 (h2 x e a W b W1 B1 W2 B2))
    (conv2 e a W1 B1 W2 B2 (h3 x e a W b W1 B1 W2 B2))

/-- The second result: the hidden array after each round. -/
def out1 : Arr F S3x50000x64 .f32 :=
  stack3 (h1 x e a W b W1 B1 W2 B2) (h2 x e a W b W1 B1 W2 B2) (h3 x e a W b W1 B1 W2 B2)

end Whole

end Cert.Spec

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.LibRowBias.lean ====
/-
  A vector laid out as a one-row table.

  Reshaping a vector of length n to the table [1, n] moves no element: the table's one row is the vector.  So the
  table read at row 0, column k is the vector's entry k.  This is how a bias vector reaches a kernel that takes its
  bias as a [1, n] row.
-/
import Idealize.ShloMosaic.Lib.ValueIdx
import Idealize.ShloMosaic.Lib.ValueLayout

namespace Cert.LibRowBias

open Idealize.ShloMosaic Idealize.ShloMosaic.ValueIdx

/-- A length-n vector laid out as a one-row table reads, at the row's one coordinate u and column k, the vector's
    entry k. -/
theorem row_of_vec_apply_at {n : ℕ} {α : Type} (b : (⟨1, ![n]⟩ : Shape).Idx → α)
    (h : (⟨1, ![n]⟩ : Shape).ShapeCasts ⟨2, ![1, n]⟩) (u : Fin 1) (k : Fin n) :
    shapeCast (⟨2, ![1, n]⟩ : Shape) b h (ix2 u k) = b (ix1 k) :=
  shapeCast_a_1a_apply b h u k

/-- A length-n vector laid out as a one-row table reads, at row 0 and column k, the vector's entry k. -/
theorem row_of_vec_apply {n : ℕ} {α : Type} (b : (⟨1, ![n]⟩ : Shape).Idx → α)
    (h : (⟨1, ![n]⟩ : Shape).ShapeCasts ⟨2, ![1, n]⟩) (k : Fin n) :
    shapeCast (⟨2, ![1, n]⟩ : Shape) b h (ix2 (0 : Fin 1) k) = b (ix1 k) :=
  row_of_vec_apply_at b h 0 k

end Cert.LibRowBias
-- ==== Proof.KI.TileAlgebra.lean ====
import proofs.«155469_j90744069030458_1_alg».proof.Proof.Gen.KernelIdeal.Skeleton
import proofs.«155469_j90744069030458_1_alg».proof.Proof.Spec
import proofs.«155469_j90744069030458_1_alg».proof.Proof.LibTileMatmul
import proofs.«155469_j90744069030458_1_alg».proof.Proof.LibRowBias
import Idealize.ShloMosaic.Lib.ValueIdx
import Idealize.ShloMosaic.Lib.ValueLayout
import Idealize.ShloMosaic.Lib.KernelVsHost
import Idealize.ShloMosaic.Lib.Pipeline.Value

/-!
  One row tile against the whole array, at the extended reals.

  Each kernel body works on a tile of 5000 rows of an array of 50000 rows: it multiplies the tile by a weight matrix,
  adds a bias row, and (in the perceptron) takes the positive part and repeats. Every one of these steps is local to a
  row: row p of the tile's result depends only on row p of the tile. So if row p of the tile is row i of the whole
  array, the body's result at (p, q) is the whole-array function's result at (i, q). No rounding is left at the
  extended reals, so the format changes in the body are the identity.
-/

noncomputable section

namespace Cert.KernelIdeal.Hand

open Idealize.ShloMosaic Idealize.ShloMosaic.ValueIdx Idealize.ShloMosaic.TileMatmul
open Cert.KernelIdeal Cert.KernelIdeal.Gen

/-- A whole-buffer access starts at offset zero on both axes. -/
theorem zero_offsets : (![0, 0] : Fin 2 → Nat) = fun _ => 0 := funext fun a => by fin_cases a <;> rfl

/-- An affine layer on a row tile. `T` is a tile whose row `p` is row `i` of `X`; the weights agree in column `q`
    and the bias rows agree at `q`. Then (T · B + bias) at (p, q) is (X · B' + bias') at (i, q). -/
theorem affine_tile {m M k n : Nat} {φ₁ φ₂ ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (hb : (⟨2, ![1, n]⟩ : Shape).Broadcasts ⟨2, ![m, n]⟩)
    (hbc : (⟨2, ![1, n]⟩ : Shape).BroadcastsInDim ⟨2, ![M, n]⟩ ![0, 1])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (r r' : FVec Ideal ⟨2, ![1, n]⟩ .f32)
    (p : Fin m) (q : Fin n) (i : Fin M)
    (hT : ∀ c : Fin k, (T (ix2 p c) : EReal) = X (ix2 i c))
    (hB : ∀ c : Fin k, (B (ix2 c q) : EReal) = B' (ix2 c q))
    (hr : (r (ix2 (0 : Fin 1) q) : EReal) = r' (ix2 (0 : Fin 1) q)) :
    (addf (matmul (F := Ideal) (plainDims wT) prec T B (constant (F := Ideal) ⟨2, ![m, n]⟩ .f32 0x00000000#32))
        (broadcastTo ⟨2, ![m, n]⟩ r hb) (ix2 p q) : EReal)
      = addf (Host.dotGeneral (F := Ideal) (plainDims wX) prec' X B')
          (broadcastInDim ⟨2, ![M, n]⟩ ![0, 1] hbc r') (ix2 i q) := by
  show (matmul (F := Ideal) (plainDims wT) prec T B (constant (F := Ideal) ⟨2, ![m, n]⟩ .f32 0x00000000#32) (ix2 p q) : EReal)
      + broadcastTo ⟨2, ![m, n]⟩ r hb (ix2 p q)
    = Host.dotGeneral (F := Ideal) (plainDims wX) prec' X B' (ix2 i q) + broadcastInDim ⟨2, ![M, n]⟩ ![0, 1] hbc r' (ix2 i q)
  rw [matmul_tile_eq_dotGeneral wT wX prec prec' T B X B' p q i hT hB, broadcastTo_1b_ab_apply r hb p q,
    broadcastInDim_oneRow_apply hbc r' i q, hr]

/-- A format change to a narrower float and a reshape to the same shape are the identity on extended reals:
    the body's left operand of a product, read at an index. -/
theorem truncf_shapeCast_self_apply {s : Shape} (v : FVec Ideal s .f32) (h : s.ShapeCasts s) (hb : FTy.bits .bf16 < FTy.bits .f32)
    (j : s.Idx) : (truncf (F := Ideal) .bf16 (shapeCast s v h) hb j : EReal) = v j := by
  show (shapeCast s v h j : EReal) = v j
  rw [shapeCast_self]

/-- The positive part on a row tile. The first layer of the tile at (p, c) is the first layer of the whole array at
    (i, c) (`affine_tile`), and the maximum with zero is taken entry by entry on both sides. -/
theorem relu_tile (M : Vec Ideal S50000x64 .f32) (X : Vec Ideal S5000x64 .f32)
    (w1 : Vec Ideal S64x64 .f32) (r1 : Vec Ideal S1x64 .f32)
    (p : Fin 5000) (c : Fin 64) (i : Fin 50000)
    (hX : ∀ d : Fin 64, (X (ix2 p d) : EReal) = M (ix2 i d)) :
    (maximumf (F := Ideal)
        (addf (matmul dot_S5000x64_S64x64_S5000x64_1_0_0_1_n_n none
            (truncf .bf16 (shapeCast S5000x64 X shapeCasts_S5000x64_S5000x64) bitsLt_bf16_f32)
            (truncf .bf16 (shapeCast S64x64 w1 shapeCasts_S64x64_S64x64) bitsLt_bf16_f32)
            (constant S5000x64 .f32 0x00000000#32))
          (broadcastTo S5000x64 (shapeCast S1x64 r1 shapeCasts_S1x64_S1x64) broadcasts_S1x64_S5000x64))
        (broadcast S5000x64 (Scalar.ofBits .f32 0x00000000#32)) (ix2 p c) : EReal)
      = maximumf (F := Ideal)
          (addf (Host.dotGeneral (F := Ideal) (φ₁ := .f32) (φ₂ := .f32) Cert.ReferenceIdeal.dot_S50000x64_S64x64_S50000x64_1_0_0_1_n_n none M w1) (Cert.Spec.rows r1))
          (broadcastInDim Cert.ReferenceIdeal.S50000x64 ![] Cert.ReferenceIdeal.Facts₀.bcast_S_S50000x64
            (constant Cert.ReferenceIdeal.S_ .f32 0x00000000#32)) (ix2 i c) := by
  refine congrArg₂ max ?_ ?_
  · unfold Cert.Spec.rows
    refine affine_tile _ _ _ _ none none _ _ _ _ _ _ p c i (fun d => ?_) (fun d => ?_) ?_
    · exact (truncf_shapeCast_self_apply X _ _ (ix2 p d)).trans (hX d)
    · exact truncf_shapeCast_self_apply w1 _ _ (ix2 d c)
    · rw [shapeCast_self]
  · rfl

/-- THE PERCEPTRON ON A ROW TILE. If row p of the tile `X` is row i of the whole array `M`, the body's value at
    (p, q) is the perceptron of the whole array at (i, q). -/
theorem k2_pay1_tile (M : Vec Ideal S50000x64 .f32) (X : Vec Ideal S5000x64 .f32)
    (w1 : Vec Ideal S64x64 .f32) (r1 : Vec Ideal S1x64 .f32) (w2 : Vec Ideal S64x64 .f32) (r2 : Vec Ideal S1x64 .f32)
    (p : Fin 5000) (q : Fin 64) (i : Fin 50000)
    (hX : ∀ d : Fin 64, (X (ix2 p d) : EReal) = M (ix2 i d)) :
    (k2_pay1 (F := Ideal) X w1 r1 w2 r2 (ix2 p q) : EReal) = Cert.Spec.mlp M w1 r1 w2 r2 (ix2 i q) := by
  unfold k2_pay1 Cert.Spec.mlp
  unfold Cert.Spec.rows
  refine affine_tile _ _ _ _ none none _ _ _ _ _ _ p q i (fun c => ?_) (fun c => ?_) ?_
  · exact relu_tile M X w1 r1 p c i hX
  · exact truncf_shapeCast_self_apply w2 _ _ (ix2 c q)
  · rw [shapeCast_self]

/-- THE PERCEPTRON WITH THE RESIDUAL ON A ROW TILE. The body adds the hidden tile to the perceptron, the
    specification adds the perceptron to the hidden array: one sum of two extended reals, in either order. -/
theorem k1_pay1_tile (M H : Vec Ideal S50000x64 .f32) (X R : Vec Ideal S5000x64 .f32)
    (w1 : Vec Ideal S64x64 .f32) (r1 : Vec Ideal S1x64 .f32) (w2 : Vec Ideal S64x64 .f32) (r2 : Vec Ideal S1x64 .f32)
    (p : Fin 5000) (q : Fin 64) (i : Fin 50000)
    (hX : ∀ d : Fin 64, (X (ix2 p d) : EReal) = M (ix2 i d)) (hR : (R (ix2 p q) : EReal) = H (ix2 i q)) :
    (k1_pay1 (F := Ideal) X w1 r1 w2 r2 R (ix2 p q) : EReal)
      = addf (F := Ideal) (φ := .f32) H (Cert.Spec.mlp M w1 r1 w2 r2) (ix2 i q) := by
  show (k2_pay1 (F := Ideal) X w1 r1 w2 r2 (ix2 p q) : EReal) + shapeCast S5000x64 R shapeCasts_S5000x64_S5000x64 (ix2 p q)
    = H (ix2 i q) + Cert.Spec.mlp M w1 r1 w2 r2 (ix2 i q)
  rw [k2_pay1_tile M X w1 r1 w2 r2 p q i hX, shapeCast_self, hR, add_comm]

/-- THE INPUT LAYER ON A ROW TILE. -/
theorem k0_pay1_tile (M : Vec Ideal S50000x128 .f32) (X : Vec Ideal S5000x128 .f32)
    (W : Vec Ideal S128x64 .f32) (r : Vec Ideal S1x64 .f32)
    (p : Fin 5000) (q : Fin 64) (i : Fin 50000)
    (hX : ∀ d : Fin 128, (X (ix2 p d) : EReal) = M (ix2 i d)) :
    (k0_pay1 (F := Ideal) X W r (ix2 p q) : EReal) = Cert.Spec.lin M W r (ix2 i q) := by
  unfold k0_pay1 Cert.Spec.lin
  unfold Cert.Spec.rows
  refine affine_tile _ _ _ _ none none _ _ _ _ _ _ p q i (fun d => ?_) (fun d => ?_) ?_
  · exact hX d
  · rfl
  · rw [shapeCast_self]

/-! The later rounds' bodies are the first round's, word for word. -/

variable {F : FTy → Type} [FloatOps F]

theorem k3_pay1_eq (v0 : Vec F S5000x64 .f32) (v3 : Vec F S64x64 .f32) (v7 : Vec F S1x64 .f32) (v14 : Vec F S64x64 .f32)
    (v18 : Vec F S1x64 .f32) (v22 : Vec F S5000x64 .f32) : k3_pay1 v0 v3 v7 v14 v18 v22 = k1_pay1 v0 v3 v7 v14 v18 v22 := rfl
theorem k5_pay1_eq (v0 : Vec F S5000x64 .f32) (v3 : Vec F S64x64 .f32) (v7 : Vec F S1x64 .f32) (v14 : Vec F S64x64 .f32)
    (v18 : Vec F S1x64 .f32) (v22 : Vec F S5000x64 .f32) : k5_pay1 v0 v3 v7 v14 v18 v22 = k1_pay1 v0 v3 v7 v14 v18 v22 := rfl
theorem k4_pay1_eq (v0 : Vec F S5000x64 .f32) (v3 : Vec F S64x64 .f32) (v7 : Vec F S1x64 .f32) (v14 : Vec F S64x64 .f32)
    (v18 : Vec F S1x64 .f32) : k4_pay1 v0 v3 v7 v14 v18 = k2_pay1 v0 v3 v7 v14 v18 := rfl
theorem k6_pay1_eq (v0 : Vec F S5000x64 .f32) (v3 : Vec F S64x64 .f32) (v7 : Vec F S1x64 .f32) (v14 : Vec F S64x64 .f32)
    (v18 : Vec F S1x64 .f32) : k6_pay1 v0 v3 v7 v14 v18 = k2_pay1 v0 v3 v7 v14 v18 := rfl

end Cert.KernelIdeal.Hand

end
-- ==== Proof.KI.Val0.lean ====
import proofs.«155469_j90744069030458_1_alg».proof.Proof.KI.Reg0
import proofs.«155469_j90744069030458_1_alg».proof.Proof.KI.TileAlgebra
import proofs.«155469_j90744069030458_1_alg».proof.Proof.Spec
import Idealize.ShloMosaic.Lib.Pipeline.Value

/-!
  What region 0 leaves in its output array: the input layer x·W + b of the region's input array.

  The region's grid has ten points; point t works on rows 5000·t … 5000·t + 4999. Its body reads the tile of
  those rows of the input array and the whole weight table and bias row, and writes its result over the same rows
  of the output array. The body's result on the tile is, row by row, the input layer of the whole input array, so
  the ten write-backs together leave the input layer of the input array.
-/

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-- The index maps over the grid: at point t the input tile and the output tile are block t along the rows, and the
    weight table and the bias row are taken whole. -/
theorem index_maps0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Blocks

variable {F : FTy → Type} [FloatOps F]
variable (V : (c : Dev nD) → (b : Ref sig .tc) → Buf (Elt F) ((c : Thread nD τ).loc b))

/-- Row p of the input tile at point t is row 5000·t + p of the input array. -/
theorem iblk0_0_apply (c : Dev nD) (t : Fin cfg0.N) (p : Fin 5000) (d : Fin 128) (i : Fin 50000)
    (hi : i.val = 5000 * t.val + p.val) :
    (iblk0 V c 0 t : Vec F S5000x128 .f32) (ix2 p d) = (V c main_arg0 : S50000x128.Idx → Elt F .f32) (ix2 i d) := by
  obtain ⟨e0, e1, -⟩ := index_maps0 t
  unfold iblk0
  rw [View.read_apply]
  show V c main_arg0 _ = V c main_arg0 _
  congr 1
  funext a
  apply Fin.ext
  match a with
  | ⟨0, _⟩ => show win0_0.index t (0 : Fin 2) * 5000 + 1 * p.val = i.val; rw [e0, hi]; omega
  | ⟨1, _⟩ => show win0_0.index t (1 : Fin 2) * 128 + 1 * d.val = d.val; rw [e1]; omega

/-- The weight table's block at any point is the table. -/
theorem iblk0_1_eq (c : Dev nD) (t : Fin cfg0.N) :
    (iblk0 V c 1 t : Vec F S128x64 .f32) = (V c main_arg3 : S128x64.Idx → Elt F .f32) := by
  obtain ⟨-, -, e0, e1, -⟩ := index_maps0 t
  funext x
  unfold iblk0
  rw [View.read_apply]
  show V c main_arg3 _ = V c main_arg3 x
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 64 + 1 * (x 1).val = (x 1).val; rw [e1]; omega

/-- The bias row's block at any point is the row. -/
theorem iblk0_2_eq (c : Dev nD) (t : Fin cfg0.N) :
    (iblk0 V c 2 t : Vec F S1x64 .f32) = (V c main_v4 : S1x64.Idx → Elt F .f32) := by
  obtain ⟨-, -, -, -, e0, e1, -⟩ := index_maps0 t
  funext x
  unfold iblk0
  rw [View.read_apply]
  show V c main_v4 _ = V c main_v4 x
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 64 + 1 * (x 1).val = (x 1).val; rw [e1]; omega

end Blocks

/-! ## One point's write-back, over any arrays -/

/-- At (p, q) of the tile: the body's result on a tile `X` whose rows are rows 5000·t … of `M`, written back at point t,
    is the input layer of `M` read through point t's block of the output array. -/
theorem writeback0_at (t : Fin cfg0.N) (M : Vec Ideal S50000x128 .f32) (X : Vec Ideal S5000x128 .f32)
    (W : Vec Ideal S128x64 .f32) (r : Vec Ideal S1x64 .f32)
    (hX : ∀ (p : Fin 5000) (d : Fin 128) (i : Fin 50000), i.val = 5000 * t.val + p.val → (X (ix2 p d) : EReal) = M (ix2 i d))
    (p : Fin 5000) (q : Fin 64) :
    (cfg0.win 3).cut (grid0.coords t) (k0_pay1 (F := Ideal) X W r) (ix2 p q)
      = ((cfg0.win 3).blk t).view.read (Elt Ideal) (Cert.Spec.lin M W r) (ix2 p q) := by
  obtain ⟨-, -, -, -, -, -, e0, e1⟩ := index_maps0 t
  have hN : cfg0.N = 10 := N_0
  have hlt : 5000 * t.val + p.val < 50000 := by have := t.isLt; have := p.isLt; omega
  rw [View.read_apply]
  have hemb : ((cfg0.win 3).blk t).view.emb (ix2 p q) = (ix2 (⟨5000 * t.val + p.val, hlt⟩ : Fin 50000) q : S50000x64.Idx) := by
    funext a
    apply Fin.ext
    match a with
    | ⟨0, _⟩ => show win0_3.index t (0 : Fin 2) * 5000 + 1 * p.val = 5000 * t.val + p.val; rw [e0]; omega
    | ⟨1, _⟩ => show win0_3.index t (1 : Fin 2) * 64 + 1 * q.val = q.val; rw [e1]; omega
  refine Eq.trans ?_ (congrArg (Cert.Spec.lin M W r) hemb.symm)
  exact k0_pay1_tile M X W r p q ⟨5000 * t.val + p.val, hlt⟩ (fun d => hX p d _ rfl)

/-- The same as an equation of blocks, the table and the row given up to equality. -/
theorem writeback0 (t : Fin cfg0.N) (M : Vec Ideal S50000x128 .f32) (X : Vec Ideal S5000x128 .f32)
    (W : Vec Ideal S128x64 .f32) (r : Vec Ideal S1x64 .f32) (W' : Vec Ideal S128x64 .f32) (r' : Vec Ideal S1x64 .f32)
    (h1 : W' = W) (h2 : r' = r)
    (hX : ∀ (p : Fin 5000) (d : Fin 128) (i : Fin 50000), i.val = 5000 * t.val + p.val → (X (ix2 p d) : EReal) = M (ix2 i d)) :
    (cfg0.win 3).cut (grid0.coords t) (k0_pay1 (F := Ideal) X W' r')
      = ((cfg0.win 3).blk t).view.read (Elt Ideal) (Cert.Spec.lin M W r) := by
  subst h1 h2
  funext j
  rw [eq_ix2 (n0 := 5000) (n1 := 64) j]
  exact writeback0_at t M X W' r' hX (j 0) (j 1)

/-! ## The region's output array -/

section Value

variable (V : (c : Dev nD) → (b : Ref sig .tc) → Buf (Elt Ideal) ((c : Thread nD τ).loc b))

/-- What point t writes back is its block of the input layer of the region's input array. -/
theorem flushed0_eq (c : Dev nD) (t : Fin cfg0.N) :
    (dat0 (F := Ideal) V c).flushed 3 t = ((cfg0.win 3).blk t).view.read (Elt Ideal)
      (Cert.Spec.lin (V c main_arg0) (V c main_arg3) (V c main_v4)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x64) zero_offsets,
    View.ld_unit_zero (S := S1x64) zero_offsets]
  exact writeback0 t (V c main_arg0) (iblk0 V c 0 t) (V c main_arg3) (V c main_v4)
    (iblk0 V c 1 t) (iblk0 V c 2 t) (iblk0_1_eq V c t) (iblk0_2_eq V c t)
    (fun p d i hi => iblk0_0_apply V c t p d i hi)

/-- Every row of the output array is in some point's block: row P in point P / 5000's. -/
theorem cover0 (i : S50000x64.Idx) :
    ∃ t : Fin cfg0.N, (cfg0.win 3).flush t = true ∧ i ∈ ((cfg0.win 3).blk t).view.set := by
  have h0 : (i 0).val < 50000 := (i 0).isLt
  have h1 : (i 1).val < 64 := (i 1).isLt
  have hN : cfg0.N = 10 := N_0
  have ht : (i 0).val / 5000 < cfg0.N := by rw [hN]; omega
  obtain ⟨-, -, -, -, -, -, e0, e1⟩ := index_maps0 ⟨(i 0).val / 5000, ht⟩
  have e0' : win0_3.index ⟨(i 0).val / 5000, ht⟩ (0 : Fin 2) = (i 0).val / 5000 := e0
  refine ⟨⟨(i 0).val / 5000, ht⟩, flush0_3 _, ?_⟩
  show i ∈ ((View.whole main_v5).slice (win0_3.rect ⟨(i 0).val / 5000, ht⟩)).set
  rw [View.set_slice_whole, Rect.mem_set_unit]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0']; omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    rw [e1]; omega

/-- THE REGION'S OUTPUT ARRAY after its ten points: the input layer of its input array. -/
theorem value0 (c : Dev nD) :
    (dat0 (F := Ideal) V c).arrAt 3 cfg0.N = Cert.Spec.lin (V c main_arg0) (V c main_arg3) (V c main_v4) :=
  (dat0 V c).arrAt_eq_of_cover 3 _ (fun t _ => flushed0_eq V c t) cover0

end Value

end Cert.KernelIdeal.Hand

end
-- ==== Proof.KI.Val1.lean ====
import proofs.«155469_j90744069030458_1_alg».proof.Proof.KI.Reg1
import proofs.«155469_j90744069030458_1_alg».proof.Proof.KI.TileAlgebra
import proofs.«155469_j90744069030458_1_alg».proof.Proof.Spec
import Idealize.ShloMosaic.Lib.Pipeline.Value

/-!
  What region 1 leaves in its output array: the hidden array plus the perceptron of the region's input array.

  The region's grid has ten points; point t works on rows 5000·t … 5000·t + 4999. Its body reads the tile of
  those rows of the input array and of the hidden array and the whole weight and bias tables, and writes its result
  over the same rows of the output array. The body's result on the tiles is, row by row, the hidden array plus the
  perceptron of the whole input array, so the ten write-backs together leave that sum.
-/

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-- The index maps over the grid: at point t the input tile, the hidden tile and the output tile are block t along the
    rows, and the tables are taken whole. -/
theorem index_maps1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

section Blocks

variable {F : FTy → Type} [FloatOps F]
variable (V : (c : Dev nD) → (b : Ref sig .tc) → Buf (Elt F) ((c : Thread nD τ).loc b))

/-- Row p of the input tile at point t is row 5000·t + p of the input array. -/
theorem iblk1_0_apply (c : Dev nD) (t : Fin cfg1.N) (p : Fin 5000) (d : Fin 64) (i : Fin 50000)
    (hi : i.val = 5000 * t.val + p.val) :
    (iblk1 V c 0 t : Vec F S5000x64 .f32) (ix2 p d) = (V c main_v18 : S50000x64.Idx → Elt F .f32) (ix2 i d) := by
  obtain ⟨e0, e1, -⟩ := index_maps1 t
  unfold iblk1
  rw [View.read_apply]
  show V c main_v18 _ = V c main_v18 _
  congr 1
  funext a
  apply Fin.ext
  match a with
  | ⟨0, _⟩ => show win1_0.index t (0 : Fin 2) * 5000 + 1 * p.val = i.val; rw [e0, hi]; omega
  | ⟨1, _⟩ => show win1_0.index t (1 : Fin 2) * 64 + 1 * d.val = d.val; rw [e1]; omega

/-- The first weight table's block at any point is the whole table. -/
theorem iblk1_1_eq (c : Dev nD) (t : Fin cfg1.N) :
    (iblk1 V c 1 t : Vec F S64x64 .f32) = (V c main_v20 : S64x64.Idx → Elt F .f32) := by
  obtain ⟨-, -, e0, e1, -⟩ := index_maps1 t
  funext x
  unfold iblk1
  rw [View.read_apply]
  show V c main_v20 _ = V c main_v20 x
  congr 1
  funext a
  apply Fin.ext
  match a with
  | ⟨0, _⟩ => show win1_1.index t (0 : Fin 2) * 64 + 1 * (x 0).val = (x 0).val; rw [e0]; omega
  | ⟨1, _⟩ => show win1_1.index t (1 : Fin 2) * 64 + 1 * (x 1).val = (x 1).val; rw [e1]; omega

/-- The first bias row's block at any point is the whole table. -/
theorem iblk1_2_eq (c : Dev nD) (t : Fin cfg1.N) :
    (iblk1 V c 2 t : Vec F S1x64 .f32) = (V c main_v27 : S1x64.Idx → Elt F .f32) := by
  obtain ⟨-, -, -, -, e0, e1, -⟩ := index_maps1 t
  funext x
  unfold iblk1
  rw [View.read_apply]
  show V c main_v27 _ = V c main_v27 x
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 64 + 1 * (x 1).val = (x 1).val; rw [e1]; omega

/-- The second weight table's block at any point is the whole table. -/
theorem iblk1_3_eq (c : Dev nD) (t : Fin cfg1.N) :
    (iblk1 V c 3 t : Vec F S64x64 .f32) = (V c main_v24 : S64x64.Idx → Elt F .f32) := by
  obtain ⟨-, -, -, -, -, -, e0, e1, -⟩ := index_maps1 t
  funext x
  unfold iblk1
  rw [View.read_apply]
  show V c main_v24 _ = V c main_v24 x
  congr 1
  funext a
  apply Fin.ext
  match a with
  | ⟨0, _⟩ => show win1_3.index t (0 : Fin 2) * 64 + 1 * (x 0).val = (x 0).val; rw [e0]; omega
  | ⟨1, _⟩ => show win1_3.index t (1 : Fin 2) * 64 + 1 * (x 1).val = (x 1).val; rw [e1]; omega

/-- The second bias row's block at any point is the whole table. -/
theorem iblk1_4_eq (c : Dev nD) (t : Fin cfg1.N) :
    (iblk1 V c 4 t : Vec F S1x64 .f32) = (V c main_v28 : S1x64.Idx → Elt F .f32) := by
  obtain ⟨-, -, -, -, -, -, -, -, e0, e1, -⟩ := index_maps1 t
  funext x
  unfold iblk1
  rw [View.read_apply]
  show V c main_v28 _ = V c main_v28 x
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

/-- Row p of the hidden tile at point t is row 5000·t + p of the hidden array. -/
theorem iblk1_5_apply (c : Dev nD) (t : Fin cfg1.N) (p : Fin 5000) (d : Fin 64) (i : Fin 50000)
    (hi : i.val = 5000 * t.val + p.val) :
    (iblk1 V c 5 t : Vec F S5000x64 .f32) (ix2 p d) = (V c main_v5 : S50000x64.Idx → Elt F .f32) (ix2 i d) := by
  obtain ⟨-, -, -, -, -, -, -, -, -, -, e0, e1, -⟩ := index_maps1 t
  unfold iblk1
  rw [View.read_apply]
  show V c main_v5 _ = V c main_v5 _
  congr 1
  funext a
  apply Fin.ext
  match a with
  | ⟨0, _⟩ => show win1_5.index t (0 : Fin 2) * 5000 + 1 * p.val = i.val; rw [e0, hi]; omega
  | ⟨1, _⟩ => show win1_5.index t (1 : Fin 2) * 64 + 1 * d.val = d.val; rw [e1]; omega

end Blocks

/-! ## One point's write-back, over any arrays -/

/-- At (p, q) of the tile: the body's result on tiles `X`, `R` whose rows are rows 5000·t … of `M`, `H`, written back at
    point t, is `H` plus the perceptron of `M` read through point t's block of the output array. -/
theorem writeback1_at (t : Fin cfg1.N) (M H : Vec Ideal S50000x64 .f32) (X R : Vec Ideal S5000x64 .f32)
    (w1 : Vec Ideal S64x64 .f32) (r1 : Vec Ideal S1x64 .f32) (w2 : Vec Ideal S64x64 .f32) (r2 : Vec Ideal S1x64 .f32)
    (hX : ∀ (p : Fin 5000) (d : Fin 64) (i : Fin 50000), i.val = 5000 * t.val + p.val → (X (ix2 p d) : EReal) = M (ix2 i d))
    (hR : ∀ (p : Fin 5000) (d : Fin 64) (i : Fin 50000), i.val = 5000 * t.val + p.val → (R (ix2 p d) : EReal) = H (ix2 i d))
    (p : Fin 5000) (q : Fin 64) :
    (cfg1.win 6).cut (grid1.coords t) (k1_pay1 (F := Ideal) X w1 r1 w2 r2 R) (ix2 p q)
      = ((cfg1.win 6).blk t).view.read (Elt Ideal)
          (addf (F := Ideal) (φ := .f32) H (Cert.Spec.mlp M w1 r1 w2 r2)) (ix2 p q) := by
  obtain ⟨-, -, -, -, -, -, -, -, -, -, -, -, e0, e1⟩ := index_maps1 t
  have hN : cfg1.N = 10 := N_1
  have hlt : 5000 * t.val + p.val < 50000 := by have := t.isLt; have := p.isLt; omega
  rw [View.read_apply]
  have hemb : ((cfg1.win 6).blk t).view.emb (ix2 p q) = (ix2 (⟨5000 * t.val + p.val, hlt⟩ : Fin 50000) q : S50000x64.Idx) := by
    funext a
    apply Fin.ext
    match a with
    | ⟨0, _⟩ => show win1_6.index t (0 : Fin 2) * 5000 + 1 * p.val = 5000 * t.val + p.val; rw [e0]; omega
    | ⟨1, _⟩ => show win1_6.index t (1 : Fin 2) * 64 + 1 * q.val = q.val; rw [e1]; omega
  refine Eq.trans ?_ (congrArg (addf (F := Ideal) (φ := .f32) H (Cert.Spec.mlp M w1 r1 w2 r2)) hemb.symm)
  exact k1_pay1_tile M H X R w1 r1 w2 r2 p q ⟨5000 * t.val + p.val, hlt⟩ (fun d => hX p d _ rfl) (hR p q _ rfl)

/-- The same as an equation of blocks, the tables given up to equality. -/
theorem writeback1 (t : Fin cfg1.N) (M H : Vec Ideal S50000x64 .f32) (X R : Vec Ideal S5000x64 .f32)
    (w1 : Vec Ideal S64x64 .f32) (r1 : Vec Ideal S1x64 .f32) (w2 : Vec Ideal S64x64 .f32) (r2 : Vec Ideal S1x64 .f32)
    (w1' : Vec Ideal S64x64 .f32) (r1' : Vec Ideal S1x64 .f32) (w2' : Vec Ideal S64x64 .f32) (r2' : Vec Ideal S1x64 .f32)
    (h1 : w1' = w1) (h2 : r1' = r1) (h3 : w2' = w2) (h4 : r2' = r2)
    (hX : ∀ (p : Fin 5000) (d : Fin 64) (i : Fin 50000), i.val = 5000 * t.val + p.val → (X (ix2 p d) : EReal) = M (ix2 i d))
    (hR : ∀ (p : Fin 5000) (d : Fin 64) (i : Fin 50000), i.val = 5000 * t.val + p.val → (R (ix2 p d) : EReal) = H (ix2 i d)) :
    (cfg1.win 6).cut (grid1.coords t) (k1_pay1 (F := Ideal) X w1' r1' w2' r2' R)
      = ((cfg1.win 6).blk t).view.read (Elt Ideal)
          (addf (F := Ideal) (φ := .f32) H (Cert.Spec.mlp M w1 r1 w2 r2)) := by
  subst h1 h2 h3 h4
  funext j
  rw [eq_ix2 (n0 := 5000) (n1 := 64) j]
  exact writeback1_at t M H X R w1' r1' w2' r2' hX hR (j 0) (j 1)

/-! ## The region's output array -/

section Value

variable (V : (c : Dev nD) → (b : Ref sig .tc) → Buf (Elt Ideal) ((c : Thread nD τ).loc b))

/-- What point t writes back is its block of the hidden array plus the perceptron of the region's input array. -/
theorem flushed1_eq (c : Dev nD) (t : Fin cfg1.N) :
    (dat1 (F := Ideal) V c).flushed 6 t = ((cfg1.win 6).blk t).view.read (Elt Ideal)
      (addf (F := Ideal) (φ := .f32) (V c main_v5)
        (Cert.Spec.mlp (V c main_v18) (V c main_v20) (V c main_v27) (V c main_v24) (V c main_v28))) := by
  show (cfg1.win 6).cut (grid1.coords t) ((dat1 V c).after 6 t) = _
  rw [after1_6]
  unfold out1_6
  rw [View.canon_unit_zero zero_offsets]
  simp only [View.ld_unit_zero (S := S5000x64) zero_offsets, View.ld_unit_zero (S := S64x64) zero_offsets,
    View.ld_unit_zero (S := S1x64) zero_offsets]
  exact writeback1 t (V c main_v18) (V c main_v5) (iblk1 V c 0 t) (iblk1 V c 5 t)
    (V c main_v20) (V c main_v27) (V c main_v24) (V c main_v28)
    (iblk1 V c 1 t) (iblk1 V c 2 t) (iblk1 V c 3 t) (iblk1 V c 4 t)
    (iblk1_1_eq V c t) (iblk1_2_eq V c t) (iblk1_3_eq V c t) (iblk1_4_eq V c t)
    (fun p d i hi => iblk1_0_apply V c t p d i hi) (fun p d i hi => iblk1_5_apply V c t p d i hi)

/-- Every row of the output array is in some point's block: row P in point P / 5000's. -/
theorem cover1 (i : S50000x64.Idx) :
    ∃ t : Fin cfg1.N, (cfg1.win 6).flush t = true ∧ i ∈ ((cfg1.win 6).blk t).view.set := by
  have h0 : (i 0).val < 50000 := (i 0).isLt
  have h1 : (i 1).val < 64 := (i 1).isLt
  have hN : cfg1.N = 10 := N_1
  have ht : (i 0).val / 5000 < cfg1.N := by rw [hN]; omega
  obtain ⟨-, -, -, -, -, -, -, -, -, -, -, -, e0, e1⟩ := index_maps1 ⟨(i 0).val / 5000, ht⟩
  have e0' : win1_6.index ⟨(i 0).val / 5000, ht⟩ (0 : Fin 2) = (i 0).val / 5000 := e0
  refine ⟨⟨(i 0).val / 5000, ht⟩, flush1_6 _, ?_⟩
  show i ∈ ((View.whole main_v29).slice (win1_6.rect ⟨(i 0).val / 5000, ht⟩)).set
  rw [View.set_slice_whole, Rect.mem_set_unit]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e0']; omega
  | ⟨1, _⟩ =>
    show win1_6.index ⟨(i 0).val / 5000, ht⟩ (1 : Fin 2) * 64 ≤ (i 1).val
      ∧ (i 1).val < win1_6.index ⟨(i 0).val / 5000, ht⟩ (1 : Fin 2) * 64 + 64
    rw [e1]; omega

/-- THE REGION'S OUTPUT ARRAY after its ten points: the hidden array plus the perceptron of its input array. -/
theorem value1 (c : Dev nD) :
    (dat1 (F := Ideal) V c).arrAt 6 cfg1.N
      = addf (F := Ideal) (φ := .f32) (V c main_v5)
          (Cert.Spec.mlp (V c main_v18) (V c main_v20) (V c main_v27) (V c main_v24) (V c main_v28)) :=
  (dat1 V c).arrAt_eq_of_cover 6 _ (fun t _ => flushed1_eq V c t) cover1

end Value

end Cert.KernelIdeal.Hand

end
-- ==== Proof.KI.Val2.lean ====
import proofs.«155469_j90744069030458_1_alg».proof.Proof.KI.Reg2
import proofs.«155469_j90744069030458_1_alg».proof.Proof.KI.TileAlgebra
import proofs.«155469_j90744069030458_1_alg».proof.Proof.Spec
import Idealize.ShloMosaic.Lib.Pipeline.Value

/-!
  What region 2 leaves in its output array: the perceptron of the region's input array.

  The region's grid has ten points; point t works on rows 5000·t … 5000·t + 4999. Its body reads the tile of
  those rows of the input array and the whole weight and bias tables, and writes its result over the same rows of
  the output array. The body's result on the tile is, row by row, the perceptron of the whole input array, so the
  ten write-backs together leave the perceptron of the input array.
-/

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-- The index maps over the grid: at point t the input tile and the output tile are block t along the rows, and the
    tables are taken whole. -/
theorem index_maps2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section Blocks

variable {F : FTy → Type} [FloatOps F]
variable (V : (c : Dev nD) → (b : Ref sig .tc) → Buf (Elt F) ((c : Thread nD τ).loc b))

/-- Row p of the input tile at point t is row 5000·t + p of the input array. -/
theorem iblk2_0_apply (c : Dev nD) (t : Fin cfg2.N) (p : Fin 5000) (d : Fin 64) (i : Fin 50000)
    (hi : i.val = 5000 * t.val + p.val) :
    (iblk2 V c 0 t : Vec F S5000x64 .f32) (ix2 p d) = (V c main_v42 : S50000x64.Idx → Elt F .f32) (ix2 i d) := by
  obtain ⟨e0, e1, -⟩ := index_maps2 t
  unfold iblk2
  rw [View.read_apply]
  show V c main_v42 _ = V c main_v42 _
  congr 1
  funext a
  apply Fin.ext
  match a with
  | ⟨0, _⟩ => show win2_0.index t (0 : Fin 2) * 5000 + 1 * p.val = i.val; rw [e0, hi]; omega
  | ⟨1, _⟩ => show win2_0.index t (1 : Fin 2) * 64 + 1 * d.val = d.val; rw [e1]; omega

/-- The first weight table's block at any point is the table. -/
theorem iblk2_1_eq (c : Dev nD) (t : Fin cfg2.N) :
    (iblk2 V c 1 t : Vec F S64x64 .f32) = (V c main_v44 : S64x64.Idx → Elt F .f32) := by
  obtain ⟨-, -, e0, e1, -⟩ := index_maps2 t
  funext x
  unfold iblk2
  rw [View.read_apply]
  show V c main_v44 _ = V c main_v44 x
  congr 1
  funext a
  apply Fin.ext
  match a with
  | ⟨0, _⟩ => show win2_1.index t (0 : Fin 2) * 64 + 1 * (x 0).val = (x 0).val; rw [e0]; omega
  | ⟨1, _⟩ => show win2_1.index t (1 : Fin 2) * 64 + 1 * (x 1).val = (x 1).val; rw [e1]; omega

/-- The first bias row's block at any point is the row. -/
theorem iblk2_2_eq (c : Dev nD) (t : Fin cfg2.N) :
    (iblk2 V c 2 t : Vec F S1x64 .f32) = (V c main_v51 : S1x64.Idx → Elt F .f32) := by
  obtain ⟨-, -, -, -, e0, e1, -⟩ := index_maps2 t
  funext x
  unfold iblk2
  rw [View.read_apply]
  show V c main_v51 _ = V c main_v51 x
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 64 + 1 * (x 1).val = (x 1).val; rw [e1]; omega

/-- The second weight table's block at any point is the table. -/
theorem iblk2_3_eq (c : Dev nD) (t : Fin cfg2.N) :
    (iblk2 V c 3 t : Vec F S64x64 .f32) = (V c main_v48 : S64x64.Idx → Elt F .f32) := by
  obtain ⟨-, -, -, -, -, -, e0, e1, -⟩ := index_maps2 t
  funext x
  unfold iblk2
  rw [View.read_apply]
  show V c main_v48 _ = V c main_v48 x
  congr 1
  funext a
  apply Fin.ext
  match a with
  | ⟨0, _⟩ => show win2_3.index t (0 : Fin 2) * 64 + 1 * (x 0).val = (x 0).val; rw [e0]; omega
  | ⟨1, _⟩ => show win2_3.index t (1 : Fin 2) * 64 + 1 * (x 1).val = (x 1).val; rw [e1]; omega

/-- The second bias row's block at any point is the row. -/
theorem iblk2_4_eq (c : Dev nD) (t : Fin cfg2.N) :
    (iblk2 V c 4 t : Vec F S1x64 .f32) = (V c main_v52 : S1x64.Idx → Elt F .f32) := by
  obtain ⟨-, -, -, -, -, -, -, -, e0, e1, -⟩ := index_maps2 t
  funext x
  unfold iblk2
  rw [View.read_apply]
  show V c main_v52 _ = V c main_v52 x
  congr 1
  funext a
  apply Fin.ext
  match a with
  | ⟨0, _⟩ => show win2_4.index t (0 : Fin 2) * 1 + 1 * (x 0).val = (x 0).val; rw [e0]; omega
  | ⟨1, _⟩ => show win2_4.index t (1 : Fin 2) * 64 + 1 * (x 1).val = (x 1).val; rw [e1]; omega

end Blocks

/-! ## One point's write-back, over any arrays -/

/-- At (p, q) of the tile: the body's result on a tile `X` whose rows are rows 5000·t … of `M`, written back at point t,
    is the perceptron of `M` read through point t's block of the output array. -/
theorem writeback2_at (t : Fin cfg2.N) (M : Vec Ideal S50000x64 .f32) (X : Vec Ideal S5000x64 .f32)
    (w1 : Vec Ideal S64x64 .f32) (r1 : Vec Ideal S1x64 .f32) (w2 : Vec Ideal S64x64 .f32) (r2 : Vec Ideal S1x64 .f32)
    (hX : ∀ (p : Fin 5000) (d : Fin 64) (i : Fin 50000), i.val = 5000 * t.val + p.val → (X (ix2 p d) : EReal) = M (ix2 i d))
    (p : Fin 5000) (q : Fin 64) :
    (cfg2.win 5).cut (grid2.coords t) (k2_pay1 (F := Ideal) X w1 r1 w2 r2) (ix2 p q)
      = ((cfg2.win 5).blk t).view.read (Elt Ideal) (Cert.Spec.mlp M w1 r1 w2 r2) (ix2 p q) := by
  obtain ⟨-, -, -, -, -, -, -, -, -, -, e0, e1⟩ := index_maps2 t
  have hN : cfg2.N = 10 := N_2
  have hlt : 5000 * t.val + p.val < 50000 := by have := t.isLt; have := p.isLt; omega
  rw [View.read_apply]
  have hemb : ((cfg2.win 5).blk t).view.emb (ix2 p q) = (ix2 (⟨5000 * t.val + p.val, hlt⟩ : Fin 50000) q : S50000x64.Idx) := by
    funext a
    apply Fin.ext
    match a with
    | ⟨0, _⟩ => show win2_5.index t (0 : Fin 2) * 5000 + 1 * p.val = 5000 * t.val + p.val; rw [e0]; omega
    | ⟨1, _⟩ => show win2_5.index t (1 : Fin 2) * 64 + 1 * q.val = q.val; rw [e1]; omega
  refine Eq.trans ?_ (congrArg (Cert.Spec.mlp M w1 r1 w2 r2) hemb.symm)
  exact k2_pay1_tile M X w1 r1 w2 r2 p q ⟨5000 * t.val + p.val, hlt⟩ (fun d => hX p d _ rfl)

/-- The same as an equation of blocks, the tables given up to equality. -/
theorem writeback2 (t : Fin cfg2.N) (M : Vec Ideal S50000x64 .f32) (X : Vec Ideal S5000x64 .f32)
    (w1 : Vec Ideal S64x64 .f32) (r1 : Vec Ideal S1x64 .f32) (w2 : Vec Ideal S64x64 .f32) (r2 : Vec Ideal S1x64 .f32)
    (w1' : Vec Ideal S64x64 .f32) (r1' : Vec Ideal S1x64 .f32) (w2' : Vec Ideal S64x64 .f32) (r2' : Vec Ideal S1x64 .f32)
    (h1 : w1' = w1) (h2 : r1' = r1) (h3 : w2' = w2) (h4 : r2' = r2)
    (hX : ∀ (p : Fin 5000) (d : Fin 64) (i : Fin 50000), i.val = 5000 * t.val + p.val → (X (ix2 p d) : EReal) = M (ix2 i d)) :
    (cfg2.win 5).cut (grid2.coords t) (k2_pay1 (F := Ideal) X w1' r1' w2' r2')
      = ((cfg2.win 5).blk t).view.read (Elt Ideal) (Cert.Spec.mlp M w1 r1 w2 r2) := by
  subst h1 h2 h3 h4
  funext j
  rw [eq_ix2 (n0 := 5000) (n1 := 64) j]
  exact writeback2_at t M X w1' r1' w2' r2' hX (j 0) (j 1)

/-! ## The region's output array -/

section Value

variable (V : (c : Dev nD) → (b : Ref sig .tc) → Buf (Elt Ideal) ((c : Thread nD τ).loc b))

/-- What point t writes back is its block of the perceptron of the region's input array. -/
theorem flushed2_eq (c : Dev nD) (t : Fin cfg2.N) :
    (dat2 (F := Ideal) V c).flushed 5 t = ((cfg2.win 5).blk t).view.read (Elt Ideal)
      (Cert.Spec.mlp (V c main_v42) (V c main_v44) (V c main_v51) (V c main_v48) (V c main_v52)) := by
  show (cfg2.win 5).cut (grid2.coords t) ((dat2 V c).after 5 t) = _
  rw [after2_5]
  unfold out2_5
  rw [View.canon_unit_zero zero_offsets]
  simp only [View.ld_unit_zero (S := S5000x64) zero_offsets, View.ld_unit_zero (S := S64x64) zero_offsets,
    View.ld_unit_zero (S := S1x64) zero_offsets]
  exact writeback2 t (V c main_v42) (iblk2 V c 0 t) (V c main_v44) (V c main_v51) (V c main_v48) (V c main_v52)
    (iblk2 V c 1 t) (iblk2 V c 2 t) (iblk2 V c 3 t) (iblk2 V c 4 t)
    (iblk2_1_eq V c t) (iblk2_2_eq V c t) (iblk2_3_eq V c t) (iblk2_4_eq V c t)
    (fun p d i hi => iblk2_0_apply V c t p d i hi)

/-- Every row of the output array is in some point's block: row P in point P / 5000's. -/
theorem cover2 (i : S50000x64.Idx) :
    ∃ t : Fin cfg2.N, (cfg2.win 5).flush t = true ∧ i ∈ ((cfg2.win 5).blk t).view.set := by
  have h0 : (i 0).val < 50000 := (i 0).isLt
  have h1 : (i 1).val < 64 := (i 1).isLt
  have hN : cfg2.N = 10 := N_2
  have ht : (i 0).val / 5000 < cfg2.N := by rw [hN]; omega
  obtain ⟨-, -, -, -, -, -, -, -, -, -, e0, e1⟩ := index_maps2 ⟨(i 0).val / 5000, ht⟩
  have e0' : win2_5.index ⟨(i 0).val / 5000, ht⟩ (0 : Fin 2) = (i 0).val / 5000 := e0
  refine ⟨⟨(i 0).val / 5000, ht⟩, flush2_5 _, ?_⟩
  show i ∈ ((View.whole main_v53).slice (win2_5.rect ⟨(i 0).val / 5000, ht⟩)).set
  rw [View.set_slice_whole, Rect.mem_set_unit]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e0']; omega
  | ⟨1, _⟩ =>
    show win2_5.index ⟨(i 0).val / 5000, ht⟩ (1 : Fin 2) * 64 ≤ (i 1).val
      ∧ (i 1).val < win2_5.index ⟨(i 0).val / 5000, ht⟩ (1 : Fin 2) * 64 + 64
    rw [e1]; omega

/-- THE REGION'S OUTPUT ARRAY after its ten points: the perceptron of its input array. -/
theorem value2 (c : Dev nD) :
    (dat2 (F := Ideal) V c).arrAt 5 cfg2.N
      = Cert.Spec.mlp (V c main_v42) (V c main_v44) (V c main_v51) (V c main_v48) (V c main_v52) :=
  (dat2 V c).arrAt_eq_of_cover 5 _ (fun t _ => flushed2_eq V c t) cover2

end Value

end Cert.KernelIdeal.Hand

end
-- ==== Proof.KI.Val3.lean ====
import proofs.«155469_j90744069030458_1_alg».proof.Proof.KI.Reg3
import proofs.«155469_j90744069030458_1_alg».proof.Proof.KI.TileAlgebra
import proofs.«155469_j90744069030458_1_alg».proof.Proof.Spec
import Idealize.ShloMosaic.Lib.Pipeline.Value

/-!
  What region 3 leaves in its output array: the hidden array plus the perceptron of the region's input array.

  The region's grid has ten points; point t works on rows 5000·t … 5000·t + 4999. Its body reads the tile of
  those rows of the input array and of the hidden array and the whole weight and bias tables, and writes its result
  over the same rows of the output array. The body's result on the tiles is, row by row, the hidden array plus the
  perceptron of the whole input array, so the ten write-backs together leave that sum.
-/

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-- The index maps over the grid: at point t the input tile, the hidden tile and the output tile are block t along the
    rows, and the tables are taken whole. -/
theorem index_maps3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

section Blocks

variable {F : FTy → Type} [FloatOps F]
variable (V : (c : Dev nD) → (b : Ref sig .tc) → Buf (Elt F) ((c : Thread nD τ).loc b))

/-- Row p of the input tile at point t is row 5000·t + p of the input array. -/
theorem iblk3_0_apply (c : Dev nD) (t : Fin cfg3.N) (p : Fin 5000) (d : Fin 64) (i : Fin 50000)
    (hi : i.val = 5000 * t.val + p.val) :
    (iblk3 V c 0 t : Vec F S5000x64 .f32) (ix2 p d) = (V c main_v66 : S50000x64.Idx → Elt F .f32) (ix2 i d) := by
  obtain ⟨e0, e1, -⟩ := index_maps3 t
  unfold iblk3
  rw [View.read_apply]
  show V c main_v66 _ = V c main_v66 _
  congr 1
  funext a
  apply Fin.ext
  match a with
  | ⟨0, _⟩ => show win3_0.index t (0 : Fin 2) * 5000 + 1 * p.val = i.val; rw [e0, hi]; omega
  | ⟨1, _⟩ => show win3_0.index t (1 : Fin 2) * 64 + 1 * d.val = d.val; rw [e1]; omega

/-- The first weight table's block at any point is the whole table. -/
theorem iblk3_1_eq (c : Dev nD) (t : Fin cfg3.N) :
    (iblk3 V c 1 t : Vec F S64x64 .f32) = (V c main_v68 : S64x64.Idx → Elt F .f32) := by
  obtain ⟨-, -, e0, e1, -⟩ := index_maps3 t
  funext x
  unfold iblk3
  rw [View.read_apply]
  show V c main_v68 _ = V c main_v68 x
  congr 1
  funext a
  apply Fin.ext
  match a with
  | ⟨0, _⟩ => show win3_1.index t (0 : Fin 2) * 64 + 1 * (x 0).val = (x 0).val; rw [e0]; omega
  | ⟨1, _⟩ => show win3_1.index t (1 : Fin 2) * 64 + 1 * (x 1).val = (x 1).val; rw [e1]; omega

/-- The first bias row's block at any point is the whole table. -/
theorem iblk3_2_eq (c : Dev nD) (t : Fin cfg3.N) :
    (iblk3 V c 2 t : Vec F S1x64 .f32) = (V c main_v75 : S1x64.Idx → Elt F .f32) := by
  obtain ⟨-, -, -, -, e0, e1, -⟩ := index_maps3 t
  funext x
  unfold iblk3
  rw [View.read_apply]
  show V c main_v75 _ = V c main_v75 x
  congr 1
  funext a
  apply Fin.ext
  match a with
  | ⟨0, _⟩ => show win3_2.index t (0 : Fin 2) * 1 + 1 * (x 0).val = (x 0).val; rw [e0]; omega
  | ⟨1, _⟩ => show win3_2.index t (1 : Fin 2) * 64 + 1 * (x 1).val = (x 1).val; rw [e1]; omega

/-- The second weight table's block at any point is the whole table. -/
theorem iblk3_3_eq (c : Dev nD) (t : Fin cfg3.N) :
    (iblk3 V c 3 t : Vec F S64x64 .f32) = (V c main_v72 : S64x64.Idx → Elt F .f32) := by
  obtain ⟨-, -, -, -, -, -, e0, e1, -⟩ := index_maps3 t
  funext x
  unfold iblk3
  rw [View.read_apply]
  show V c main_v72 _ = V c main_v72 x
  congr 1
  funext a
  apply Fin.ext
  match a with
  | ⟨0, _⟩ => show win3_3.index t (0 : Fin 2) * 64 + 1 * (x 0).val = (x 0).val; rw [e0]; omega
  | ⟨1, _⟩ => show win3_3.index t (1 : Fin 2) * 64 + 1 * (x 1).val = (x 1).val; rw [e1]; omega

/-- The second bias row's block at any point is the whole table. -/
theorem iblk3_4_eq (c : Dev nD) (t : Fin cfg3.N) :
    (iblk3 V c 4 t : Vec F S1x64 .f32) = (V c main_v76 : S1x64.Idx → Elt F .f32) := by
  obtain ⟨-, -, -, -, -, -, -, -, e0, e1, -⟩ := index_maps3 t
  funext x
  unfold iblk3
  rw [View.read_apply]
  show V c main_v76 _ = V c main_v76 x
  congr 1
  funext a
  apply Fin.ext
  match a with
  | ⟨0, _⟩ => show win3_4.index t (0 : Fin 2) * 1 + 1 * (x 0).val = (x 0).val; rw [e0]; omega
  | ⟨1, _⟩ => show win3_4.index t (1 : Fin 2) * 64 + 1 * (x 1).val = (x 1).val; rw [e1]; omega

/-- Row p of the hidden tile at point t is row 5000·t + p of the hidden array. -/
theorem iblk3_5_apply (c : Dev nD) (t : Fin cfg3.N) (p : Fin 5000) (d : Fin 64) (i : Fin 50000)
    (hi : i.val = 5000 * t.val + p.val) :
    (iblk3 V c 5 t : Vec F S5000x64 .f32) (ix2 p d) = (V c main_v29 : S50000x64.Idx → Elt F .f32) (ix2 i d) := by
  obtain ⟨-, -, -, -, -, -, -, -, -, -, e0, e1, -⟩ := index_maps3 t
  unfold iblk3
  rw [View.read_apply]
  show V c main_v29 _ = V c main_v29 _
  congr 1
  funext a
  apply Fin.ext
  match a with
  | ⟨0, _⟩ => show win3_5.index t (0 : Fin 2) * 5000 + 1 * p.val = i.val; rw [e0, hi]; omega
  | ⟨1, _⟩ => show win3_5.index t (1 : Fin 2) * 64 + 1 * d.val = d.val; rw [e1]; omega

end Blocks

/-! ## One point's write-back, over any arrays -/

/-- At (p, q) of the tile: the body's result on tiles `X`, `R` whose rows are rows 5000·t … of `M`, `H`, written back at
    point t, is `H` plus the perceptron of `M` read through point t's block of the output array. -/
theorem writeback3_at (t : Fin cfg3.N) (M H : Vec Ideal S50000x64 .f32) (X R : Vec Ideal S5000x64 .f32)
    (w1 : Vec Ideal S64x64 .f32) (r1 : Vec Ideal S1x64 .f32) (w2 : Vec Ideal S64x64 .f32) (r2 : Vec Ideal S1x64 .f32)
    (hX : ∀ (p : Fin 5000) (d : Fin 64) (i : Fin 50000), i.val = 5000 * t.val + p.val → (X (ix2 p d) : EReal) = M (ix2 i d))
    (hR : ∀ (p : Fin 5000) (d : Fin 64) (i : Fin 50000), i.val = 5000 * t.val + p.val → (R (ix2 p d) : EReal) = H (ix2 i d))
    (p : Fin 5000) (q : Fin 64) :
    (cfg3.win 6).cut (grid3.coords t) (k1_pay1 (F := Ideal) X w1 r1 w2 r2 R) (ix2 p q)
      = ((cfg3.win 6).blk t).view.read (Elt Ideal)
          (addf (F := Ideal) (φ := .f32) H (Cert.Spec.mlp M w1 r1 w2 r2)) (ix2 p q) := by
  obtain ⟨-, -, -, -, -, -, -, -, -, -, -, -, e0, e1⟩ := index_maps3 t
  have hN : cfg3.N = 10 := N_3
  have hlt : 5000 * t.val + p.val < 50000 := by have := t.isLt; have := p.isLt; omega
  rw [View.read_apply]
  have hemb : ((cfg3.win 6).blk t).view.emb (ix2 p q) = (ix2 (⟨5000 * t.val + p.val, hlt⟩ : Fin 50000) q : S50000x64.Idx) := by
    funext a
    apply Fin.ext
    match a with
    | ⟨0, _⟩ => show win3_6.index t (0 : Fin 2) * 5000 + 1 * p.val = 5000 * t.val + p.val; rw [e0]; omega
    | ⟨1, _⟩ => show win3_6.index t (1 : Fin 2) * 64 + 1 * q.val = q.val; rw [e1]; omega
  refine Eq.trans ?_ (congrArg (addf (F := Ideal) (φ := .f32) H (Cert.Spec.mlp M w1 r1 w2 r2)) hemb.symm)
  exact k1_pay1_tile M H X R w1 r1 w2 r2 p q ⟨5000 * t.val + p.val, hlt⟩ (fun d => hX p d _ rfl) (hR p q _ rfl)

/-- The same as an equation of blocks, the tables given up to equality. -/
theorem writeback3 (t : Fin cfg3.N) (M H : Vec Ideal S50000x64 .f32) (X R : Vec Ideal S5000x64 .f32)
    (w1 : Vec Ideal S64x64 .f32) (r1 : Vec Ideal S1x64 .f32) (w2 : Vec Ideal S64x64 .f32) (r2 : Vec Ideal S1x64 .f32)
    (w1' : Vec Ideal S64x64 .f32) (r1' : Vec Ideal S1x64 .f32) (w2' : Vec Ideal S64x64 .f32) (r2' : Vec Ideal S1x64 .f32)
    (h1 : w1' = w1) (h2 : r1' = r1) (h3 : w2' = w2) (h4 : r2' = r2)
    (hX : ∀ (p : Fin 5000) (d : Fin 64) (i : Fin 50000), i.val = 5000 * t.val + p.val → (X (ix2 p d) : EReal) = M (ix2 i d))
    (hR : ∀ (p : Fin 5000) (d : Fin 64) (i : Fin 50000), i.val = 5000 * t.val + p.val → (R (ix2 p d) : EReal) = H (ix2 i d)) :
    (cfg3.win 6).cut (grid3.coords t) (k3_pay1 (F := Ideal) X w1' r1' w2' r2' R)
      = ((cfg3.win 6).blk t).view.read (Elt Ideal)
          (addf (F := Ideal) (φ := .f32) H (Cert.Spec.mlp M w1 r1 w2 r2)) := by
  subst h1 h2 h3 h4
  rw [k3_pay1_eq]
  funext j
  rw [eq_ix2 (n0 := 5000) (n1 := 64) j]
  exact writeback3_at t M H X R w1' r1' w2' r2' hX hR (j 0) (j 1)

/-! ## The region's output array -/

section Value

variable (V : (c : Dev nD) → (b : Ref sig .tc) → Buf (Elt Ideal) ((c : Thread nD τ).loc b))

/-- What point t writes back is its block of the hidden array plus the perceptron of the region's input array. -/
theorem flushed3_eq (c : Dev nD) (t : Fin cfg3.N) :
    (dat3 (F := Ideal) V c).flushed 6 t = ((cfg3.win 6).blk t).view.read (Elt Ideal)
      (addf (F := Ideal) (φ := .f32) (V c main_v29)
        (Cert.Spec.mlp (V c main_v66) (V c main_v68) (V c main_v75) (V c main_v72) (V c main_v76))) := by
  show (cfg3.win 6).cut (grid3.coords t) ((dat3 V c).after 6 t) = _
  rw [after3_6]
  unfold out3_6
  rw [View.canon_unit_zero zero_offsets]
  simp only [View.ld_unit_zero (S := S5000x64) zero_offsets, View.ld_unit_zero (S := S64x64) zero_offsets,
    View.ld_unit_zero (S := S1x64) zero_offsets]
  exact writeback3 t (V c main_v66) (V c main_v29) (iblk3 V c 0 t) (iblk3 V c 5 t)
    (V c main_v68) (V c main_v75) (V c main_v72) (V c main_v76)
    (iblk3 V c 1 t) (iblk3 V c 2 t) (iblk3 V c 3 t) (iblk3 V c 4 t)
    (iblk3_1_eq V c t) (iblk3_2_eq V c t) (iblk3_3_eq V c t) (iblk3_4_eq V c t)
    (fun p d i hi => iblk3_0_apply V c t p d i hi) (fun p d i hi => iblk3_5_apply V c t p d i hi)

/-- Every row of the output array is in some point's block: row P in point P / 5000's. -/
theorem cover3 (i : S50000x64.Idx) :
    ∃ t : Fin cfg3.N, (cfg3.win 6).flush t = true ∧ i ∈ ((cfg3.win 6).blk t).view.set := by
  have h0 : (i 0).val < 50000 := (i 0).isLt
  have h1 : (i 1).val < 64 := (i 1).isLt
  have hN : cfg3.N = 10 := N_3
  have ht : (i 0).val / 5000 < cfg3.N := by rw [hN]; omega
  obtain ⟨-, -, -, -, -, -, -, -, -, -, -, -, e0, e1⟩ := index_maps3 ⟨(i 0).val / 5000, ht⟩
  have e0' : win3_6.index ⟨(i 0).val / 5000, ht⟩ (0 : Fin 2) = (i 0).val / 5000 := e0
  refine ⟨⟨(i 0).val / 5000, ht⟩, flush3_6 _, ?_⟩
  show i ∈ ((View.whole main_v77).slice (win3_6.rect ⟨(i 0).val / 5000, ht⟩)).set
  rw [View.set_slice_whole, Rect.mem_set_unit]
  intro a
  match a with
  | ⟨0, _⟩ =>
    show win3_6.index ⟨(i 0).val / 5000, ht⟩ (0 : Fin 2) * 5000 ≤ (i 0).val
      ∧ (i 0).val < win3_6.index ⟨(i 0).val / 5000, ht⟩ (0 : Fin 2) * 5000 + 5000
    rw [e0']; omega
  | ⟨1, _⟩ =>
    show win3_6.index ⟨(i 0).val / 5000, ht⟩ (1 : Fin 2) * 64 ≤ (i 1).val
      ∧ (i 1).val < win3_6.index ⟨(i 0).val / 5000, ht⟩ (1 : Fin 2) * 64 + 64
    rw [e1]; omega

/-- THE REGION'S OUTPUT ARRAY after its ten points: the hidden array plus the perceptron of its input array. -/
theorem value3 (c : Dev nD) :
    (dat3 (F := Ideal) V c).arrAt 6 cfg3.N
      = addf (F := Ideal) (φ := .f32) (V c main_v29)
          (Cert.Spec.mlp (V c main_v66) (V c main_v68) (V c main_v75) (V c main_v72) (V c main_v76)) :=
  (dat3 V c).arrAt_eq_of_cover 6 _ (fun t _ => flushed3_eq V c t) cover3

end Value

end Cert.KernelIdeal.Hand

end
-- ==== Proof.KI.Val4.lean ====
import proofs.«155469_j90744069030458_1_alg».proof.Proof.KI.Reg4
import proofs.«155469_j90744069030458_1_alg».proof.Proof.KI.TileAlgebra
import proofs.«155469_j90744069030458_1_alg».proof.Proof.Spec
import Idealize.ShloMosaic.Lib.Pipeline.Value

/-!
  What region 4 leaves in its output array: the perceptron of the region's input array.

  The region's grid has ten points; point t works on rows 5000·t … 5000·t + 4999. Its body reads the tile of
  those rows of the input array and the whole weight and bias tables, and writes its result over the same rows of
  the output array. The body's result on the tile is, row by row, the perceptron of the whole input array, so the
  ten write-backs together leave the perceptron of the input array.
-/

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-- The index maps over the grid: at point t the input tile and the output tile are block t along the rows, and the
    tables are taken whole. -/
theorem index_maps4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

section Blocks

variable {F : FTy → Type} [FloatOps F]
variable (V : (c : Dev nD) → (b : Ref sig .tc) → Buf (Elt F) ((c : Thread nD τ).loc b))

/-- Row p of the input tile at point t is row 5000·t + p of the input array. -/
theorem iblk4_0_apply (c : Dev nD) (t : Fin cfg4.N) (p : Fin 5000) (d : Fin 64) (i : Fin 50000)
    (hi : i.val = 5000 * t.val + p.val) :
    (iblk4 V c 0 t : Vec F S5000x64 .f32) (ix2 p d) = (V c main_v90 : S50000x64.Idx → Elt F .f32) (ix2 i d) := by
  obtain ⟨e0, e1, -⟩ := index_maps4 t
  unfold iblk4
  rw [View.read_apply]
  show V c main_v90 _ = V c main_v90 _
  congr 1
  funext a
  apply Fin.ext
  match a with
  | ⟨0, _⟩ => show win4_0.index t (0 : Fin 2) * 5000 + 1 * p.val = i.val; rw [e0, hi]; omega
  | ⟨1, _⟩ => show win4_0.index t (1 : Fin 2) * 64 + 1 * d.val = d.val; rw [e1]; omega

/-- The first weight table's block at any point is the table. -/
theorem iblk4_1_eq (c : Dev nD) (t : Fin cfg4.N) :
    (iblk4 V c 1 t : Vec F S64x64 .f32) = (V c main_v92 : S64x64.Idx → Elt F .f32) := by
  obtain ⟨-, -, e0, e1, -⟩ := index_maps4 t
  funext x
  unfold iblk4
  rw [View.read_apply]
  show V c main_v92 _ = V c main_v92 x
  congr 1
  funext a
  apply Fin.ext
  match a with
  | ⟨0, _⟩ => show win4_1.index t (0 : Fin 2) * 64 + 1 * (x 0).val = (x 0).val; rw [e0]; omega
  | ⟨1, _⟩ => show win4_1.index t (1 : Fin 2) * 64 + 1 * (x 1).val = (x 1).val; rw [e1]; omega

/-- The first bias row's block at any point is the row. -/
theorem iblk4_2_eq (c : Dev nD) (t : Fin cfg4.N) :
    (iblk4 V c 2 t : Vec F S1x64 .f32) = (V c main_v99 : S1x64.Idx → Elt F .f32) := by
  obtain ⟨-, -, -, -, e0, e1, -⟩ := index_maps4 t
  funext x
  unfold iblk4
  rw [View.read_apply]
  show V c main_v99 _ = V c main_v99 x
  congr 1
  funext a
  apply Fin.ext
  match a with
  | ⟨0, _⟩ => show win4_2.index t (0 : Fin 2) * 1 + 1 * (x 0).val = (x 0).val; rw [e0]; omega
  | ⟨1, _⟩ => show win4_2.index t (1 : Fin 2) * 64 + 1 * (x 1).val = (x 1).val; rw [e1]; omega

/-- The second weight table's block at any point is the table. -/
theorem iblk4_3_eq (c : Dev nD) (t : Fin cfg4.N) :
    (iblk4 V c 3 t : Vec F S64x64 .f32) = (V c main_v96 : S64x64.Idx → Elt F .f32) := by
  obtain ⟨-, -, -, -, -, -, e0, e1, -⟩ := index_maps4 t
  funext x
  unfold iblk4
  rw [View.read_apply]
  show V c main_v96 _ = V c main_v96 x
  congr 1
  funext a
  apply Fin.ext
  match a with
  | ⟨0, _⟩ => show win4_3.index t (0 : Fin 2) * 64 + 1 * (x 0).val = (x 0).val; rw [e0]; omega
  | ⟨1, _⟩ => show win4_3.index t (1 : Fin 2) * 64 + 1 * (x 1).val = (x 1).val; rw [e1]; omega

/-- The second bias row's block at any point is the row. -/
theorem iblk4_4_eq (c : Dev nD) (t : Fin cfg4.N) :
    (iblk4 V c 4 t : Vec F S1x64 .f32) = (V c main_v100 : S1x64.Idx → Elt F .f32) := by
  obtain ⟨-, -, -, -, -, -, -, -, e0, e1, -⟩ := index_maps4 t
  funext x
  unfold iblk4
  rw [View.read_apply]
  show V c main_v100 _ = V c main_v100 x
  congr 1
  funext a
  apply Fin.ext
  match a with
  | ⟨0, _⟩ => show win4_4.index t (0 : Fin 2) * 1 + 1 * (x 0).val = (x 0).val; rw [e0]; omega
  | ⟨1, _⟩ => show win4_4.index t (1 : Fin 2) * 64 + 1 * (x 1).val = (x 1).val; rw [e1]; omega

end Blocks

/-! ## One point's write-back, over any arrays -/

/-- At (p, q) of the tile: the body's result on a tile `X` whose rows are rows 5000·t … of `M`, written back at point t,
    is the perceptron of `M` read through point t's block of the output array. -/
theorem writeback4_at (t : Fin cfg4.N) (M : Vec Ideal S50000x64 .f32) (X : Vec Ideal S5000x64 .f32)
    (w1 : Vec Ideal S64x64 .f32) (r1 : Vec Ideal S1x64 .f32) (w2 : Vec Ideal S64x64 .f32) (r2 : Vec Ideal S1x64 .f32)
    (hX : ∀ (p : Fin 5000) (d : Fin 64) (i : Fin 50000), i.val = 5000 * t.val + p.val → (X (ix2 p d) : EReal) = M (ix2 i d))
    (p : Fin 5000) (q : Fin 64) :
    (cfg4.win 5).cut (grid4.coords t) (k2_pay1 (F := Ideal) X w1 r1 w2 r2) (ix2 p q)
      = ((cfg4.win 5).blk t).view.read (Elt Ideal) (Cert.Spec.mlp M w1 r1 w2 r2) (ix2 p q) := by
  obtain ⟨-, -, -, -, -, -, -, -, -, -, e0, e1⟩ := index_maps4 t
  have hN : cfg4.N = 10 := N_4
  have hlt : 5000 * t.val + p.val < 50000 := by have := t.isLt; have := p.isLt; omega
  rw [View.read_apply]
  have hemb : ((cfg4.win 5).blk t).view.emb (ix2 p q) = (ix2 (⟨5000 * t.val + p.val, hlt⟩ : Fin 50000) q : S50000x64.Idx) := by
    funext a
    apply Fin.ext
    match a with
    | ⟨0, _⟩ => show win4_5.index t (0 : Fin 2) * 5000 + 1 * p.val = 5000 * t.val + p.val; rw [e0]; omega
    | ⟨1, _⟩ => show win4_5.index t (1 : Fin 2) * 64 + 1 * q.val = q.val; rw [e1]; omega
  refine Eq.trans ?_ (congrArg (Cert.Spec.mlp M w1 r1 w2 r2) hemb.symm)
  exact k2_pay1_tile M X w1 r1 w2 r2 p q ⟨5000 * t.val + p.val, hlt⟩ (fun d => hX p d _ rfl)

/-- The same as an equation of blocks, the tables given up to equality. -/
theorem writeback4 (t : Fin cfg4.N) (M : Vec Ideal S50000x64 .f32) (X : Vec Ideal S5000x64 .f32)
    (w1 : Vec Ideal S64x64 .f32) (r1 : Vec Ideal S1x64 .f32) (w2 : Vec Ideal S64x64 .f32) (r2 : Vec Ideal S1x64 .f32)
    (w1' : Vec Ideal S64x64 .f32) (r1' : Vec Ideal S1x64 .f32) (w2' : Vec Ideal S64x64 .f32) (r2' : Vec Ideal S1x64 .f32)
    (h1 : w1' = w1) (h2 : r1' = r1) (h3 : w2' = w2) (h4 : r2' = r2)
    (hX : ∀ (p : Fin 5000) (d : Fin 64) (i : Fin 50000), i.val = 5000 * t.val + p.val → (X (ix2 p d) : EReal) = M (ix2 i d)) :
    (cfg4.win 5).cut (grid4.coords t) (k2_pay1 (F := Ideal) X w1' r1' w2' r2')
      = ((cfg4.win 5).blk t).view.read (Elt Ideal) (Cert.Spec.mlp M w1 r1 w2 r2) := by
  subst h1 h2 h3 h4
  funext j
  rw [eq_ix2 (n0 := 5000) (n1 := 64) j]
  exact writeback4_at t M X w1' r1' w2' r2' hX (j 0) (j 1)

/-! ## The region's output array -/

section Value

variable (V : (c : Dev nD) → (b : Ref sig .tc) → Buf (Elt Ideal) ((c : Thread nD τ).loc b))

/-- What point t writes back is its block of the perceptron of the region's input array. -/
theorem flushed4_eq (c : Dev nD) (t : Fin cfg4.N) :
    (dat4 (F := Ideal) V c).flushed 5 t = ((cfg4.win 5).blk t).view.read (Elt Ideal)
      (Cert.Spec.mlp (V c main_v90) (V c main_v92) (V c main_v99) (V c main_v96) (V c main_v100)) := by
  show (cfg4.win 5).cut (grid4.coords t) ((dat4 V c).after 5 t) = _
  rw [after4_5]
  unfold out4_5
  simp only [k4_pay1_eq]
  rw [View.canon_unit_zero zero_offsets]
  simp only [View.ld_unit_zero (S := S5000x64) zero_offsets, View.ld_unit_zero (S := S64x64) zero_offsets,
    View.ld_unit_zero (S := S1x64) zero_offsets]
  exact writeback4 t (V c main_v90) (iblk4 V c 0 t) (V c main_v92) (V c main_v99) (V c main_v96) (V c main_v100)
    (iblk4 V c 1 t) (iblk4 V c 2 t) (iblk4 V c 3 t) (iblk4 V c 4 t)
    (iblk4_1_eq V c t) (iblk4_2_eq V c t) (iblk4_3_eq V c t) (iblk4_4_eq V c t)
    (fun p d i hi => iblk4_0_apply V c t p d i hi)

/-- Every row of the output array is in some point's block: row P in point P / 5000's. -/
theorem cover4 (i : S50000x64.Idx) :
    ∃ t : Fin cfg4.N, (cfg4.win 5).flush t = true ∧ i ∈ ((cfg4.win 5).blk t).view.set := by
  have h0 : (i 0).val < 50000 := (i 0).isLt
  have h1 : (i 1).val < 64 := (i 1).isLt
  have hN : cfg4.N = 10 := N_4
  have ht : (i 0).val / 5000 < cfg4.N := by rw [hN]; omega
  obtain ⟨-, -, -, -, -, -, -, -, -, -, e0, e1⟩ := index_maps4 ⟨(i 0).val / 5000, ht⟩
  have e0' : win4_5.index ⟨(i 0).val / 5000, ht⟩ (0 : Fin 2) = (i 0).val / 5000 := e0
  refine ⟨⟨(i 0).val / 5000, ht⟩, flush4_5 _, ?_⟩
  show i ∈ ((View.whole main_v101).slice (win4_5.rect ⟨(i 0).val / 5000, ht⟩)).set
  rw [View.set_slice_whole, Rect.mem_set_unit]
  intro a
  match a with
  | ⟨0, _⟩ =>
    show win4_5.index ⟨(i 0).val / 5000, ht⟩ (0 : Fin 2) * 5000 ≤ (i 0).val
      ∧ (i 0).val < win4_5.index ⟨(i 0).val / 5000, ht⟩ (0 : Fin 2) * 5000 + 5000
    rw [e0']; omega
  | ⟨1, _⟩ =>
    show win4_5.index ⟨(i 0).val / 5000, ht⟩ (1 : Fin 2) * 64 ≤ (i 1).val
      ∧ (i 1).val < win4_5.index ⟨(i 0).val / 5000, ht⟩ (1 : Fin 2) * 64 + 64
    rw [e1]; omega

/-- THE REGION'S OUTPUT ARRAY after its ten points: the perceptron of its input array. -/
theorem value4 (c : Dev nD) :
    (dat4 (F := Ideal) V c).arrAt 5 cfg4.N
      = Cert.Spec.mlp (V c main_v90) (V c main_v92) (V c main_v99) (V c main_v96) (V c main_v100) :=
  (dat4 V c).arrAt_eq_of_cover 5 _ (fun t _ => flushed4_eq V c t) cover4

end Value

end Cert.KernelIdeal.Hand

end
-- ==== Proof.KI.Val5.lean ====
import proofs.«155469_j90744069030458_1_alg».proof.Proof.KI.Reg5
import proofs.«155469_j90744069030458_1_alg».proof.Proof.KI.TileAlgebra
import proofs.«155469_j90744069030458_1_alg».proof.Proof.Spec
import Idealize.ShloMosaic.Lib.Pipeline.Value

/-!
  What region 5 leaves in its output array: the hidden array plus the perceptron of the region's input array.

  The region's grid has ten points; point t works on rows 5000·t … 5000·t + 4999. Its body reads the tile of
  those rows of the input array and of the hidden array and the whole weight and bias tables, and writes its result
  over the same rows of the output array. The body's result on the tiles is, row by row, the hidden array plus the
  perceptron of the whole input array, so the ten write-backs together leave that sum.
-/

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-- The index maps over the grid: at point t the input tile, the hidden tile and the output tile are block t along the
    rows, and the tables are taken whole. -/
theorem index_maps5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

section Blocks

variable {F : FTy → Type} [FloatOps F]
variable (V : (c : Dev nD) → (b : Ref sig .tc) → Buf (Elt F) ((c : Thread nD τ).loc b))

/-- Row p of the input tile at point t is row 5000·t + p of the input array. -/
theorem iblk5_0_apply (c : Dev nD) (t : Fin cfg5.N) (p : Fin 5000) (d : Fin 64) (i : Fin 50000)
    (hi : i.val = 5000 * t.val + p.val) :
    (iblk5 V c 0 t : Vec F S5000x64 .f32) (ix2 p d) = (V c main_v114 : S50000x64.Idx → Elt F .f32) (ix2 i d) := by
  obtain ⟨e0, e1, -⟩ := index_maps5 t
  unfold iblk5
  rw [View.read_apply]
  show V c main_v114 _ = V c main_v114 _
  congr 1
  funext a
  apply Fin.ext
  match a with
  | ⟨0, _⟩ => show win5_0.index t (0 : Fin 2) * 5000 + 1 * p.val = i.val; rw [e0, hi]; omega
  | ⟨1, _⟩ => show win5_0.index t (1 : Fin 2) * 64 + 1 * d.val = d.val; rw [e1]; omega

/-- The first weight table's block at any point is the whole table. -/
theorem iblk5_1_eq (c : Dev nD) (t : Fin cfg5.N) :
    (iblk5 V c 1 t : Vec F S64x64 .f32) = (V c main_v116 : S64x64.Idx → Elt F .f32) := by
  obtain ⟨-, -, e0, e1, -⟩ := index_maps5 t
  funext x
  unfold iblk5
  rw [View.read_apply]
  show V c main_v116 _ = V c main_v116 x
  congr 1
  funext a
  apply Fin.ext
  match a with
  | ⟨0, _⟩ => show win5_1.index t (0 : Fin 2) * 64 + 1 * (x 0).val = (x 0).val; rw [e0]; omega
  | ⟨1, _⟩ => show win5_1.index t (1 : Fin 2) * 64 + 1 * (x 1).val = (x 1).val; rw [e1]; omega

/-- The first bias row's block at any point is the whole table. -/
theorem iblk5_2_eq (c : Dev nD) (t : Fin cfg5.N) :
    (iblk5 V c 2 t : Vec F S1x64 .f32) = (V c main_v123 : S1x64.Idx → Elt F .f32) := by
  obtain ⟨-, -, -, -, e0, e1, -⟩ := index_maps5 t
  funext x
  unfold iblk5
  rw [View.read_apply]
  show V c main_v123 _ = V c main_v123 x
  congr 1
  funext a
  apply Fin.ext
  match a with
  | ⟨0, _⟩ => show win5_2.index t (0 : Fin 2) * 1 + 1 * (x 0).val = (x 0).val; rw [e0]; omega
  | ⟨1, _⟩ => show win5_2.index t (1 : Fin 2) * 64 + 1 * (x 1).val = (x 1).val; rw [e1]; omega

/-- The second weight table's block at any point is the whole table. -/
theorem iblk5_3_eq (c : Dev nD) (t : Fin cfg5.N) :
    (iblk5 V c 3 t : Vec F S64x64 .f32) = (V c main_v120 : S64x64.Idx → Elt F .f32) := by
  obtain ⟨-, -, -, -, -, -, e0, e1, -⟩ := index_maps5 t
  funext x
  unfold iblk5
  rw [View.read_apply]
  show V c main_v120 _ = V c main_v120 x
  congr 1
  funext a
  apply Fin.ext
  match a with
  | ⟨0, _⟩ => show win5_3.index t (0 : Fin 2) * 64 + 1 * (x 0).val = (x 0).val; rw [e0]; omega
  | ⟨1, _⟩ => show win5_3.index t (1 : Fin 2) * 64 + 1 * (x 1).val = (x 1).val; rw [e1]; omega

/-- The second bias row's block at any point is the whole table. -/
theorem iblk5_4_eq (c : Dev nD) (t : Fin cfg5.N) :
    (iblk5 V c 4 t : Vec F S1x64 .f32) = (V c main_v124 : S1x64.Idx → Elt F .f32) := by
  obtain ⟨-, -, -, -, -, -, -, -, e0, e1, -⟩ := index_maps5 t
  funext x
  unfold iblk5
  rw [View.read_apply]
  show V c main_v124 _ = V c main_v124 x
  congr 1
  funext a
  apply Fin.ext
  match a with
  | ⟨0, _⟩ => show win5_4.index t (0 : Fin 2) * 1 + 1 * (x 0).val = (x 0).val; rw [e0]; omega
  | ⟨1, _⟩ => show win5_4.index t (1 : Fin 2) * 64 + 1 * (x 1).val = (x 1).val; rw [e1]; omega

/-- Row p of the hidden tile at point t is row 5000·t + p of the hidden array. -/
theorem iblk5_5_apply (c : Dev nD) (t : Fin cfg5.N) (p : Fin 5000) (d : Fin 64) (i : Fin 50000)
    (hi : i.val = 5000 * t.val + p.val) :
    (iblk5 V c 5 t : Vec F S5000x64 .f32) (ix2 p d) = (V c main_v77 : S50000x64.Idx → Elt F .f32) (ix2 i d) := by
  obtain ⟨-, -, -, -, -, -, -, -, -, -, e0, e1, -⟩ := index_maps5 t
  unfold iblk5
  rw [View.read_apply]
  show V c main_v77 _ = V c main_v77 _
  congr 1
  funext a
  apply Fin.ext
  match a with
  | ⟨0, _⟩ => show win5_5.index t (0 : Fin 2) * 5000 + 1 * p.val = i.val; rw [e0, hi]; omega
  | ⟨1, _⟩ => show win5_5.index t (1 : Fin 2) * 64 + 1 * d.val = d.val; rw [e1]; omega

end Blocks

/-! ## One point's write-back, over any arrays -/

/-- At (p, q) of the tile: the body's result on tiles `X`, `R` whose rows are rows 5000·t … of `M`, `H`, written back at
    point t, is `H` plus the perceptron of `M` read through point t's block of the output array. -/
theorem writeback5_at (t : Fin cfg5.N) (M H : Vec Ideal S50000x64 .f32) (X R : Vec Ideal S5000x64 .f32)
    (w1 : Vec Ideal S64x64 .f32) (r1 : Vec Ideal S1x64 .f32) (w2 : Vec Ideal S64x64 .f32) (r2 : Vec Ideal S1x64 .f32)
    (hX : ∀ (p : Fin 5000) (d : Fin 64) (i : Fin 50000), i.val = 5000 * t.val + p.val → (X (ix2 p d) : EReal) = M (ix2 i d))
    (hR : ∀ (p : Fin 5000) (d : Fin 64) (i : Fin 50000), i.val = 5000 * t.val + p.val → (R (ix2 p d) : EReal) = H (ix2 i d))
    (p : Fin 5000) (q : Fin 64) :
    (cfg5.win 6).cut (grid5.coords t) (k1_pay1 (F := Ideal) X w1 r1 w2 r2 R) (ix2 p q)
      = ((cfg5.win 6).blk t).view.read (Elt Ideal)
          (addf (F := Ideal) (φ := .f32) H (Cert.Spec.mlp M w1 r1 w2 r2)) (ix2 p q) := by
  obtain ⟨-, -, -, -, -, -, -, -, -, -, -, -, e0, e1⟩ := index_maps5 t
  have hN : cfg5.N = 10 := N_5
  have hlt : 5000 * t.val + p.val < 50000 := by have := t.isLt; have := p.isLt; omega
  rw [View.read_apply]
  have hemb : ((cfg5.win 6).blk t).view.emb (ix2 p q) = (ix2 (⟨5000 * t.val + p.val, hlt⟩ : Fin 50000) q : S50000x64.Idx) := by
    funext a
    apply Fin.ext
    match a with
    | ⟨0, _⟩ => show win5_6.index t (0 : Fin 2) * 5000 + 1 * p.val = 5000 * t.val + p.val; rw [e0]; omega
    | ⟨1, _⟩ => show win5_6.index t (1 : Fin 2) * 64 + 1 * q.val = q.val; rw [e1]; omega
  refine Eq.trans ?_ (congrArg (addf (F := Ideal) (φ := .f32) H (Cert.Spec.mlp M w1 r1 w2 r2)) hemb.symm)
  exact k1_pay1_tile M H X R w1 r1 w2 r2 p q ⟨5000 * t.val + p.val, hlt⟩ (fun d => hX p d _ rfl) (hR p q _ rfl)

/-- The same as an equation of blocks, the tables given up to equality. -/
theorem writeback5 (t : Fin cfg5.N) (M H : Vec Ideal S50000x64 .f32) (X R : Vec Ideal S5000x64 .f32)
    (w1 : Vec Ideal S64x64 .f32) (r1 : Vec Ideal S1x64 .f32) (w2 : Vec Ideal S64x64 .f32) (r2 : Vec Ideal S1x64 .f32)
    (w1' : Vec Ideal S64x64 .f32) (r1' : Vec Ideal S1x64 .f32) (w2' : Vec Ideal S64x64 .f32) (r2' : Vec Ideal S1x64 .f32)
    (h1 : w1' = w1) (h2 : r1' = r1) (h3 : w2' = w2) (h4 : r2' = r2)
    (hX : ∀ (p : Fin 5000) (d : Fin 64) (i : Fin 50000), i.val = 5000 * t.val + p.val → (X (ix2 p d) : EReal) = M (ix2 i d))
    (hR : ∀ (p : Fin 5000) (d : Fin 64) (i : Fin 50000), i.val = 5000 * t.val + p.val → (R (ix2 p d) : EReal) = H (ix2 i d)) :
    (cfg5.win 6).cut (grid5.coords t) (k5_pay1 (F := Ideal) X w1' r1' w2' r2' R)
      = ((cfg5.win 6).blk t).view.read (Elt Ideal)
          (addf (F := Ideal) (φ := .f32) H (Cert.Spec.mlp M w1 r1 w2 r2)) := by
  subst h1 h2 h3 h4
  rw [k5_pay1_eq]
  funext j
  rw [eq_ix2 (n0 := 5000) (n1 := 64) j]
  exact writeback5_at t M H X R w1' r1' w2' r2' hX hR (j 0) (j 1)

/-! ## The region's output array -/

section Value

variable (V : (c : Dev nD) → (b : Ref sig .tc) → Buf (Elt Ideal) ((c : Thread nD τ).loc b))

/-- What point t writes back is its block of the hidden array plus the perceptron of the region's input array. -/
theorem flushed5_eq (c : Dev nD) (t : Fin cfg5.N) :
    (dat5 (F := Ideal) V c).flushed 6 t = ((cfg5.win 6).blk t).view.read (Elt Ideal)
      (addf (F := Ideal) (φ := .f32) (V c main_v77)
        (Cert.Spec.mlp (V c main_v114) (V c main_v116) (V c main_v123) (V c main_v120) (V c main_v124))) := by
  show (cfg5.win 6).cut (grid5.coords t) ((dat5 V c).after 6 t) = _
  rw [after5_6]
  unfold out5_6
  rw [View.canon_unit_zero zero_offsets]
  simp only [View.ld_unit_zero (S := S5000x64) zero_offsets, View.ld_unit_zero (S := S64x64) zero_offsets,
    View.ld_unit_zero (S := S1x64) zero_offsets]
  exact writeback5 t (V c main_v114) (V c main_v77) (iblk5 V c 0 t) (iblk5 V c 5 t)
    (V c main_v116) (V c main_v123) (V c main_v120) (V c main_v124)
    (iblk5 V c 1 t) (iblk5 V c 2 t) (iblk5 V c 3 t) (iblk5 V c 4 t)
    (iblk5_1_eq V c t) (iblk5_2_eq V c t) (iblk5_3_eq V c t) (iblk5_4_eq V c t)
    (fun p d i hi => iblk5_0_apply V c t p d i hi) (fun p d i hi => iblk5_5_apply V c t p d i hi)

/-- Every row of the output array is in some point's block: row P in point P / 5000's. -/
theorem cover5 (i : S50000x64.Idx) :
    ∃ t : Fin cfg5.N, (cfg5.win 6).flush t = true ∧ i ∈ ((cfg5.win 6).blk t).view.set := by
  have h0 : (i 0).val < 50000 := (i 0).isLt
  have h1 : (i 1).val < 64 := (i 1).isLt
  have hN : cfg5.N = 10 := N_5
  have ht : (i 0).val / 5000 < cfg5.N := by rw [hN]; omega
  obtain ⟨-, -, -, -, -, -, -, -, -, -, -, -, e0, e1⟩ := index_maps5 ⟨(i 0).val / 5000, ht⟩
  have e0' : win5_6.index ⟨(i 0).val / 5000, ht⟩ (0 : Fin 2) = (i 0).val / 5000 := e0
  refine ⟨⟨(i 0).val / 5000, ht⟩, flush5_6 _, ?_⟩
  show i ∈ ((View.whole main_v125).slice (win5_6.rect ⟨(i 0).val / 5000, ht⟩)).set
  rw [View.set_slice_whole, Rect.mem_set_unit]
  intro a
  match a with
  | ⟨0, _⟩ =>
    show win5_6.index ⟨(i 0).val / 5000, ht⟩ (0 : Fin 2) * 5000 ≤ (i 0).val
      ∧ (i 0).val < win5_6.index ⟨(i 0).val / 5000, ht⟩ (0 : Fin 2) * 5000 + 5000
    rw [e0']; omega
  | ⟨1, _⟩ =>
    show win5_6.index ⟨(i 0).val / 5000, ht⟩ (1 : Fin 2) * 64 ≤ (i 1).val
      ∧ (i 1).val < win5_6.index ⟨(i 0).val / 5000, ht⟩ (1 : Fin 2) * 64 + 64
    rw [e1]; omega

/-- THE REGION'S OUTPUT ARRAY after its ten points: the hidden array plus the perceptron of its input array. -/
theorem value5 (c : Dev nD) :
    (dat5 (F := Ideal) V c).arrAt 6 cfg5.N
      = addf (F := Ideal) (φ := .f32) (V c main_v77)
          (Cert.Spec.mlp (V c main_v114) (V c main_v116) (V c main_v123) (V c main_v120) (V c main_v124)) :=
  (dat5 V c).arrAt_eq_of_cover 6 _ (fun t _ => flushed5_eq V c t) cover5

end Value

end Cert.KernelIdeal.Hand

end
-- ==== Proof.KI.Val6.lean ====
import proofs.«155469_j90744069030458_1_alg».proof.Proof.KI.Reg6
import proofs.«155469_j90744069030458_1_alg».proof.Proof.KI.TileAlgebra
import proofs.«155469_j90744069030458_1_alg».proof.Proof.Spec
import Idealize.ShloMosaic.Lib.Pipeline.Value

/-!
  What region 6 leaves in its output array: the perceptron of the region's input array.

  The region's grid has ten points; point t works on rows 5000·t … 5000·t + 4999. Its body reads the tile of
  those rows of the input array and the whole weight and bias tables, and writes its result over the same rows of
  the output array. The body's result on the tile is, row by row, the perceptron of the whole input array, so the
  ten write-backs together leave the perceptron of the input array.
-/

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-- The index maps over the grid: at point t the input tile and the output tile are block t along the rows, and the
    tables are taken whole. -/
theorem index_maps6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

section Blocks

variable {F : FTy → Type} [FloatOps F]
variable (V : (c : Dev nD) → (b : Ref sig .tc) → Buf (Elt F) ((c : Thread nD τ).loc b))

/-- Row p of the input tile at point t is row 5000·t + p of the input array. -/
theorem iblk6_0_apply (c : Dev nD) (t : Fin cfg6.N) (p : Fin 5000) (d : Fin 64) (i : Fin 50000)
    (hi : i.val = 5000 * t.val + p.val) :
    (iblk6 V c 0 t : Vec F S5000x64 .f32) (ix2 p d) = (V c main_v138 : S50000x64.Idx → Elt F .f32) (ix2 i d) := by
  obtain ⟨e0, e1, -⟩ := index_maps6 t
  unfold iblk6
  rw [View.read_apply]
  show V c main_v138 _ = V c main_v138 _
  congr 1
  funext a
  apply Fin.ext
  match a with
  | ⟨0, _⟩ => show win6_0.index t (0 : Fin 2) * 5000 + 1 * p.val = i.val; rw [e0, hi]; omega
  | ⟨1, _⟩ => show win6_0.index t (1 : Fin 2) * 64 + 1 * d.val = d.val; rw [e1]; omega

/-- The first weight table's block at any point is the table. -/
theorem iblk6_1_eq (c : Dev nD) (t : Fin cfg6.N) :
    (iblk6 V c 1 t : Vec F S64x64 .f32) = (V c main_v140 : S64x64.Idx → Elt F .f32) := by
  obtain ⟨-, -, e0, e1, -⟩ := index_maps6 t
  funext x
  unfold iblk6
  rw [View.read_apply]
  show V c main_v140 _ = V c main_v140 x
  congr 1
  funext a
  apply Fin.ext
  match a with
  | ⟨0, _⟩ => show win6_1.index t (0 : Fin 2) * 64 + 1 * (x 0).val = (x 0).val; rw [e0]; omega
  | ⟨1, _⟩ => show win6_1.index t (1 : Fin 2) * 64 + 1 * (x 1).val = (x 1).val; rw [e1]; omega

/-- The first bias row's block at any point is the row. -/
theorem iblk6_2_eq (c : Dev nD) (t : Fin cfg6.N) :
    (iblk6 V c 2 t : Vec F S1x64 .f32) = (V c main_v147 : S1x64.Idx → Elt F .f32) := by
  obtain ⟨-, -, -, -, e0, e1, -⟩ := index_maps6 t
  funext x
  unfold iblk6
  rw [View.read_apply]
  show V c main_v147 _ = V c main_v147 x
  congr 1
  funext a
  apply Fin.ext
  match a with
  | ⟨0, _⟩ => show win6_2.index t (0 : Fin 2) * 1 + 1 * (x 0).val = (x 0).val; rw [e0]; omega
  | ⟨1, _⟩ => show win6_2.index t (1 : Fin 2) * 64 + 1 * (x 1).val = (x 1).val; rw [e1]; omega

/-- The second weight table's block at any point is the table. -/
theorem iblk6_3_eq (c : Dev nD) (t : Fin cfg6.N) :
    (iblk6 V c 3 t : Vec F S64x64 .f32) = (V c main_v144 : S64x64.Idx → Elt F .f32) := by
  obtain ⟨-, -, -, -, -, -, e0, e1, -⟩ := index_maps6 t
  funext x
  unfold iblk6
  rw [View.read_apply]
  show V c main_v144 _ = V c main_v144 x
  congr 1
  funext a
  apply Fin.ext
  match a with
  | ⟨0, _⟩ => show win6_3.index t (0 : Fin 2) * 64 + 1 * (x 0).val = (x 0).val; rw [e0]; omega
  | ⟨1, _⟩ => show win6_3.index t (1 : Fin 2) * 64 + 1 * (x 1).val = (x 1).val; rw [e1]; omega

/-- The second bias row's block at any point is the row. -/
theorem iblk6_4_eq (c : Dev nD) (t : Fin cfg6.N) :
    (iblk6 V c 4 t : Vec F S1x64 .f32) = (V c main_v148 : S1x64.Idx → Elt F .f32) := by
  obtain ⟨-, -, -, -, -, -, -, -, e0, e1, -⟩ := index_maps6 t
  funext x
  unfold iblk6
  rw [View.read_apply]
  show V c main_v148 _ = V c main_v148 x
  congr 1
  funext a
  apply Fin.ext
  match a with
  | ⟨0, _⟩ => show win6_4.index t (0 : Fin 2) * 1 + 1 * (x 0).val = (x 0).val; rw [e0]; omega
  | ⟨1, _⟩ => show win6_4.index t (1 : Fin 2) * 64 + 1 * (x 1).val = (x 1).val; rw [e1]; omega

end Blocks

/-! ## One point's write-back, over any arrays -/

/-- At (p, q) of the tile: the body's result on a tile `X` whose rows are rows 5000·t … of `M`, written back at point t,
    is the perceptron of `M` read through point t's block of the output array. -/
theorem writeback6_at (t : Fin cfg6.N) (M : Vec Ideal S50000x64 .f32) (X : Vec Ideal S5000x64 .f32)
    (w1 : Vec Ideal S64x64 .f32) (r1 : Vec Ideal S1x64 .f32) (w2 : Vec Ideal S64x64 .f32) (r2 : Vec Ideal S1x64 .f32)
    (hX : ∀ (p : Fin 5000) (d : Fin 64) (i : Fin 50000), i.val = 5000 * t.val + p.val → (X (ix2 p d) : EReal) = M (ix2 i d))
    (p : Fin 5000) (q : Fin 64) :
    (cfg6.win 5).cut (grid6.coords t) (k2_pay1 (F := Ideal) X w1 r1 w2 r2) (ix2 p q)
      = ((cfg6.win 5).blk t).view.read (Elt Ideal) (Cert.Spec.mlp M w1 r1 w2 r2) (ix2 p q) := by
  obtain ⟨-, -, -, -, -, -, -, -, -, -, e0, e1⟩ := index_maps6 t
  have hN : cfg6.N = 10 := N_6
  have hlt : 5000 * t.val + p.val < 50000 := by have := t.isLt; have := p.isLt; omega
  rw [View.read_apply]
  have hemb : ((cfg6.win 5).blk t).view.emb (ix2 p q) = (ix2 (⟨5000 * t.val + p.val, hlt⟩ : Fin 50000) q : S50000x64.Idx) := by
    funext a
    apply Fin.ext
    match a with
    | ⟨0, _⟩ => show win6_5.index t (0 : Fin 2) * 5000 + 1 * p.val = 5000 * t.val + p.val; rw [e0]; omega
    | ⟨1, _⟩ => show win6_5.index t (1 : Fin 2) * 64 + 1 * q.val = q.val; rw [e1]; omega
  refine Eq.trans ?_ (congrArg (Cert.Spec.mlp M w1 r1 w2 r2) hemb.symm)
  exact k2_pay1_tile M X w1 r1 w2 r2 p q ⟨5000 * t.val + p.val, hlt⟩ (fun d => hX p d _ rfl)

/-- The same as an equation of blocks, the tables given up to equality. -/
theorem writeback6 (t : Fin cfg6.N) (M : Vec Ideal S50000x64 .f32) (X : Vec Ideal S5000x64 .f32)
    (w1 : Vec Ideal S64x64 .f32) (r1 : Vec Ideal S1x64 .f32) (w2 : Vec Ideal S64x64 .f32) (r2 : Vec Ideal S1x64 .f32)
    (w1' : Vec Ideal S64x64 .f32) (r1' : Vec Ideal S1x64 .f32) (w2' : Vec Ideal S64x64 .f32) (r2' : Vec Ideal S1x64 .f32)
    (h1 : w1' = w1) (h2 : r1' = r1) (h3 : w2' = w2) (h4 : r2' = r2)
    (hX : ∀ (p : Fin 5000) (d : Fin 64) (i : Fin 50000), i.val = 5000 * t.val + p.val → (X (ix2 p d) : EReal) = M (ix2 i d)) :
    (cfg6.win 5).cut (grid6.coords t) (k2_pay1 (F := Ideal) X w1' r1' w2' r2')
      = ((cfg6.win 5).blk t).view.read (Elt Ideal) (Cert.Spec.mlp M w1 r1 w2 r2) := by
  subst h1 h2 h3 h4
  funext j
  rw [eq_ix2 (n0 := 5000) (n1 := 64) j]
  exact writeback6_at t M X w1' r1' w2' r2' hX (j 0) (j 1)

/-! ## The region's output array -/

section Value

variable (V : (c : Dev nD) → (b : Ref sig .tc) → Buf (Elt Ideal) ((c : Thread nD τ).loc b))

/-- What point t writes back is its block of the perceptron of the region's input array. -/
theorem flushed6_eq (c : Dev nD) (t : Fin cfg6.N) :
    (dat6 (F := Ideal) V c).flushed 5 t = ((cfg6.win 5).blk t).view.read (Elt Ideal)
      (Cert.Spec.mlp (V c main_v138) (V c main_v140) (V c main_v147) (V c main_v144) (V c main_v148)) := by
  show (cfg6.win 5).cut (grid6.coords t) ((dat6 V c).after 5 t) = _
  rw [after6_5]
  unfold out6_5
  simp only [k6_pay1_eq]
  rw [View.canon_unit_zero zero_offsets]
  simp only [View.ld_unit_zero (S := S5000x64) zero_offsets, View.ld_unit_zero (S := S64x64) zero_offsets,
    View.ld_unit_zero (S := S1x64) zero_offsets]
  exact writeback6 t (V c main_v138) (iblk6 V c 0 t) (V c main_v140) (V c main_v147) (V c main_v144) (V c main_v148)
    (iblk6 V c 1 t) (iblk6 V c 2 t) (iblk6 V c 3 t) (iblk6 V c 4 t)
    (iblk6_1_eq V c t) (iblk6_2_eq V c t) (iblk6_3_eq V c t) (iblk6_4_eq V c t)
    (fun p d i hi => iblk6_0_apply V c t p d i hi)

/-- Every row of the output array is in some point's block: row P in point P / 5000's. -/
theorem cover6 (i : S50000x64.Idx) :
    ∃ t : Fin cfg6.N, (cfg6.win 5).flush t = true ∧ i ∈ ((cfg6.win 5).blk t).view.set := by
  have h0 : (i 0).val < 50000 := (i 0).isLt
  have h1 : (i 1).val < 64 := (i 1).isLt
  have hN : cfg6.N = 10 := N_6
  have ht : (i 0).val / 5000 < cfg6.N := by rw [hN]; omega
  obtain ⟨-, -, -, -, -, -, -, -, -, -, e0, e1⟩ := index_maps6 ⟨(i 0).val / 5000, ht⟩
  have e0' : win6_5.index ⟨(i 0).val / 5000, ht⟩ (0 : Fin 2) = (i 0).val / 5000 := e0
  refine ⟨⟨(i 0).val / 5000, ht⟩, flush6_5 _, ?_⟩
  show i ∈ ((View.whole main_v149).slice (win6_5.rect ⟨(i 0).val / 5000, ht⟩)).set
  rw [View.set_slice_whole, Rect.mem_set_unit]
  intro a
  match a with
  | ⟨0, _⟩ =>
    show win6_5.index ⟨(i 0).val / 5000, ht⟩ (0 : Fin 2) * 5000 ≤ (i 0).val
      ∧ (i 0).val < win6_5.index ⟨(i 0).val / 5000, ht⟩ (0 : Fin 2) * 5000 + 5000
    rw [e0']; omega
  | ⟨1, _⟩ =>
    show win6_5.index ⟨(i 0).val / 5000, ht⟩ (1 : Fin 2) * 64 ≤ (i 1).val
      ∧ (i 1).val < win6_5.index ⟨(i 0).val / 5000, ht⟩ (1 : Fin 2) * 64 + 64
    rw [e1]; omega

/-- THE REGION'S OUTPUT ARRAY after its ten points: the perceptron of its input array. -/
theorem value6 (c : Dev nD) :
    (dat6 (F := Ideal) V c).arrAt 5 cfg6.N
      = Cert.Spec.mlp (V c main_v138) (V c main_v140) (V c main_v147) (V c main_v144) (V c main_v148) :=
  (dat6 V c).arrAt_eq_of_cover 5 _ (fun t _ => flushed6_eq V c t) cover6

end Value

end Cert.KernelIdeal.Hand

end
-- ==== Proof.LibVecRow.lean ====
/-
  A vector laid as a one-row matrix, two ways.

  A vector of length a can be turned into a matrix [1, a] by a reshape or by a broadcast that puts the vector's axis
  on the matrix's second axis. Both matrices read, at (u, i), the vector's entry i: they are one array. Stated over
  the library only, for any element type.
-/
import Idealize.ShloMosaic.Lib.ValueLayout

noncomputable section

namespace Cert.LibVecRow

open Idealize.ShloMosaic Idealize.ShloMosaic.ValueIdx

/-- A vector reshaped to a one-row matrix is the vector broadcast along the second axis: both read, at (u, i),
    the vector's entry i. -/
theorem shapeCast_vec_eq_broadcastInDim {α : Type} {a : ℕ} (x : (⟨1, ![a]⟩ : Shape).Idx → α)
    (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, i, rfl⟩ : ∃ (u : Fin 1) (i : Fin a), j = ix2 u i := ⟨j 0, j 1, eq_ix2 j⟩
  rw [shapeCast_a_1a_apply]
  symm
  refine broadcastInDim_apply ![1] hb x (ix2 u i) (ix1 i) ?_
  intro c
  have hc : c = 0 := Subsingleton.elim _ _
  subst hc
  show i.val = if a = 1 then 0 else i.val
  have := i.isLt
  split <;> omega

end Cert.LibVecRow

end
-- ==== Proof.KI.Host0.lean ====
import proofs.«155469_j90744069030458_1_alg».proof.Proof.Gen.KernelIdeal.Launch
import proofs.«155469_j90744069030458_1_alg».proof.Proof.Spec
import Idealize.ShloMosaic.Lib.StableHlo.Run
import proofs.«155469_j90744069030458_1_alg».proof.Proof.LibVecRow

noncomputable section

namespace Cert.KernelIdeal.Hand

open Idealize.ShloMosaic Cert.KernelIdeal Cert.KernelIdeal.Gen

variable {F : FTy → Type} [FloatOps F]

/-- Row 0 of the edge table, as a vector: each edge's source node. -/
theorem host0_v1 (W : Valuation τ sig (Elt F)) :
    StableHlo.after hostOps0 W (Proc.devRef .tc main_v1) = Cert.Spec.src (W (Proc.devRef .tc main_arg1)) := by
  simp only [hostOps0]
  after_results_simp
  rfl

/-- Row 1 of the edge table, as a vector: each edge's target node. -/
theorem host0_v3 (W : Valuation τ sig (Elt F)) :
    StableHlo.after hostOps0 W (Proc.devRef .tc main_v3) = Cert.Spec.dst (W (Proc.devRef .tc main_arg1)) := by
  simp only [hostOps0]
  after_results_simp
  rfl

/-- The input layer's bias laid as one row. -/
theorem host0_v4 (W : Valuation τ sig (Elt F)) :
    StableHlo.after hostOps0 W (Proc.devRef .tc main_v4) = Cert.Spec.row (W (Proc.devRef .tc main_arg4)) := by
  simp only [hostOps0]
  after_results_simp
  exact Cert.LibVecRow.shapeCast_vec_eq_broadcastInDim (a := 64) _ _ _

end Cert.KernelIdeal.Hand

end
-- ==== Proof.KI.Host1.lean ====
import proofs.«155469_j90744069030458_1_alg».proof.Proof.Gen.KernelIdeal.Launch
import proofs.«155469_j90744069030458_1_alg».proof.Proof.Spec
import Idealize.ShloMosaic.Lib.StableHlo.Run
import proofs.«155469_j90744069030458_1_alg».proof.Proof.LibVecRow

noncomputable section

namespace Cert.KernelIdeal.Hand

open Idealize.ShloMosaic Cert.KernelIdeal Cert.KernelIdeal.Gen

variable {F : FTy → Type} [FloatOps F]

/-- The aggregate buffer holds one aggregation of the hidden array: along every edge the source node's row times the
    edge's weight, added into the target node's row. -/
theorem host1_agg (W : Valuation τ sig (Elt F)) :
    StableHlo.after hostOps1 W (Proc.devRef .tc main_v18)
      = Cert.Spec.agg (W (Proc.devRef .tc main_v5)) (W (Proc.devRef .tc main_v1)) (W (Proc.devRef .tc main_v3)) (W (Proc.devRef .tc main_arg2)) := by
  simp only [hostOps1]
  after_results_simp
  rfl

/-- The first layer's weight matrix is the first of the stack of three. -/
theorem host1_w1 (W : Valuation τ sig (Elt F)) :
    StableHlo.after hostOps1 W (Proc.devRef .tc main_v20) = Cert.Spec.w0 (W (Proc.devRef .tc main_arg5)) := by
  simp only [hostOps1]
  after_results_simp
  rfl

/-- The first layer's bias, the first of the stack of three, laid as one row. -/
theorem host1_r1 (W : Valuation τ sig (Elt F)) :
    StableHlo.after hostOps1 W (Proc.devRef .tc main_v27) = Cert.Spec.row (Cert.Spec.b0 (W (Proc.devRef .tc main_arg6))) := by
  simp only [hostOps1]
  after_results_simp
  exact Cert.LibVecRow.shapeCast_vec_eq_broadcastInDim (a := 64) _ _ _

/-- The second layer's weight matrix is the first of the stack of three. -/
theorem host1_w2 (W : Valuation τ sig (Elt F)) :
    StableHlo.after hostOps1 W (Proc.devRef .tc main_v24) = Cert.Spec.w0 (W (Proc.devRef .tc main_arg7)) := by
  simp only [hostOps1]
  after_results_simp
  rfl

/-- The second layer's bias, the first of the stack of three, laid as one row. -/
theorem host1_r2 (W : Valuation τ sig (Elt F)) :
    StableHlo.after hostOps1 W (Proc.devRef .tc main_v28) = Cert.Spec.row (Cert.Spec.b0 (W (Proc.devRef .tc main_arg8))) := by
  simp only [hostOps1]
  after_results_simp
  exact Cert.LibVecRow.shapeCast_vec_eq_broadcastInDim (a := 64) _ _ _

end Cert.KernelIdeal.Hand

end
-- ==== Proof.KI.Host2.lean ====
import proofs.«155469_j90744069030458_1_alg».proof.Proof.Gen.KernelIdeal.Launch
import proofs.«155469_j90744069030458_1_alg».proof.Proof.Spec
import Idealize.ShloMosaic.Lib.StableHlo.Run
import proofs.«155469_j90744069030458_1_alg».proof.Proof.LibVecRow

noncomputable section

namespace Cert.KernelIdeal.Hand

open Idealize.ShloMosaic Cert.KernelIdeal Cert.KernelIdeal.Gen

variable {F : FTy → Type} [FloatOps F]

/-- The aggregate buffer holds one aggregation of the hidden array: along every edge the source node's row times the
    edge's weight, added into the target node's row. -/
theorem host2_agg (W : Valuation τ sig (Elt F)) :
    StableHlo.after hostOps2 W (Proc.devRef .tc main_v42)
      = Cert.Spec.agg (W (Proc.devRef .tc main_v29)) (W (Proc.devRef .tc main_v1)) (W (Proc.devRef .tc main_v3)) (W (Proc.devRef .tc main_arg2)) := by
  simp only [hostOps2]
  after_results_simp
  rfl

/-- The first layer's weight matrix is the first of the stack of three. -/
theorem host2_w1 (W : Valuation τ sig (Elt F)) :
    StableHlo.after hostOps2 W (Proc.devRef .tc main_v44) = Cert.Spec.w0 (W (Proc.devRef .tc main_arg5)) := by
  simp only [hostOps2]
  after_results_simp
  rfl

/-- The first layer's bias, the first of the stack of three, laid as one row. -/
theorem host2_r1 (W : Valuation τ sig (Elt F)) :
    StableHlo.after hostOps2 W (Proc.devRef .tc main_v51) = Cert.Spec.row (Cert.Spec.b0 (W (Proc.devRef .tc main_arg6))) := by
  simp only [hostOps2]
  after_results_simp
  exact Cert.LibVecRow.shapeCast_vec_eq_broadcastInDim (a := 64) _ _ _

/-- The second layer's weight matrix is the first of the stack of three. -/
theorem host2_w2 (W : Valuation τ sig (Elt F)) :
    StableHlo.after hostOps2 W (Proc.devRef .tc main_v48) = Cert.Spec.w0 (W (Proc.devRef .tc main_arg7)) := by
  simp only [hostOps2]
  after_results_simp
  rfl

/-- The second layer's bias, the first of the stack of three, laid as one row. -/
theorem host2_r2 (W : Valuation τ sig (Elt F)) :
    StableHlo.after hostOps2 W (Proc.devRef .tc main_v52) = Cert.Spec.row (Cert.Spec.b0 (W (Proc.devRef .tc main_arg8))) := by
  simp only [hostOps2]
  after_results_simp
  exact Cert.LibVecRow.shapeCast_vec_eq_broadcastInDim (a := 64) _ _ _

end Cert.KernelIdeal.Hand

end
-- ==== Proof.KI.Host3.lean ====
import proofs.«155469_j90744069030458_1_alg».proof.Proof.Gen.KernelIdeal.Launch
import proofs.«155469_j90744069030458_1_alg».proof.Proof.Spec
import Idealize.ShloMosaic.Lib.StableHlo.Run
import proofs.«155469_j90744069030458_1_alg».proof.Proof.LibVecRow

noncomputable section

namespace Cert.KernelIdeal.Hand

open Idealize.ShloMosaic Cert.KernelIdeal Cert.KernelIdeal.Gen

variable {F : FTy → Type} [FloatOps F]

/-- The aggregate buffer holds one aggregation of the hidden array: along every edge the source node's row times the
    edge's weight, added into the target node's row. -/
theorem host3_agg (W : Valuation τ sig (Elt F)) :
    StableHlo.after hostOps3 W (Proc.devRef .tc main_v66)
      = Cert.Spec.agg (W (Proc.devRef .tc main_v29)) (W (Proc.devRef .tc main_v1)) (W (Proc.devRef .tc main_v3)) (W (Proc.devRef .tc main_arg2)) := by
  simp only [hostOps3]
  after_results_simp
  rfl

/-- The first layer's weight matrix is the second of the stack of three. -/
theorem host3_w1 (W : Valuation τ sig (Elt F)) :
    StableHlo.after hostOps3 W (Proc.devRef .tc main_v68) = Cert.Spec.w1 (W (Proc.devRef .tc main_arg5)) := by
  simp only [hostOps3]
  after_results_simp
  rfl

/-- The first layer's bias, the second of the stack of three, laid as one row. -/
theorem host3_r1 (W : Valuation τ sig (Elt F)) :
    StableHlo.after hostOps3 W (Proc.devRef .tc main_v75) = Cert.Spec.row (Cert.Spec.b1 (W (Proc.devRef .tc main_arg6))) := by
  simp only [hostOps3]
  after_results_simp
  exact Cert.LibVecRow.shapeCast_vec_eq_broadcastInDim (a := 64) _ _ _

/-- The second layer's weight matrix is the second of the stack of three. -/
theorem host3_w2 (W : Valuation τ sig (Elt F)) :
    StableHlo.after hostOps3 W (Proc.devRef .tc main_v72) = Cert.Spec.w1 (W (Proc.devRef .tc main_arg7)) := by
  simp only [hostOps3]
  after_results_simp
  rfl

/-- The second layer's bias, the second of the stack of three, laid as one row. -/
theorem host3_r2 (W : Valuation τ sig (Elt F)) :
    StableHlo.after hostOps3 W (Proc.devRef .tc main_v76) = Cert.Spec.row (Cert.Spec.b1 (W (Proc.devRef .tc main_arg8))) := by
  simp only [hostOps3]
  after_results_simp
  exact Cert.LibVecRow.shapeCast_vec_eq_broadcastInDim (a := 64) _ _ _

end Cert.KernelIdeal.Hand

end
-- ==== Proof.KI.Host4.lean ====
import proofs.«155469_j90744069030458_1_alg».proof.Proof.Gen.KernelIdeal.Launch
import proofs.«155469_j90744069030458_1_alg».proof.Proof.Spec
import Idealize.ShloMosaic.Lib.StableHlo.Run
import proofs.«155469_j90744069030458_1_alg».proof.Proof.LibVecRow

noncomputable section

namespace Cert.KernelIdeal.Hand

open Idealize.ShloMosaic Cert.KernelIdeal Cert.KernelIdeal.Gen

variable {F : FTy → Type} [FloatOps F]

/-- The aggregate buffer holds one aggregation of the hidden array: along every edge the source node's row times the
    edge's weight, added into the target node's row. -/
theorem host4_agg (W : Valuation τ sig (Elt F)) :
    StableHlo.after hostOps4 W (Proc.devRef .tc main_v90)
      = Cert.Spec.agg (W (Proc.devRef .tc main_v77)) (W (Proc.devRef .tc main_v1)) (W (Proc.devRef .tc main_v3)) (W (Proc.devRef .tc main_arg2)) := by
  simp only [hostOps4]
  after_results_simp
  rfl

/-- The first layer's weight matrix is the second of the stack of three. -/
theorem host4_w1 (W : Valuation τ sig (Elt F)) :
    StableHlo.after hostOps4 W (Proc.devRef .tc main_v92) = Cert.Spec.w1 (W (Proc.devRef .tc main_arg5)) := by
  simp only [hostOps4]
  after_results_simp
  rfl

/-- The first layer's bias, the second of the stack of three, laid as one row. -/
theorem host4_r1 (W : Valuation τ sig (Elt F)) :
    StableHlo.after hostOps4 W (Proc.devRef .tc main_v99) = Cert.Spec.row (Cert.Spec.b1 (W (Proc.devRef .tc main_arg6))) := by
  simp only [hostOps4]
  after_results_simp
  exact Cert.LibVecRow.shapeCast_vec_eq_broadcastInDim (a := 64) _ _ _

/-- The second layer's weight matrix is the second of the stack of three. -/
theorem host4_w2 (W : Valuation τ sig (Elt F)) :
    StableHlo.after hostOps4 W (Proc.devRef .tc main_v96) = Cert.Spec.w1 (W (Proc.devRef .tc main_arg7)) := by
  simp only [hostOps4]
  after_results_simp
  rfl

/-- The second layer's bias, the second of the stack of three, laid as one row. -/
theorem host4_r2 (W : Valuation τ sig (Elt F)) :
    StableHlo.after hostOps4 W (Proc.devRef .tc main_v100) = Cert.Spec.row (Cert.Spec.b1 (W (Proc.devRef .tc main_arg8))) := by
  simp only [hostOps4]
  after_results_simp
  exact Cert.LibVecRow.shapeCast_vec_eq_broadcastInDim (a := 64) _ _ _

end Cert.KernelIdeal.Hand

end
-- ==== Proof.KI.Host5.lean ====
import proofs.«155469_j90744069030458_1_alg».proof.Proof.Gen.KernelIdeal.Launch
import proofs.«155469_j90744069030458_1_alg».proof.Proof.Spec
import Idealize.ShloMosaic.Lib.StableHlo.Run
import proofs.«155469_j90744069030458_1_alg».proof.Proof.LibVecRow

noncomputable section

namespace Cert.KernelIdeal.Hand

open Idealize.ShloMosaic Cert.KernelIdeal Cert.KernelIdeal.Gen

variable {F : FTy → Type} [FloatOps F]

/-- The aggregate buffer holds one aggregation of the hidden array: along every edge the source node's row times the
    edge's weight, added into the target node's row. -/
theorem host5_agg (W : Valuation τ sig (Elt F)) :
    StableHlo.after hostOps5 W (Proc.devRef .tc main_v114)
      = Cert.Spec.agg (W (Proc.devRef .tc main_v77)) (W (Proc.devRef .tc main_v1)) (W (Proc.devRef .tc main_v3)) (W (Proc.devRef .tc main_arg2)) := by
  simp only [hostOps5]
  after_results_simp
  rfl

/-- The first layer's weight matrix is the third of the stack of three. -/
theorem host5_w1 (W : Valuation τ sig (Elt F)) :
    StableHlo.after hostOps5 W (Proc.devRef .tc main_v116) = Cert.Spec.w2 (W (Proc.devRef .tc main_arg5)) := by
  simp only [hostOps5]
  after_results_simp
  rfl

/-- The first layer's bias, the third of the stack of three, laid as one row. -/
theorem host5_r1 (W : Valuation τ sig (Elt F)) :
    StableHlo.after hostOps5 W (Proc.devRef .tc main_v123) = Cert.Spec.row (Cert.Spec.b2 (W (Proc.devRef .tc main_arg6))) := by
  simp only [hostOps5]
  after_results_simp
  exact Cert.LibVecRow.shapeCast_vec_eq_broadcastInDim (a := 64) _ _ _

/-- The second layer's weight matrix is the third of the stack of three. -/
theorem host5_w2 (W : Valuation τ sig (Elt F)) :
    StableHlo.after hostOps5 W (Proc.devRef .tc main_v120) = Cert.Spec.w2 (W (Proc.devRef .tc main_arg7)) := by
  simp only [hostOps5]
  after_results_simp
  rfl

/-- The second layer's bias, the third of the stack of three, laid as one row. -/
theorem host5_r2 (W : Valuation τ sig (Elt F)) :
    StableHlo.after hostOps5 W (Proc.devRef .tc main_v124) = Cert.Spec.row (Cert.Spec.b2 (W (Proc.devRef .tc main_arg8))) := by
  simp only [hostOps5]
  after_results_simp
  exact Cert.LibVecRow.shapeCast_vec_eq_broadcastInDim (a := 64) _ _ _

end Cert.KernelIdeal.Hand

end
-- ==== Proof.KI.Host6.lean ====
import proofs.«155469_j90744069030458_1_alg».proof.Proof.Gen.KernelIdeal.Launch
import proofs.«155469_j90744069030458_1_alg».proof.Proof.Spec
import Idealize.ShloMosaic.Lib.StableHlo.Run
import proofs.«155469_j90744069030458_1_alg».proof.Proof.LibVecRow

noncomputable section

namespace Cert.KernelIdeal.Hand

open Idealize.ShloMosaic Cert.KernelIdeal Cert.KernelIdeal.Gen

variable {F : FTy → Type} [FloatOps F]

/-- The aggregate buffer holds one aggregation of the hidden array: along every edge the source node's row times the
    edge's weight, added into the target node's row. -/
theorem host6_agg (W : Valuation τ sig (Elt F)) :
    StableHlo.after hostOps6 W (Proc.devRef .tc main_v138)
      = Cert.Spec.agg (W (Proc.devRef .tc main_v125)) (W (Proc.devRef .tc main_v1)) (W (Proc.devRef .tc main_v3)) (W (Proc.devRef .tc main_arg2)) := by
  simp only [hostOps6]
  after_results_simp
  rfl

/-- The first layer's weight matrix is the third of the stack of three. -/
theorem host6_w1 (W : Valuation τ sig (Elt F)) :
    StableHlo.after hostOps6 W (Proc.devRef .tc main_v140) = Cert.Spec.w2 (W (Proc.devRef .tc main_arg5)) := by
  simp only [hostOps6]
  after_results_simp
  rfl

/-- The first layer's bias, the third of the stack of three, laid as one row. -/
theorem host6_r1 (W : Valuation τ sig (Elt F)) :
    StableHlo.after hostOps6 W (Proc.devRef .tc main_v147) = Cert.Spec.row (Cert.Spec.b2 (W (Proc.devRef .tc main_arg6))) := by
  simp only [hostOps6]
  after_results_simp
  exact Cert.LibVecRow.shapeCast_vec_eq_broadcastInDim (a := 64) _ _ _

/-- The second layer's weight matrix is the third of the stack of three. -/
theorem host6_w2 (W : Valuation τ sig (Elt F)) :
    StableHlo.after hostOps6 W (Proc.devRef .tc main_v144) = Cert.Spec.w2 (W (Proc.devRef .tc main_arg7)) := by
  simp only [hostOps6]
  after_results_simp
  rfl

/-- The second layer's bias, the third of the stack of three, laid as one row. -/
theorem host6_r2 (W : Valuation τ sig (Elt F)) :
    StableHlo.after hostOps6 W (Proc.devRef .tc main_v148) = Cert.Spec.row (Cert.Spec.b2 (W (Proc.devRef .tc main_arg8))) := by
  simp only [hostOps6]
  after_results_simp
  exact Cert.LibVecRow.shapeCast_vec_eq_broadcastInDim (a := 64) _ _ _

end Cert.KernelIdeal.Hand

end
-- ==== Proof.KI.Host7.lean ====
import proofs.«155469_j90744069030458_1_alg».proof.Proof.Gen.KernelIdeal.Launch
import proofs.«155469_j90744069030458_1_alg».proof.Proof.Spec
import Idealize.ShloMosaic.Lib.StableHlo.Run

noncomputable section

namespace Cert.KernelIdeal.Hand

open Idealize.ShloMosaic Cert.KernelIdeal Cert.KernelIdeal.Gen

variable {F : FTy → Type} [FloatOps F]

/-- The first result: the three recorded arrays stacked along a new leading axis. The three operands of the
    concatenation are read at their own buffers, each a broadcast written earlier in the stretch. -/
theorem host7_v153 (W : Valuation τ sig (Elt F)) :
    StableHlo.after hostOps7 W (Proc.devRef .tc main_v153)
      = Cert.Spec.stack3 (W (Proc.devRef .tc main_v53)) (W (Proc.devRef .tc main_v101)) (W (Proc.devRef .tc main_v149)) := by
  simp only [hostOps7]
  after_results_simp
  rfl

/-- The second result: the three successive hidden arrays stacked along a new leading axis. -/
theorem host7_v157 (W : Valuation τ sig (Elt F)) :
    StableHlo.after hostOps7 W (Proc.devRef .tc main_v157)
      = Cert.Spec.stack3 (W (Proc.devRef .tc main_v29)) (W (Proc.devRef .tc main_v77)) (W (Proc.devRef .tc main_v125)) := by
  simp only [hostOps7]
  after_results_simp
  rfl

end Cert.KernelIdeal.Hand

end
-- ==== Proof.KI.Value.lean ====
import proofs.«155469_j90744069030458_1_alg».proof.Proof.KI.Chain
import proofs.«155469_j90744069030458_1_alg».proof.Proof.KI.Val0
import proofs.«155469_j90744069030458_1_alg».proof.Proof.KI.Val1
import proofs.«155469_j90744069030458_1_alg».proof.Proof.KI.Val2
import proofs.«155469_j90744069030458_1_alg».proof.Proof.KI.Val3
import proofs.«155469_j90744069030458_1_alg».proof.Proof.KI.Val4
import proofs.«155469_j90744069030458_1_alg».proof.Proof.KI.Val5
import proofs.«155469_j90744069030458_1_alg».proof.Proof.KI.Val6
import proofs.«155469_j90744069030458_1_alg».proof.Proof.KI.Host0
import proofs.«155469_j90744069030458_1_alg».proof.Proof.KI.Host1
import proofs.«155469_j90744069030458_1_alg».proof.Proof.KI.Host2
import proofs.«155469_j90744069030458_1_alg».proof.Proof.KI.Host3
import proofs.«155469_j90744069030458_1_alg».proof.Proof.KI.Host4
import proofs.«155469_j90744069030458_1_alg».proof.Proof.KI.Host5
import proofs.«155469_j90744069030458_1_alg».proof.Proof.KI.Host6
import proofs.«155469_j90744069030458_1_alg».proof.Proof.KI.Host7
import proofs.«155469_j90744069030458_1_alg».proof.Proof.Spec

/-!
  What the kernel program's two results hold, as the specification's functions of the arguments.

  Along @main the buffers pass through fifteen items: a stretch of host operations, then seven times a kernel
  region followed by a stretch. Each hidden array is written once — h0 by region 0, h1 = h0 + mlp₀(agg h0) by
  region 1, c0 = mlp₀(agg h1) by region 2, h2, c1, h3, c2 by regions 3 … 6 — and nothing later writes it, so every
  later read of it walks back to the item that wrote it. A region's output is the specification's function of
  the arrays it was entered with; a stretch before a region prepares the aggregate of the current hidden array
  and the round's weights and bias rows. Composing these in order gives each hidden array, and the last stretch
  stacks them.
-/

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The contents of a buffer no item in between writes are those it had before: one step back per item, as far as
    the buffer is left alone. -/
local macro "walk " b:term : tactic => `(tactic| repeat (first
  | (rw [W15_of _ _ _ $b]; on_goal 2 => decide)
  | (rw [W14_of_ne _ _ _ $b]; on_goal 2 => decide)
  | (rw [W13_of _ _ _ $b]; on_goal 2 => decide)
  | (rw [W12_of_ne _ _ _ $b]; on_goal 2 => decide)
  | (rw [W11_of _ _ _ $b]; on_goal 2 => decide)
  | (rw [W10_of_ne _ _ _ $b]; on_goal 2 => decide)
  | (rw [W9_of _ _ _ $b]; on_goal 2 => decide)
  | (rw [W8_of_ne _ _ _ $b]; on_goal 2 => decide)
  | (rw [W7_of _ _ _ $b]; on_goal 2 => decide)
  | (rw [W6_of_ne _ _ _ $b]; on_goal 2 => decide)
  | (rw [W5_of _ _ _ $b]; on_goal 2 => decide)
  | (rw [W4_of_ne _ _ _ $b]; on_goal 2 => decide)
  | (rw [W3_of _ _ _ $b]; on_goal 2 => decide)
  | (rw [W2_of_ne _ _ _ $b]; on_goal 2 => decide)
  | (rw [W1_of _ _ _ $b]; on_goal 2 => decide)))

/-- The nine arguments as launched. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)

/-- An argument read at the launch valuation is the launch memory's. -/
theorem W0_arg (r : Ref sig .tc) : W0 m ρ c (Proc.devRef .tc r) = m ((c.tc : Thread nD τ).loc r) := rfl

/-! ## The first stretch: the edges' sources and targets, the input bias as a row -/

theorem src_eq : W1 m ρ c (Proc.devRef .tc main_v1) = Cert.Spec.src (a1 m c) := host0_v1 (W0 m ρ c)
theorem dst_eq : W1 m ρ c (Proc.devRef .tc main_v3) = Cert.Spec.dst (a1 m c) := host0_v3 (W0 m ρ c)
theorem row_eq : W1 m ρ c (Proc.devRef .tc main_v4) = Cert.Spec.row (a4 m c) := host0_v4 (W0 m ρ c)

/-! ## A region leaves its input arrays as it found them -/

/-- Region 3 reads h1 as its residual and leaves it. -/
theorem W8_resid : W8 m ρ c (Proc.devRef .tc main_v29) = W7 m ρ c (Proc.devRef .tc main_v29) :=
  (W8_arr m ρ c 5).trans (((dat3 (V7 m ρ) c).arrAt_in 5 rfl _).trans (A_eq3 (V7 m ρ) c 5))

/-- Region 5 reads h2 as its residual and leaves it. -/
theorem W12_resid : W12 m ρ c (Proc.devRef .tc main_v77) = W11 m ρ c (Proc.devRef .tc main_v77) :=
  (W12_arr m ρ c 5).trans (((dat5 (V11 m ρ) c).arrAt_in 5 rfl _).trans (A_eq5 (V11 m ρ) c 5))

/-! ## The hidden arrays, in the order they are written -/

/-- Region 0 leaves the input layer of the features. -/
theorem hid0 : W2 m ρ c (Proc.devRef .tc main_v5) = Cert.Spec.h0 (a0 m c) (a3 m c) (a4 m c) := by
  refine (W2_arr m ρ c 3).trans ((value0 (V1 m ρ) c).trans ?_)
  show Cert.Spec.lin (W1 m ρ c (Proc.devRef .tc main_arg0)) (W1 m ρ c (Proc.devRef .tc main_arg3)) (W1 m ρ c (Proc.devRef .tc main_v4)) = _
  rw [row_eq]
  walk main_arg0; walk main_arg3
  rfl

/-- Region 1 adds round 0's perceptron of the aggregate of h0 to h0. -/
theorem hid1 : W4 m ρ c (Proc.devRef .tc main_v29)
    = Cert.Spec.h1 (a0 m c) (a1 m c) (a2 m c) (a3 m c) (a4 m c) (a5 m c) (a6 m c) (a7 m c) (a8 m c) := by
  refine (W4_arr m ρ c 6).trans ((value1 (V3 m ρ) c).trans ?_)
  show addf (W3 m ρ c (Proc.devRef .tc main_v5)) (Cert.Spec.mlp (W3 m ρ c (Proc.devRef .tc main_v18)) (W3 m ρ c (Proc.devRef .tc main_v20))
    (W3 m ρ c (Proc.devRef .tc main_v27)) (W3 m ρ c (Proc.devRef .tc main_v24)) (W3 m ρ c (Proc.devRef .tc main_v28))) = _
  rw [show W3 m ρ c (Proc.devRef .tc main_v18) = _ from host1_agg (W2 m ρ c), show W3 m ρ c (Proc.devRef .tc main_v20) = _ from host1_w1 (W2 m ρ c),
    show W3 m ρ c (Proc.devRef .tc main_v27) = _ from host1_r1 (W2 m ρ c), show W3 m ρ c (Proc.devRef .tc main_v24) = _ from host1_w2 (W2 m ρ c),
    show W3 m ρ c (Proc.devRef .tc main_v28) = _ from host1_r2 (W2 m ρ c)]
  walk main_v5; walk main_v1; walk main_v3; walk main_arg2; walk main_arg5; walk main_arg6; walk main_arg7; walk main_arg8
  rw [hid0, src_eq, dst_eq]
  rfl

/-- Region 2 records round 0's perceptron of the aggregate of h1. -/
theorem rec0 : W6 m ρ c (Proc.devRef .tc main_v53)
    = Cert.Spec.conv0 (a1 m c) (a2 m c) (a5 m c) (a6 m c) (a7 m c) (a8 m c)
        (Cert.Spec.h1 (a0 m c) (a1 m c) (a2 m c) (a3 m c) (a4 m c) (a5 m c) (a6 m c) (a7 m c) (a8 m c)) := by
  refine (W6_arr m ρ c 5).trans ((value2 (V5 m ρ) c).trans ?_)
  show Cert.Spec.mlp (W5 m ρ c (Proc.devRef .tc main_v42)) (W5 m ρ c (Proc.devRef .tc main_v44))
    (W5 m ρ c (Proc.devRef .tc main_v51)) (W5 m ρ c (Proc.devRef .tc main_v48)) (W5 m ρ c (Proc.devRef .tc main_v52)) = _
  rw [show W5 m ρ c (Proc.devRef .tc main_v42) = _ from host2_agg (W4 m ρ c), show W5 m ρ c (Proc.devRef .tc main_v44) = _ from host2_w1 (W4 m ρ c),
    show W5 m ρ c (Proc.devRef .tc main_v51) = _ from host2_r1 (W4 m ρ c), show W5 m ρ c (Proc.devRef .tc main_v48) = _ from host2_w2 (W4 m ρ c),
    show W5 m ρ c (Proc.devRef .tc main_v52) = _ from host2_r2 (W4 m ρ c)]
  walk main_v1; walk main_v3; walk main_arg2; walk main_arg5; walk main_arg6; walk main_arg7; walk main_arg8
  rw [hid1, src_eq, dst_eq]
  rfl

set_option maxHeartbeats 2000000 in
/-- Region 3 adds round 1's perceptron of the aggregate of h1 to h1. -/
theorem hid2 : W8 m ρ c (Proc.devRef .tc main_v77)
    = Cert.Spec.h2 (a0 m c) (a1 m c) (a2 m c) (a3 m c) (a4 m c) (a5 m c) (a6 m c) (a7 m c) (a8 m c) := by
  refine (W8_arr m ρ c 6).trans ((value3 (V7 m ρ) c).trans ?_)
  show addf (W7 m ρ c (Proc.devRef .tc main_v29)) (Cert.Spec.mlp (W7 m ρ c (Proc.devRef .tc main_v66)) (W7 m ρ c (Proc.devRef .tc main_v68))
    (W7 m ρ c (Proc.devRef .tc main_v75)) (W7 m ρ c (Proc.devRef .tc main_v72)) (W7 m ρ c (Proc.devRef .tc main_v76))) = _
  rw [show W7 m ρ c (Proc.devRef .tc main_v66) = _ from host3_agg (W6 m ρ c), show W7 m ρ c (Proc.devRef .tc main_v68) = _ from host3_w1 (W6 m ρ c),
    show W7 m ρ c (Proc.devRef .tc main_v75) = _ from host3_r1 (W6 m ρ c), show W7 m ρ c (Proc.devRef .tc main_v72) = _ from host3_w2 (W6 m ρ c),
    show W7 m ρ c (Proc.devRef .tc main_v76) = _ from host3_r2 (W6 m ρ c)]
  walk main_v29; walk main_v1; walk main_v3; walk main_arg2; walk main_arg5; walk main_arg6; walk main_arg7; walk main_arg8
  rw [hid1, src_eq, dst_eq]
  rfl

set_option maxHeartbeats 2000000 in
/-- Region 4 records round 1's perceptron of the aggregate of h2. -/
theorem rec1 : W10 m ρ c (Proc.devRef .tc main_v101)
    = Cert.Spec.conv1 (a1 m c) (a2 m c) (a5 m c) (a6 m c) (a7 m c) (a8 m c)
        (Cert.Spec.h2 (a0 m c) (a1 m c) (a2 m c) (a3 m c) (a4 m c) (a5 m c) (a6 m c) (a7 m c) (a8 m c)) := by
  refine (W10_arr m ρ c 5).trans ((value4 (V9 m ρ) c).trans ?_)
  show Cert.Spec.mlp (W9 m ρ c (Proc.devRef .tc main_v90)) (W9 m ρ c (Proc.devRef .tc main_v92))
    (W9 m ρ c (Proc.devRef .tc main_v99)) (W9 m ρ c (Proc.devRef .tc main_v96)) (W9 m ρ c (Proc.devRef .tc main_v100)) = _
  rw [show W9 m ρ c (Proc.devRef .tc main_v90) = _ from host4_agg (W8 m ρ c), show W9 m ρ c (Proc.devRef .tc main_v92) = _ from host4_w1 (W8 m ρ c),
    show W9 m ρ c (Proc.devRef .tc main_v99) = _ from host4_r1 (W8 m ρ c), show W9 m ρ c (Proc.devRef .tc main_v96) = _ from host4_w2 (W8 m ρ c),
    show W9 m ρ c (Proc.devRef .tc main_v100) = _ from host4_r2 (W8 m ρ c)]
  walk main_v1; walk main_v3; walk main_arg2; walk main_arg5; walk main_arg6; walk main_arg7; walk main_arg8
  rw [hid2, src_eq, dst_eq]
  rfl

set_option maxHeartbeats 2000000 in
/-- Region 5 adds round 2's perceptron of the aggregate of h2 to h2. -/
theorem hid3 : W12 m ρ c (Proc.devRef .tc main_v125)
    = Cert.Spec.h3 (a0 m c) (a1 m c) (a2 m c) (a3 m c) (a4 m c) (a5 m c) (a6 m c) (a7 m c) (a8 m c) := by
  refine (W12_arr m ρ c 6).trans ((value5 (V11 m ρ) c).trans ?_)
  show addf (W11 m ρ c (Proc.devRef .tc main_v77)) (Cert.Spec.mlp (W11 m ρ c (Proc.devRef .tc main_v114)) (W11 m ρ c (Proc.devRef .tc main_v116))
    (W11 m ρ c (Proc.devRef .tc main_v123)) (W11 m ρ c (Proc.devRef .tc main_v120)) (W11 m ρ c (Proc.devRef .tc main_v124))) = _
  rw [show W11 m ρ c (Proc.devRef .tc main_v114) = _ from host5_agg (W10 m ρ c), show W11 m ρ c (Proc.devRef .tc main_v116) = _ from host5_w1 (W10 m ρ c),
    show W11 m ρ c (Proc.devRef .tc main_v123) = _ from host5_r1 (W10 m ρ c), show W11 m ρ c (Proc.devRef .tc main_v120) = _ from host5_w2 (W10 m ρ c),
    show W11 m ρ c (Proc.devRef .tc main_v124) = _ from host5_r2 (W10 m ρ c)]
  walk main_v77; walk main_v1; walk main_v3; walk main_arg2; walk main_arg5; walk main_arg6; walk main_arg7; walk main_arg8
  rw [hid2, src_eq, dst_eq]
  rfl

set_option maxHeartbeats 2000000 in
/-- Region 6 records round 2's perceptron of the aggregate of h3. -/
theorem rec2 : W14 m ρ c (Proc.devRef .tc main_v149)
    = Cert.Spec.conv2 (a1 m c) (a2 m c) (a5 m c) (a6 m c) (a7 m c) (a8 m c)
        (Cert.Spec.h3 (a0 m c) (a1 m c) (a2 m c) (a3 m c) (a4 m c) (a5 m c) (a6 m c) (a7 m c) (a8 m c)) := by
  refine (W14_arr m ρ c 5).trans ((value6 (V13 m ρ) c).trans ?_)
  show Cert.Spec.mlp (W13 m ρ c (Proc.devRef .tc main_v138)) (W13 m ρ c (Proc.devRef .tc main_v140))
    (W13 m ρ c (Proc.devRef .tc main_v147)) (W13 m ρ c (Proc.devRef .tc main_v144)) (W13 m ρ c (Proc.devRef .tc main_v148)) = _
  rw [show W13 m ρ c (Proc.devRef .tc main_v138) = _ from host6_agg (W12 m ρ c), show W13 m ρ c (Proc.devRef .tc main_v140) = _ from host6_w1 (W12 m ρ c),
    show W13 m ρ c (Proc.devRef .tc main_v147) = _ from host6_r1 (W12 m ρ c), show W13 m ρ c (Proc.devRef .tc main_v144) = _ from host6_w2 (W12 m ρ c),
    show W13 m ρ c (Proc.devRef .tc main_v148) = _ from host6_r2 (W12 m ρ c)]
  walk main_v1; walk main_v3; walk main_arg2; walk main_arg5; walk main_arg6; walk main_arg7; walk main_arg8
  rw [hid3, src_eq, dst_eq]
  rfl

/-! ## The results: the last stretch stacks the recorded arrays, and the hidden arrays -/

set_option maxHeartbeats 2000000 in
/-- The first result: the three recorded arrays stacked. -/
theorem result0 : W15 m ρ c (Proc.devRef .tc main_v153)
    = Cert.Spec.out0 (a0 m c) (a1 m c) (a2 m c) (a3 m c) (a4 m c) (a5 m c) (a6 m c) (a7 m c) (a8 m c) := by
  refine (host7_v153 (W14 m ρ c)).trans ?_
  walk main_v53; walk main_v101
  rw [rec0, rec1, rec2]
  rfl

set_option maxHeartbeats 2000000 in
/-- The second result: the three hidden arrays stacked. -/
theorem result1 : W15 m ρ c (Proc.devRef .tc main_v157)
    = Cert.Spec.out1 (a0 m c) (a1 m c) (a2 m c) (a3 m c) (a4 m c) (a5 m c) (a6 m c) (a7 m c) (a8 m c) := by
  refine (host7_v157 (W14 m ρ c)).trans ?_
  walk main_v29; rw [W8_resid]; walk main_v29
  walk main_v77; rw [W12_resid]; walk main_v77
  walk main_v125
  rw [hid1, hid2, hid3]
  rfl

end Cert.KernelIdeal.Hand

end
-- ==== Proof.Ref.Read.lean ====
import proofs.«155469_j90744069030458_1_alg».proof.Proof.Ref.Ops
import proofs.«155469_j90744069030458_1_alg».proof.Proof.Spec

/-!
  The reference's operations read back stretch by stretch, over any contents V of the buffers before the stretch: what
  each stretch leaves at the buffers later stretches read is a function of Spec.lean applied to what V holds at the
  buffers the stretch reads. The six aggregations are one function (Spec.agg) of the hidden array, the edge tables and
  the weights; the six perceptrons are Spec.mlp at the round's slices of the stacked weights and biases.
-/

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec (Arr)

variable {F : FTy → Type} [FloatOps F]

/-- The edge weights laid as a column [800000, 1]. -/
abbrev col (a : Arr F S800000 .f32) : Arr F S800000x1 .f32 := broadcastInDim S800000x1 ![0] bcast_S800000_S800000x1_0 a

/-- The prologue: the edges' source and target nodes, the weights as a column, and the input layer. -/
theorem readP {V V' : Valuation τ sig (Elt F)} (hV : after opsP V = V') (x : Arr F S50000x128 .f32) (e : Arr F S2x800000 .i32)
    (a : Arr F S800000 .f32) (W : Arr F S128x64 .f32) (b : Arr F S64 .f32)
    (h0 : (V (Proc.devRef .tc main_arg0)) = x) (h1 : (V (Proc.devRef .tc main_arg1)) = e) (h2 : (V (Proc.devRef .tc main_arg2)) = a)
    (h3 : (V (Proc.devRef .tc main_arg3)) = W) (h4 : (V (Proc.devRef .tc main_arg4)) = b) :
    V' (Proc.devRef .tc main_v1) = Spec.src e ∧ V' (Proc.devRef .tc main_v3) = Spec.dst e ∧ V' (Proc.devRef .tc main_v4) = col a
    ∧ V' (Proc.devRef .tc main_v8) = Spec.h0 x W b := by
  subst hV h0 h1 h2 h3 h4
  refine ⟨?_, ?_, ?_, ?_⟩ <;> (unfold opsP; after_results_simp) <;> rfl

/-- Stretch A0: the aggregate of the hidden array held at main_v8, left at main_v20. -/
theorem readA0 {V V' : Valuation τ sig (Elt F)} (hV : after opsA0 V = V') (h : Arr F S50000x64 .f32) (s d : Arr F S800000 .i32)
    (a : Arr F S800000 .f32) (hh : (V (Proc.devRef .tc main_v8)) = h) (hs : (V (Proc.devRef .tc main_v1)) = s) (hd : (V (Proc.devRef .tc main_v3)) = d)
    (ha : (V (Proc.devRef .tc main_v4)) = col a) :
    V' (Proc.devRef .tc main_v20) = Spec.agg h s d a := by
  subst hV hh hs hd
  unfold opsA0; after_results_simp
  rw [ha]; rfl

/-- Stretch M0: round 0's perceptron of the aggregate held at main_v20, left at main_v37, and its sum with the hidden array held at main_v8, left at main_v38. -/
theorem readM0 {V V' : Valuation τ sig (Elt F)} (hV : after opsM0 V = V') (g h : Arr F S50000x64 .f32)
    (W1 : Arr F S3x64x64 .f32) (B1 : Arr F S3x64 .f32) (W2 : Arr F S3x64x64 .f32) (B2 : Arr F S3x64 .f32)
    (hg : (V (Proc.devRef .tc main_v20)) = g) (hh : (V (Proc.devRef .tc main_v8)) = h) (h5 : (V (Proc.devRef .tc main_arg5)) = W1) (h6 : (V (Proc.devRef .tc main_arg6)) = B1)
    (h7 : (V (Proc.devRef .tc main_arg7)) = W2) (h8 : (V (Proc.devRef .tc main_arg8)) = B2) :
    V' (Proc.devRef .tc main_v37) = Spec.mlp g (Spec.w0 W1) (Spec.row (Spec.b0 B1)) (Spec.w0 W2) (Spec.row (Spec.b0 B2))
    ∧ V' (Proc.devRef .tc main_v38) = addf h (Spec.mlp g (Spec.w0 W1) (Spec.row (Spec.b0 B1)) (Spec.w0 W2) (Spec.row (Spec.b0 B2))) := by
  subst hV hg hh h5 h6 h7 h8
  refine ⟨?_, ?_⟩ <;> (unfold opsM0; after_results_simp) <;> (try simp only [TRef.toBuf, TRef.ofBuf, cast_eq, id]) <;> rfl

/-- Stretch A1: the aggregate of the hidden array held at main_v38, left at main_v50. -/
theorem readA1 {V V' : Valuation τ sig (Elt F)} (hV : after opsA1 V = V') (h : Arr F S50000x64 .f32) (s d : Arr F S800000 .i32)
    (a : Arr F S800000 .f32) (hh : (V (Proc.devRef .tc main_v38)) = h) (hs : (V (Proc.devRef .tc main_v1)) = s) (hd : (V (Proc.devRef .tc main_v3)) = d)
    (ha : (V (Proc.devRef .tc main_v4)) = col a) :
    V' (Proc.devRef .tc main_v50) = Spec.agg h s d a := by
  subst hV hh hs hd
  unfold opsA1; after_results_simp
  rw [ha]; rfl

/-- Stretch M1: round 0's perceptron of the aggregate held at main_v50, left at main_v67. -/
theorem readM1 {V V' : Valuation τ sig (Elt F)} (hV : after opsM1 V = V') (g : Arr F S50000x64 .f32)
    (W1 : Arr F S3x64x64 .f32) (B1 : Arr F S3x64 .f32) (W2 : Arr F S3x64x64 .f32) (B2 : Arr F S3x64 .f32)
    (hg : (V (Proc.devRef .tc main_v50)) = g) (h5 : (V (Proc.devRef .tc main_arg5)) = W1) (h6 : (V (Proc.devRef .tc main_arg6)) = B1)
    (h7 : (V (Proc.devRef .tc main_arg7)) = W2) (h8 : (V (Proc.devRef .tc main_arg8)) = B2) :
    V' (Proc.devRef .tc main_v67) = Spec.mlp g (Spec.w0 W1) (Spec.row (Spec.b0 B1)) (Spec.w0 W2) (Spec.row (Spec.b0 B2)) := by
  subst hV hg h5 h6 h7 h8
  (unfold opsM1; after_results_simp) <;> (try simp only [TRef.toBuf, TRef.ofBuf, cast_eq, id]) <;> rfl

/-- Stretch A2: the aggregate of the hidden array held at main_v38, left at main_v79. -/
theorem readA2 {V V' : Valuation τ sig (Elt F)} (hV : after opsA2 V = V') (h : Arr F S50000x64 .f32) (s d : Arr F S800000 .i32)
    (a : Arr F S800000 .f32) (hh : (V (Proc.devRef .tc main_v38)) = h) (hs : (V (Proc.devRef .tc main_v1)) = s) (hd : (V (Proc.devRef .tc main_v3)) = d)
    (ha : (V (Proc.devRef .tc main_v4)) = col a) :
    V' (Proc.devRef .tc main_v79) = Spec.agg h s d a := by
  subst hV hh hs hd
  unfold opsA2; after_results_simp
  rw [ha]; rfl

/-- Stretch M2: round 1's perceptron of the aggregate held at main_v79, left at main_v96, and its sum with the hidden array held at main_v38, left at main_v97. -/
theorem readM2 {V V' : Valuation τ sig (Elt F)} (hV : after opsM2 V = V') (g h : Arr F S50000x64 .f32)
    (W1 : Arr F S3x64x64 .f32) (B1 : Arr F S3x64 .f32) (W2 : Arr F S3x64x64 .f32) (B2 : Arr F S3x64 .f32)
    (hg : (V (Proc.devRef .tc main_v79)) = g) (hh : (V (Proc.devRef .tc main_v38)) = h) (h5 : (V (Proc.devRef .tc main_arg5)) = W1) (h6 : (V (Proc.devRef .tc main_arg6)) = B1)
    (h7 : (V (Proc.devRef .tc main_arg7)) = W2) (h8 : (V (Proc.devRef .tc main_arg8)) = B2) :
    V' (Proc.devRef .tc main_v96) = Spec.mlp g (Spec.w1 W1) (Spec.row (Spec.b1 B1)) (Spec.w1 W2) (Spec.row (Spec.b1 B2))
    ∧ V' (Proc.devRef .tc main_v97) = addf h (Spec.mlp g (Spec.w1 W1) (Spec.row (Spec.b1 B1)) (Spec.w1 W2) (Spec.row (Spec.b1 B2))) := by
  subst hV hg hh h5 h6 h7 h8
  refine ⟨?_, ?_⟩ <;> (unfold opsM2; after_results_simp) <;> (try simp only [TRef.toBuf, TRef.ofBuf, cast_eq, id]) <;> rfl

/-- Stretch A3: the aggregate of the hidden array held at main_v97, left at main_v109. -/
theorem readA3 {V V' : Valuation τ sig (Elt F)} (hV : after opsA3 V = V') (h : Arr F S50000x64 .f32) (s d : Arr F S800000 .i32)
    (a : Arr F S800000 .f32) (hh : (V (Proc.devRef .tc main_v97)) = h) (hs : (V (Proc.devRef .tc main_v1)) = s) (hd : (V (Proc.devRef .tc main_v3)) = d)
    (ha : (V (Proc.devRef .tc main_v4)) = col a) :
    V' (Proc.devRef .tc main_v109) = Spec.agg h s d a := by
  subst hV hh hs hd
  unfold opsA3; after_results_simp
  rw [ha]; rfl

/-- Stretch M3: round 1's perceptron of the aggregate held at main_v109, left at main_v126. -/
theorem readM3 {V V' : Valuation τ sig (Elt F)} (hV : after opsM3 V = V') (g : Arr F S50000x64 .f32)
    (W1 : Arr F S3x64x64 .f32) (B1 : Arr F S3x64 .f32) (W2 : Arr F S3x64x64 .f32) (B2 : Arr F S3x64 .f32)
    (hg : (V (Proc.devRef .tc main_v109)) = g) (h5 : (V (Proc.devRef .tc main_arg5)) = W1) (h6 : (V (Proc.devRef .tc main_arg6)) = B1)
    (h7 : (V (Proc.devRef .tc main_arg7)) = W2) (h8 : (V (Proc.devRef .tc main_arg8)) = B2) :
    V' (Proc.devRef .tc main_v126) = Spec.mlp g (Spec.w1 W1) (Spec.row (Spec.b1 B1)) (Spec.w1 W2) (Spec.row (Spec.b1 B2)) := by
  subst hV hg h5 h6 h7 h8
  (unfold opsM3; after_results_simp) <;> (try simp only [TRef.toBuf, TRef.ofBuf, cast_eq, id]) <;> rfl

/-- Stretch A4: the aggregate of the hidden array held at main_v97, left at main_v138. -/
theorem readA4 {V V' : Valuation τ sig (Elt F)} (hV : after opsA4 V = V') (h : Arr F S50000x64 .f32) (s d : Arr F S800000 .i32)
    (a : Arr F S800000 .f32) (hh : (V (Proc.devRef .tc main_v97)) = h) (hs : (V (Proc.devRef .tc main_v1)) = s) (hd : (V (Proc.devRef .tc main_v3)) = d)
    (ha : (V (Proc.devRef .tc main_v4)) = col a) :
    V' (Proc.devRef .tc main_v138) = Spec.agg h s d a := by
  subst hV hh hs hd
  unfold opsA4; after_results_simp
  rw [ha]; rfl

/-- Stretch M4: round 2's perceptron of the aggregate held at main_v138, left at main_v155, and its sum with the hidden array held at main_v97, left at main_v156. -/
theorem readM4 {V V' : Valuation τ sig (Elt F)} (hV : after opsM4 V = V') (g h : Arr F S50000x64 .f32)
    (W1 : Arr F S3x64x64 .f32) (B1 : Arr F S3x64 .f32) (W2 : Arr F S3x64x64 .f32) (B2 : Arr F S3x64 .f32)
    (hg : (V (Proc.devRef .tc main_v138)) = g) (hh : (V (Proc.devRef .tc main_v97)) = h) (h5 : (V (Proc.devRef .tc main_arg5)) = W1) (h6 : (V (Proc.devRef .tc main_arg6)) = B1)
    (h7 : (V (Proc.devRef .tc main_arg7)) = W2) (h8 : (V (Proc.devRef .tc main_arg8)) = B2) :
    V' (Proc.devRef .tc main_v155) = Spec.mlp g (Spec.w2 W1) (Spec.row (Spec.b2 B1)) (Spec.w2 W2) (Spec.row (Spec.b2 B2))
    ∧ V' (Proc.devRef .tc main_v156) = addf h (Spec.mlp g (Spec.w2 W1) (Spec.row (Spec.b2 B1)) (Spec.w2 W2) (Spec.row (Spec.b2 B2))) := by
  subst hV hg hh h5 h6 h7 h8
  refine ⟨?_, ?_⟩ <;> (unfold opsM4; after_results_simp) <;> (try simp only [TRef.toBuf, TRef.ofBuf, cast_eq, id]) <;> rfl

/-- Stretch A5: the aggregate of the hidden array held at main_v156, left at main_v168. -/
theorem readA5 {V V' : Valuation τ sig (Elt F)} (hV : after opsA5 V = V') (h : Arr F S50000x64 .f32) (s d : Arr F S800000 .i32)
    (a : Arr F S800000 .f32) (hh : (V (Proc.devRef .tc main_v156)) = h) (hs : (V (Proc.devRef .tc main_v1)) = s) (hd : (V (Proc.devRef .tc main_v3)) = d)
    (ha : (V (Proc.devRef .tc main_v4)) = col a) :
    V' (Proc.devRef .tc main_v168) = Spec.agg h s d a := by
  subst hV hh hs hd
  unfold opsA5; after_results_simp
  rw [ha]; rfl

/-- Stretch M5: round 2's perceptron of the aggregate held at main_v168, left at main_v185. -/
theorem readM5 {V V' : Valuation τ sig (Elt F)} (hV : after opsM5 V = V') (g : Arr F S50000x64 .f32)
    (W1 : Arr F S3x64x64 .f32) (B1 : Arr F S3x64 .f32) (W2 : Arr F S3x64x64 .f32) (B2 : Arr F S3x64 .f32)
    (hg : (V (Proc.devRef .tc main_v168)) = g) (h5 : (V (Proc.devRef .tc main_arg5)) = W1) (h6 : (V (Proc.devRef .tc main_arg6)) = B1)
    (h7 : (V (Proc.devRef .tc main_arg7)) = W2) (h8 : (V (Proc.devRef .tc main_arg8)) = B2) :
    V' (Proc.devRef .tc main_v185) = Spec.mlp g (Spec.w2 W1) (Spec.row (Spec.b2 B1)) (Spec.w2 W2) (Spec.row (Spec.b2 B2)) := by
  subst hV hg h5 h6 h7 h8
  (unfold opsM5; after_results_simp) <;> (try simp only [TRef.toBuf, TRef.ofBuf, cast_eq, id]) <;> rfl

/-- Stretch E0: the three recorded arrays, each under a new leading axis. -/
theorem readE0 {V V' : Valuation τ sig (Elt F)} (hV : after opsE0 V = V') (c0 c1 c2 : Arr F S50000x64 .f32)
    (h0 : (V (Proc.devRef .tc main_v67)) = c0) (h1 : (V (Proc.devRef .tc main_v126)) = c1) (h2 : (V (Proc.devRef .tc main_v185)) = c2) :
    V' (Proc.devRef .tc main_v186) = Spec.lift c0 ∧ V' (Proc.devRef .tc main_v187) = Spec.lift c1 ∧ V' (Proc.devRef .tc main_v188) = Spec.lift c2 := by
  subst hV h0 h1 h2
  refine ⟨?_, ?_, ?_⟩ <;> (unfold opsE0; after_results_simp) <;> rfl

/-- Stretch E1: the first result, the three lifted arrays stacked, and the three hidden arrays each under a new leading axis. -/
theorem readE1 {V V' : Valuation τ sig (Elt F)} (hV : after opsE1 V = V') (p q r : Arr F S1x50000x64 .f32) (h1 h2 h3 : Arr F S50000x64 .f32)
    (hp : (V (Proc.devRef .tc main_v186)) = p) (hq : (V (Proc.devRef .tc main_v187)) = q) (hr : (V (Proc.devRef .tc main_v188)) = r)
    (e1 : (V (Proc.devRef .tc main_v38)) = h1) (e2 : (V (Proc.devRef .tc main_v97)) = h2) (e3 : (V (Proc.devRef .tc main_v156)) = h3) :
    V' (Proc.devRef .tc main_v189) = concatenate S3x50000x64 0 [⟨S1x50000x64, p⟩, ⟨S1x50000x64, q⟩, ⟨S1x50000x64, r⟩]
        concatenates_S1x50000x64_S1x50000x64_S1x50000x64_S3x50000x64_d0
    ∧ V' (Proc.devRef .tc main_v190) = Spec.lift h1 ∧ V' (Proc.devRef .tc main_v191) = Spec.lift h2 ∧ V' (Proc.devRef .tc main_v192) = Spec.lift h3 := by
  subst hV hp hq hr e1 e2 e3
  refine ⟨?_, ?_, ?_, ?_⟩ <;> (unfold opsE1; after_results_simp) <;> rfl

/-- Stretch E2: the second result, the three lifted hidden arrays stacked. -/
theorem readE2 {V V' : Valuation τ sig (Elt F)} (hV : after opsE2 V = V') (p q r : Arr F S1x50000x64 .f32)
    (hp : (V (Proc.devRef .tc main_v190)) = p) (hq : (V (Proc.devRef .tc main_v191)) = q) (hr : (V (Proc.devRef .tc main_v192)) = r) :
    V' (Proc.devRef .tc main_v193) = concatenate S3x50000x64 0 [⟨S1x50000x64, p⟩, ⟨S1x50000x64, q⟩, ⟨S1x50000x64, r⟩]
        concatenates_S1x50000x64_S1x50000x64_S1x50000x64_S3x50000x64_d0 := by
  subst hV hp hq hr
  unfold opsE2; after_results_simp; rfl

end Cert.ReferenceIdeal.Hand

end
-- ==== Proof.Ref.Run.lean ====
import proofs.«155469_j90744069030458_1_alg».proof.Proof.Ref.Read
import Idealize.ShloMosaic.PureOps.Ideal

/-!
  The reference's run, read back to the specification. Stretch by stretch (Ref/Read.lean) the buffers come to hold
  Spec.lean's arrays: after the prologue the hidden array is h0; each round's first perceptron, added to the hidden
  array, gives the next hidden array (h1, h2, h3), and its second perceptron is the round's recorded array (conv0 of h1,
  conv1 of h2, conv2 of h3); the two results stack the three recorded arrays (out0) and the three hidden arrays (out1).
  No stretch writes an argument, the edges' source and target tables or the weights' column, so these are carried
  along unchanged (`Base`), and an array a later stretch reads is carried to it by the stretches' `*_keeps`.
-/

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec (Arr)

variable {F : FTy → Type} [FloatOps F]

section

variable (x : Arr F S50000x128 .f32) (e : Arr F S2x800000 .i32) (a : Arr F S800000 .f32) (W : Arr F S128x64 .f32)
  (b : Arr F S64 .f32) (W1 : Arr F S3x64x64 .f32) (B1 : Arr F S3x64 .f32) (W2 : Arr F S3x64x64 .f32) (B2 : Arr F S3x64 .f32)

/-- What no stretch after the prologue changes: the nine arguments, the edges' source and target nodes, and the edge
    weights laid as a column. -/
structure Base (V : Valuation τ sig (Elt F)) : Prop where
  a0 : V (Proc.devRef .tc main_arg0) = x
  a1 : V (Proc.devRef .tc main_arg1) = e
  a2 : V (Proc.devRef .tc main_arg2) = a
  a3 : V (Proc.devRef .tc main_arg3) = W
  a4 : V (Proc.devRef .tc main_arg4) = b
  a5 : V (Proc.devRef .tc main_arg5) = W1
  a6 : V (Proc.devRef .tc main_arg6) = B1
  a7 : V (Proc.devRef .tc main_arg7) = W2
  a8 : V (Proc.devRef .tc main_arg8) = B2
  s : V (Proc.devRef .tc main_v1) = Spec.src e
  d : V (Proc.devRef .tc main_v3) = Spec.dst e
  c : V (Proc.devRef .tc main_v4) = col a

/-- The references `Base` speaks of. -/
abbrev baseRefs : List (Ref sig .tc) :=
  [main_arg0, main_arg1, main_arg2, main_arg3, main_arg4, main_arg5, main_arg6, main_arg7, main_arg8, main_v1, main_v3, main_v4]

variable {x e a W b W1 B1 W2 B2}

/-- `Base` passes to any contents that agree on its references. -/
theorem Base.step {V V' : Valuation τ sig (Elt F)} (h : Base x e a W b W1 B1 W2 B2 V)
    (hk : ∀ r ∈ (baseRefs : List (Ref sig .tc)), V' (Proc.devRef .tc r) = V (Proc.devRef .tc r)) : Base x e a W b W1 B1 W2 B2 V' :=
  ⟨(hk main_arg0 (by decide)).trans h.a0,
   (hk main_arg1 (by decide)).trans h.a1,
   (hk main_arg2 (by decide)).trans h.a2,
   (hk main_arg3 (by decide)).trans h.a3,
   (hk main_arg4 (by decide)).trans h.a4,
   (hk main_arg5 (by decide)).trans h.a5,
   (hk main_arg6 (by decide)).trans h.a6,
   (hk main_arg7 (by decide)).trans h.a7,
   (hk main_arg8 (by decide)).trans h.a8,
   (hk main_v1 (by decide)).trans h.s, (hk main_v3 (by decide)).trans h.d, (hk main_v4 (by decide)).trans h.c⟩

/-- The whole line from contents V0 holding the nine arguments: the two results are the specification's, the arguments unchanged. -/
theorem read_of (V0 : Valuation τ sig (Elt F))
    (hx : V0 (Proc.devRef .tc main_arg0) = x)
    (he : V0 (Proc.devRef .tc main_arg1) = e)
    (ha : V0 (Proc.devRef .tc main_arg2) = a)
    (hW : V0 (Proc.devRef .tc main_arg3) = W)
    (hb : V0 (Proc.devRef .tc main_arg4) = b)
    (hW1 : V0 (Proc.devRef .tc main_arg5) = W1)
    (hB1 : V0 (Proc.devRef .tc main_arg6) = B1)
    (hW2 : V0 (Proc.devRef .tc main_arg7) = W2)
    (hB2 : V0 (Proc.devRef .tc main_arg8) = B2) :
    after ops V0 (Proc.devRef .tc main_v189) = Spec.out0 x e a W b W1 B1 W2 B2
    ∧ after ops V0 (Proc.devRef .tc main_v193) = Spec.out1 x e a W b W1 B1 W2 B2
    ∧ after ops V0 (Proc.devRef .tc main_arg0) = x
    ∧ after ops V0 (Proc.devRef .tc main_arg1) = e
    ∧ after ops V0 (Proc.devRef .tc main_arg2) = a
    ∧ after ops V0 (Proc.devRef .tc main_arg3) = W
    ∧ after ops V0 (Proc.devRef .tc main_arg4) = b
    ∧ after ops V0 (Proc.devRef .tc main_arg5) = W1
    ∧ after ops V0 (Proc.devRef .tc main_arg6) = B1
    ∧ after ops V0 (Proc.devRef .tc main_arg7) = W2
    ∧ after ops V0 (Proc.devRef .tc main_arg8) = B2 := by
  rw [after_ops]
  generalize hP : after opsP V0 = VP
  generalize hA0 : after opsA0 VP = VA0
  generalize hM0 : after opsM0 VA0 = VM0
  generalize hA1 : after opsA1 VM0 = VA1
  generalize hM1 : after opsM1 VA1 = VM1
  generalize hA2 : after opsA2 VM1 = VA2
  generalize hM2 : after opsM2 VA2 = VM2
  generalize hA3 : after opsA3 VM2 = VA3
  generalize hM3 : after opsM3 VA3 = VM3
  generalize hA4 : after opsA4 VM3 = VA4
  generalize hM4 : after opsM4 VA4 = VM4
  generalize hA5 : after opsA5 VM4 = VA5
  generalize hM5 : after opsM5 VA5 = VM5
  generalize hE0 : after opsE0 VM5 = VE0
  generalize hE1 : after opsE1 VE0 = VE1
  generalize hE2 : after opsE2 VE1 = VE2
  obtain ⟨p1, p3, p4, p8⟩ := readP hP x e a W b hx he ha hW hb
  have bP : Base x e a W b W1 B1 W2 B2 VP :=
    ⟨(opsP_keeps hP main_arg0 (by decide)).trans hx,
     (opsP_keeps hP main_arg1 (by decide)).trans he,
     (opsP_keeps hP main_arg2 (by decide)).trans ha,
     (opsP_keeps hP main_arg3 (by decide)).trans hW,
     (opsP_keeps hP main_arg4 (by decide)).trans hb,
     (opsP_keeps hP main_arg5 (by decide)).trans hW1,
     (opsP_keeps hP main_arg6 (by decide)).trans hB1,
     (opsP_keeps hP main_arg7 (by decide)).trans hW2,
     (opsP_keeps hP main_arg8 (by decide)).trans hB2,
     p1, p3, p4⟩
  -- aggregate 0
  have g0 : VA0 (Proc.devRef .tc main_v20) = Spec.agg (Spec.h0 x W b) (Spec.src e) (Spec.dst e) a :=
    readA0 hA0 _ _ _ _ p8 bP.s bP.d bP.c
  have k8_A0 : VA0 (Proc.devRef .tc main_v8) = Spec.h0 x W b := (opsA0_keeps hA0 main_v8 (by decide)).trans p8
  have bA0 : Base x e a W b W1 B1 W2 B2 VA0 := bP.step (fun r hr => opsA0_keeps hA0 r ((by decide : ∀ r ∈ baseRefs, r ∉ opsA0_W) r hr))
  -- perceptron 0
  have e0 : VM0 (Proc.devRef .tc main_v38) = Spec.h1 x e a W b W1 B1 W2 B2 :=
    (readM0 hM0 _ _ _ _ _ _ g0 k8_A0 bA0.a5 bA0.a6 bA0.a7 bA0.a8).2
  have k8_M0 : VM0 (Proc.devRef .tc main_v8) = Spec.h0 x W b := (opsM0_keeps hM0 main_v8 (by decide)).trans k8_A0
  have bM0 : Base x e a W b W1 B1 W2 B2 VM0 := bA0.step (fun r hr => opsM0_keeps hM0 r ((by decide : ∀ r ∈ baseRefs, r ∉ opsM0_W) r hr))
  -- aggregate 1
  have g1 : VA1 (Proc.devRef .tc main_v50) = Spec.agg (Spec.h1 x e a W b W1 B1 W2 B2) (Spec.src e) (Spec.dst e) a :=
    readA1 hA1 _ _ _ _ e0 bM0.s bM0.d bM0.c
  have k38_A1 : VA1 (Proc.devRef .tc main_v38) = Spec.h1 x e a W b W1 B1 W2 B2 := (opsA1_keeps hA1 main_v38 (by decide)).trans e0
  have bA1 : Base x e a W b W1 B1 W2 B2 VA1 := bM0.step (fun r hr => opsA1_keeps hA1 r ((by decide : ∀ r ∈ baseRefs, r ∉ opsA1_W) r hr))
  -- perceptron 1
  have e1 : VM1 (Proc.devRef .tc main_v67) = Spec.conv0 e a W1 B1 W2 B2 (Spec.h1 x e a W b W1 B1 W2 B2) :=
    readM1 hM1 _ _ _ _ _ g1 bA1.a5 bA1.a6 bA1.a7 bA1.a8
  have k38_M1 : VM1 (Proc.devRef .tc main_v38) = Spec.h1 x e a W b W1 B1 W2 B2 := (opsM1_keeps hM1 main_v38 (by decide)).trans k38_A1
  have bM1 : Base x e a W b W1 B1 W2 B2 VM1 := bA1.step (fun r hr => opsM1_keeps hM1 r ((by decide : ∀ r ∈ baseRefs, r ∉ opsM1_W) r hr))
  -- aggregate 2
  have g2 : VA2 (Proc.devRef .tc main_v79) = Spec.agg (Spec.h1 x e a W b W1 B1 W2 B2) (Spec.src e) (Spec.dst e) a :=
    readA2 hA2 _ _ _ _ k38_M1 bM1.s bM1.d bM1.c
  have k38_A2 : VA2 (Proc.devRef .tc main_v38) = Spec.h1 x e a W b W1 B1 W2 B2 := (opsA2_keeps hA2 main_v38 (by decide)).trans k38_M1
  have k67_A2 : VA2 (Proc.devRef .tc main_v67) = Spec.conv0 e a W1 B1 W2 B2 (Spec.h1 x e a W b W1 B1 W2 B2) := (opsA2_keeps hA2 main_v67 (by decide)).trans e1
  have bA2 : Base x e a W b W1 B1 W2 B2 VA2 := bM1.step (fun r hr => opsA2_keeps hA2 r ((by decide : ∀ r ∈ baseRefs, r ∉ opsA2_W) r hr))
  -- perceptron 2
  have e2 : VM2 (Proc.devRef .tc main_v97) = Spec.h2 x e a W b W1 B1 W2 B2 :=
    (readM2 hM2 _ _ _ _ _ _ g2 k38_A2 bA2.a5 bA2.a6 bA2.a7 bA2.a8).2
  have k38_M2 : VM2 (Proc.devRef .tc main_v38) = Spec.h1 x e a W b W1 B1 W2 B2 := (opsM2_keeps hM2 main_v38 (by decide)).trans k38_A2
  have k67_M2 : VM2 (Proc.devRef .tc main_v67) = Spec.conv0 e a W1 B1 W2 B2 (Spec.h1 x e a W b W1 B1 W2 B2) := (opsM2_keeps hM2 main_v67 (by decide)).trans k67_A2
  have bM2 : Base x e a W b W1 B1 W2 B2 VM2 := bA2.step (fun r hr => opsM2_keeps hM2 r ((by decide : ∀ r ∈ baseRefs, r ∉ opsM2_W) r hr))
  -- aggregate 3
  have g3 : VA3 (Proc.devRef .tc main_v109) = Spec.agg (Spec.h2 x e a W b W1 B1 W2 B2) (Spec.src e) (Spec.dst e) a :=
    readA3 hA3 _ _ _ _ e2 bM2.s bM2.d bM2.c
  have k38_A3 : VA3 (Proc.devRef .tc main_v38) = Spec.h1 x e a W b W1 B1 W2 B2 := (opsA3_keeps hA3 main_v38 (by decide)).trans k38_M2
  have k67_A3 : VA3 (Proc.devRef .tc main_v67) = Spec.conv0 e a W1 B1 W2 B2 (Spec.h1 x e a W b W1 B1 W2 B2) := (opsA3_keeps hA3 main_v67 (by decide)).trans k67_M2
  have k97_A3 : VA3 (Proc.devRef .tc main_v97) = Spec.h2 x e a W b W1 B1 W2 B2 := (opsA3_keeps hA3 main_v97 (by decide)).trans e2
  have bA3 : Base x e a W b W1 B1 W2 B2 VA3 := bM2.step (fun r hr => opsA3_keeps hA3 r ((by decide : ∀ r ∈ baseRefs, r ∉ opsA3_W) r hr))
  -- perceptron 3
  have e3 : VM3 (Proc.devRef .tc main_v126) = Spec.conv1 e a W1 B1 W2 B2 (Spec.h2 x e a W b W1 B1 W2 B2) :=
    readM3 hM3 _ _ _ _ _ g3 bA3.a5 bA3.a6 bA3.a7 bA3.a8
  have k38_M3 : VM3 (Proc.devRef .tc main_v38) = Spec.h1 x e a W b W1 B1 W2 B2 := (opsM3_keeps hM3 main_v38 (by decide)).trans k38_A3
  have k67_M3 : VM3 (Proc.devRef .tc main_v67) = Spec.conv0 e a W1 B1 W2 B2 (Spec.h1 x e a W b W1 B1 W2 B2) := (opsM3_keeps hM3 main_v67 (by decide)).trans k67_A3
  have k97_M3 : VM3 (Proc.devRef .tc main_v97) = Spec.h2 x e a W b W1 B1 W2 B2 := (opsM3_keeps hM3 main_v97 (by decide)).trans k97_A3
  have bM3 : Base x e a W b W1 B1 W2 B2 VM3 := bA3.step (fun r hr => opsM3_keeps hM3 r ((by decide : ∀ r ∈ baseRefs, r ∉ opsM3_W) r hr))
  -- aggregate 4
  have g4 : VA4 (Proc.devRef .tc main_v138) = Spec.agg (Spec.h2 x e a W b W1 B1 W2 B2) (Spec.src e) (Spec.dst e) a :=
    readA4 hA4 _ _ _ _ k97_M3 bM3.s bM3.d bM3.c
  have k38_A4 : VA4 (Proc.devRef .tc main_v38) = Spec.h1 x e a W b W1 B1 W2 B2 := (opsA4_keeps hA4 main_v38 (by decide)).trans k38_M3
  have k67_A4 : VA4 (Proc.devRef .tc main_v67) = Spec.conv0 e a W1 B1 W2 B2 (Spec.h1 x e a W b W1 B1 W2 B2) := (opsA4_keeps hA4 main_v67 (by decide)).trans k67_M3
  have k97_A4 : VA4 (Proc.devRef .tc main_v97) = Spec.h2 x e a W b W1 B1 W2 B2 := (opsA4_keeps hA4 main_v97 (by decide)).trans k97_M3
  have k126_A4 : VA4 (Proc.devRef .tc main_v126) = Spec.conv1 e a W1 B1 W2 B2 (Spec.h2 x e a W b W1 B1 W2 B2) := (opsA4_keeps hA4 main_v126 (by decide)).trans e3
  have bA4 : Base x e a W b W1 B1 W2 B2 VA4 := bM3.step (fun r hr => opsA4_keeps hA4 r ((by decide : ∀ r ∈ baseRefs, r ∉ opsA4_W) r hr))
  -- perceptron 4
  have e4 : VM4 (Proc.devRef .tc main_v156) = Spec.h3 x e a W b W1 B1 W2 B2 :=
    (readM4 hM4 _ _ _ _ _ _ g4 k97_A4 bA4.a5 bA4.a6 bA4.a7 bA4.a8).2
  have k38_M4 : VM4 (Proc.devRef .tc main_v38) = Spec.h1 x e a W b W1 B1 W2 B2 := (opsM4_keeps hM4 main_v38 (by decide)).trans k38_A4
  have k67_M4 : VM4 (Proc.devRef .tc main_v67) = Spec.conv0 e a W1 B1 W2 B2 (Spec.h1 x e a W b W1 B1 W2 B2) := (opsM4_keeps hM4 main_v67 (by decide)).trans k67_A4
  have k97_M4 : VM4 (Proc.devRef .tc main_v97) = Spec.h2 x e a W b W1 B1 W2 B2 := (opsM4_keeps hM4 main_v97 (by decide)).trans k97_A4
  have k126_M4 : VM4 (Proc.devRef .tc main_v126) = Spec.conv1 e a W1 B1 W2 B2 (Spec.h2 x e a W b W1 B1 W2 B2) := (opsM4_keeps hM4 main_v126 (by decide)).trans k126_A4
  have bM4 : Base x e a W b W1 B1 W2 B2 VM4 := bA4.step (fun r hr => opsM4_keeps hM4 r ((by decide : ∀ r ∈ baseRefs, r ∉ opsM4_W) r hr))
  -- aggregate 5
  have g5 : VA5 (Proc.devRef .tc main_v168) = Spec.agg (Spec.h3 x e a W b W1 B1 W2 B2) (Spec.src e) (Spec.dst e) a :=
    readA5 hA5 _ _ _ _ e4 bM4.s bM4.d bM4.c
  have k38_A5 : VA5 (Proc.devRef .tc main_v38) = Spec.h1 x e a W b W1 B1 W2 B2 := (opsA5_keeps hA5 main_v38 (by decide)).trans k38_M4
  have k67_A5 : VA5 (Proc.devRef .tc main_v67) = Spec.conv0 e a W1 B1 W2 B2 (Spec.h1 x e a W b W1 B1 W2 B2) := (opsA5_keeps hA5 main_v67 (by decide)).trans k67_M4
  have k97_A5 : VA5 (Proc.devRef .tc main_v97) = Spec.h2 x e a W b W1 B1 W2 B2 := (opsA5_keeps hA5 main_v97 (by decide)).trans k97_M4
  have k126_A5 : VA5 (Proc.devRef .tc main_v126) = Spec.conv1 e a W1 B1 W2 B2 (Spec.h2 x e a W b W1 B1 W2 B2) := (opsA5_keeps hA5 main_v126 (by decide)).trans k126_M4
  have k156_A5 : VA5 (Proc.devRef .tc main_v156) = Spec.h3 x e a W b W1 B1 W2 B2 := (opsA5_keeps hA5 main_v156 (by decide)).trans e4
  have bA5 : Base x e a W b W1 B1 W2 B2 VA5 := bM4.step (fun r hr => opsA5_keeps hA5 r ((by decide : ∀ r ∈ baseRefs, r ∉ opsA5_W) r hr))
  -- perceptron 5
  have e5 : VM5 (Proc.devRef .tc main_v185) = Spec.conv2 e a W1 B1 W2 B2 (Spec.h3 x e a W b W1 B1 W2 B2) :=
    readM5 hM5 _ _ _ _ _ g5 bA5.a5 bA5.a6 bA5.a7 bA5.a8
  have k38_M5 : VM5 (Proc.devRef .tc main_v38) = Spec.h1 x e a W b W1 B1 W2 B2 := (opsM5_keeps hM5 main_v38 (by decide)).trans k38_A5
  have k67_M5 : VM5 (Proc.devRef .tc main_v67) = Spec.conv0 e a W1 B1 W2 B2 (Spec.h1 x e a W b W1 B1 W2 B2) := (opsM5_keeps hM5 main_v67 (by decide)).trans k67_A5
  have k97_M5 : VM5 (Proc.devRef .tc main_v97) = Spec.h2 x e a W b W1 B1 W2 B2 := (opsM5_keeps hM5 main_v97 (by decide)).trans k97_A5
  have k126_M5 : VM5 (Proc.devRef .tc main_v126) = Spec.conv1 e a W1 B1 W2 B2 (Spec.h2 x e a W b W1 B1 W2 B2) := (opsM5_keeps hM5 main_v126 (by decide)).trans k126_A5
  have k156_M5 : VM5 (Proc.devRef .tc main_v156) = Spec.h3 x e a W b W1 B1 W2 B2 := (opsM5_keeps hM5 main_v156 (by decide)).trans k156_A5
  have bM5 : Base x e a W b W1 B1 W2 B2 VM5 := bA5.step (fun r hr => opsM5_keeps hM5 r ((by decide : ∀ r ∈ baseRefs, r ∉ opsM5_W) r hr))
  -- the results
  obtain ⟨l0, l1, l2⟩ := readE0 hE0 _ _ _ k67_M5 k126_M5 e5
  have k38_E0 : VE0 (Proc.devRef .tc main_v38) = Spec.h1 x e a W b W1 B1 W2 B2 := (opsE0_keeps hE0 main_v38 (by decide)).trans k38_M5
  have k97_E0 : VE0 (Proc.devRef .tc main_v97) = Spec.h2 x e a W b W1 B1 W2 B2 := (opsE0_keeps hE0 main_v97 (by decide)).trans k97_M5
  have k156_E0 : VE0 (Proc.devRef .tc main_v156) = Spec.h3 x e a W b W1 B1 W2 B2 := (opsE0_keeps hE0 main_v156 (by decide)).trans k156_M5
  have bE0 : Base x e a W b W1 B1 W2 B2 VE0 := bM5.step (fun r hr => opsE0_keeps hE0 r ((by decide : ∀ r ∈ baseRefs, r ∉ opsE0_W) r hr))
  obtain ⟨o0, m1, m2, m3⟩ := readE1 hE1 _ _ _ _ _ _ l0 l1 l2 k38_E0 k97_E0 k156_E0
  have o0 : VE1 (Proc.devRef .tc main_v189) = Spec.out0 x e a W b W1 B1 W2 B2 := o0
  have bE1 : Base x e a W b W1 B1 W2 B2 VE1 := bE0.step (fun r hr => opsE1_keeps hE1 r ((by decide : ∀ r ∈ baseRefs, r ∉ opsE1_W) r hr))
  have o1 : VE2 (Proc.devRef .tc main_v193) = Spec.out1 x e a W b W1 B1 W2 B2 := readE2 hE2 _ _ _ m1 m2 m3
  have o0 : VE2 (Proc.devRef .tc main_v189) = Spec.out0 x e a W b W1 B1 W2 B2 := (opsE2_keeps hE2 main_v189 (by decide)).trans o0
  have bE2 : Base x e a W b W1 B1 W2 B2 VE2 := bE1.step (fun r hr => opsE2_keeps hE2 r ((by decide : ∀ r ∈ baseRefs, r ∉ opsE2_W) r hr))
  exact ⟨o0, o1, bE2.a0, bE2.a1, bE2.a2, bE2.a3, bE2.a4, bE2.a5, bE2.a6, bE2.a7, bE2.a8⟩

end

/-- The whole line from any contents: the results are the specification's of what the arguments held, the arguments unchanged. -/
theorem read (V0 : Valuation τ sig (Elt F)) :
    after ops V0 (Proc.devRef .tc main_v189) = Spec.out0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
    ∧ after ops V0 (Proc.devRef .tc main_v193) = Spec.out1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
    ∧ after ops V0 (Proc.devRef .tc main_arg0) = V0 (Proc.devRef .tc main_arg0)
    ∧ after ops V0 (Proc.devRef .tc main_arg1) = V0 (Proc.devRef .tc main_arg1)
    ∧ after ops V0 (Proc.devRef .tc main_arg2) = V0 (Proc.devRef .tc main_arg2)
    ∧ after ops V0 (Proc.devRef .tc main_arg3) = V0 (Proc.devRef .tc main_arg3)
    ∧ after ops V0 (Proc.devRef .tc main_arg4) = V0 (Proc.devRef .tc main_arg4)
    ∧ after ops V0 (Proc.devRef .tc main_arg5) = V0 (Proc.devRef .tc main_arg5)
    ∧ after ops V0 (Proc.devRef .tc main_arg6) = V0 (Proc.devRef .tc main_arg6)
    ∧ after ops V0 (Proc.devRef .tc main_arg7) = V0 (Proc.devRef .tc main_arg7)
    ∧ after ops V0 (Proc.devRef .tc main_arg8) = V0 (Proc.devRef .tc main_arg8) :=
  read_of V0 rfl rfl rfl rfl rfl rfl rfl rfl rfl

/-- On every device, for any float values, from any memory with zero counters: every weakly fair execution of the
    reference's @main terminates with the two results at the specification's arrays of the arguments' launch
    contents, the arguments unchanged. -/
theorem run_gen (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v189) = Spec.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v193) = Spec.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
      have R := read (F := F) (launchContents m c)
      exact ⟨(h c main_v189).trans R.1, (h c main_v193).trans R.2.1,
        (h c main_arg0).trans R.2.2.1,
        (h c main_arg1).trans R.2.2.2.1,
        (h c main_arg2).trans R.2.2.2.2.1,
        (h c main_arg3).trans R.2.2.2.2.2.1,
        (h c main_arg4).trans R.2.2.2.2.2.2.1,
        (h c main_arg5).trans R.2.2.2.2.2.2.2.1,
        (h c main_arg6).trans R.2.2.2.2.2.2.2.2.1,
        (h c main_arg7).trans R.2.2.2.2.2.2.2.2.2.1,
        (h c main_arg8).trans R.2.2.2.2.2.2.2.2.2.2⟩)
    (run_seq scopedRefs_eq scopedSems_eq defs main (fun _ => ops) main_eq (fun _ => ops_sub) m ρ (fun _ => ops_fresh))

/-- `run_gen` at the ideal instance. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v189) = Spec.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v193) = Spec.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  run_gen (F := Ideal) m ρ

end Cert.ReferenceIdeal.Hand

end
-- ==== Proof.lean ====
/-
  The kernel — a graph network's forward pass, its dense stages (the input projection and six two-layer
  perceptrons, three of them with a residual) as TensorCore kernels over ten row tiles, its edge aggregation
  (gather a row per edge, scale by the edge's weight, add into the target node's row) as host operations — against
  the plain reference that computes the same chain with whole-array products.

  At the extended reals the two programs compute one function of the arguments (Proof/Spec.lean): a row tile's
  product into a zero accumulator is, row by row, the whole array's product; the bias rows agree entry by entry; the
  kernel adds the residual block to the perceptron where the reference adds the perceptron to the hidden array
  (commutativity of +, no finiteness used); the aggregations are literally the same host operations; and the casts to
  a shorter float format on the way into each product are the identity there.

  The kernel program's run — every region's launch, body and write-back, the host stretches in between — gives the
  three frame claims and names the two result buffers (Proof/KI/Run.lean, Proof/K/Run.lean); the regions' outputs and
  the stretches' results compose to the specification (Proof/KI/Value.lean); the reference's run is read back to the
  same specification (Proof/Ref). The idealization rewrote nothing, so the preservation claim has no conjunct.
-/
import proofs.«155469_j90744069030458_1_alg».proof.Defs
import proofs.«155469_j90744069030458_1_alg».proof.Proof.Gen.Kernel
import proofs.«155469_j90744069030458_1_alg».proof.Proof.Gen.KernelIdeal
import proofs.«155469_j90744069030458_1_alg».proof.Proof.Gen.ReferenceIdeal
import proofs.«155469_j90744069030458_1_alg».proof.Proof.Gen.Pre_finite_inputs
import proofs.«155469_j90744069030458_1_alg».proof.Proof.K.Run
import proofs.«155469_j90744069030458_1_alg».proof.Proof.KI.Run
import proofs.«155469_j90744069030458_1_alg».proof.Proof.KI.Value
import proofs.«155469_j90744069030458_1_alg».proof.Proof.Ref.Run
import Idealize.ShloMosaic.Adequacy
import Idealize.ShloMosaic.Init

noncomputable section

namespace Cert.Proof

open Idealize.ShloMosaic Idealize.SL.Sem

/-- The word-level kernel runs and leaves its arguments as launched: its run with the results named, the results dropped. -/
theorem frame_k : Cert.frame_Kernel := fun m ρ _ =>
  (θ_run Cert.Kernel.defs _ _).mono (fun _ h c => (h c).2.2) (Cert.Kernel.Hand.run_named (F := Bits) m ρ)

/-- The same for the idealized kernel. -/
theorem frame_ki : Cert.frame_KernelIdeal := fun m ρ _ =>
  (θ_run Cert.KernelIdeal.defs _ _).mono (fun _ h c => (h c).2.2) (Cert.KernelIdeal.Hand.run_named (F := Ideal) m ρ)

/-- The reference runs and leaves its arguments as launched: its run read back, the results dropped. -/
theorem frame_ri : Cert.frame_ReferenceIdeal := fun m ρ _ =>
  (θ_run Cert.ReferenceIdeal.defs _ _).mono (fun _ h c => (h c).2.2) (Cert.ReferenceIdeal.Hand.run m ρ)

/-- From memories agreeing on the arguments both idealized programs end with the specification's two arrays of the
    arguments: the kernel's results by the composition of its regions and stretches, the reference's by its run. -/
theorem algebraic : Cert.algebraic_KernelIdeal_ReferenceIdeal := by
  intro m ρ m' ρ' _ hagree
  refine ⟨fun c => Cert.Spec.out0 (Cert.KernelIdeal.Hand.a0 m c) (Cert.KernelIdeal.Hand.a1 m c) (Cert.KernelIdeal.Hand.a2 m c)
      (Cert.KernelIdeal.Hand.a3 m c) (Cert.KernelIdeal.Hand.a4 m c) (Cert.KernelIdeal.Hand.a5 m c) (Cert.KernelIdeal.Hand.a6 m c)
      (Cert.KernelIdeal.Hand.a7 m c) (Cert.KernelIdeal.Hand.a8 m c),
    fun c => Cert.Spec.out1 (Cert.KernelIdeal.Hand.a0 m c) (Cert.KernelIdeal.Hand.a1 m c) (Cert.KernelIdeal.Hand.a2 m c)
      (Cert.KernelIdeal.Hand.a3 m c) (Cert.KernelIdeal.Hand.a4 m c) (Cert.KernelIdeal.Hand.a5 m c) (Cert.KernelIdeal.Hand.a6 m c)
      (Cert.KernelIdeal.Hand.a7 m c) (Cert.KernelIdeal.Hand.a8 m c), ?_, ?_⟩
  · exact (θ_run Cert.KernelIdeal.defs _ _).mono
      (fun _ h c => ⟨(h c).1.trans (Cert.KernelIdeal.Hand.result0 m ρ c), (h c).2.1.trans (Cert.KernelIdeal.Hand.result1 m ρ c), (h c).2.2⟩)
      (Cert.KernelIdeal.Hand.run_named (F := Ideal) m ρ)
  · refine (θ_run Cert.ReferenceIdeal.defs _ _).mono (fun _ h c => ?_) (Cert.ReferenceIdeal.Hand.run m' ρ')
    obtain ⟨h0, h1, hargs⟩ := h c
    obtain ⟨e0, e1, e2, e3, e4, e5, e6, e7, e8⟩ := hagree c
    refine ⟨?_, ?_, hargs⟩
    · rw [h0, e0, e1, e2, e3, e4, e5, e6, e7, e8]
    · rw [h1, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
